-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x64 : Shape := ⟨2, ![500000, 64]⟩
abbrev S1000000 : Shape := ⟨1, ![1000000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part7 {F : FTy → Type} [FloatOps F] (main_arg33 : FVec F S16x32 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S16x32 .f32 := Host.absf main_arg33
  let main_cst_48 : FVec F S_ .f32 := constant S_ .f32 0x7F800000#32
  let main_v125 : FVec F S16x32 .f32 := broadcastInDim S16x32 ![] bcast_S_S16x32 main_cst_48
  let main_v126 : IVec S16x32 1 := cmpf .olt main_v124 main_v125
  let main_c_49 : IVec S_ 1 := constantI S_ 1 1#1
  let main_v127 : IVec S_ 1 := (fun x v => Host.reduce IntOp.andi x v reducesTo_S16x32_S_d0_1 h_S_) main_v126 main_c_49
  let main_v128 : IVec S_ 1 := andi main_v123 main_v127
  main_v128

def fn_part6 {F : FTy → Type} [FloatOps F] (main_arg29 : FVec F S32 .f32) (main_arg30 : FVec F S16x32 .f32) (main_arg31 : FVec F S16x32 .f32) (main_arg32 : FVec F S32 .f32) (main_arg33 : FVec F S16x32 .f32) (main_v98 : IVec S_ 1) (main_v101 : IVec S16x32 1) (main_c_39 : IVec S_ 1) : IVec S_ 1 :=
  let main_v102 : IVec S_ 1 := (fun x v => Host.reduce IntOp.andi x v reducesTo_S16x32_S_d0_1 h_S_) main_v101 main_c_39
  let main_v103 : IVec S_ 1 := andi main_v98 main_v102
  let main_v104 : FVec F S32 .f32 := Host.absf main_arg29
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S16x32 .f32 := Host.absf main_arg30
  let main_cst_42 : FVec F S_ .f32 := constant S_ .f32 0x7F800000#32
  let main_v110 : FVec F S16x32 .f32 := broadcastInDim S16x32 ![] bcast_S_S16x32 main_cst_42
  let main_v111 : IVec S16x32 1 := cmpf .olt main_v109 main_v110
  let main_c_43 : IVec S_ 1 := constantI S_ 1 1#1
  let main_v112 : IVec S_ 1 := (fun x v => Host.reduce IntOp.andi x v reducesTo_S16x32_S_d0_1 h_S_) main_v111 main_c_43
  let main_v113 : IVec S_ 1 := andi main_v108 main_v112
  let main_v114 : FVec F S16x32 .f32 := Host.absf main_arg31
  let main_cst_44 : FVec F S_ .f32 := constant S_ .f32 0x7F800000#32
  let main_v115 : FVec F S16x32 .f32 := broadcastInDim S16x32 ![] bcast_S_S16x32 main_cst_44
  let main_v116 : IVec S16x32 1 := cmpf .olt main_v114 main_v115
  let main_c_45 : IVec S_ 1 := constantI S_ 1 1#1
  let main_v117 : IVec S_ 1 := (fun x v => Host.reduce IntOp.andi x v reducesTo_S16x32_S_d0_1 h_S_) main_v116 main_c_45
  let main_v118 : IVec S_ 1 := andi main_v113 main_v117
  let main_v119 : FVec F S32 .f32 := Host.absf main_arg32
  fn_part7 (F := F) main_arg33 main_v118 main_v119

def fn_part5 {F : FTy → Type} [FloatOps F] (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) (main_v83 : IVec S_ 1) (main_v84 : FVec F S16x32 .f32) (main_cst_32 : FVec F S_ .f32) : IVec S_ 1 :=
  let main_v85 : FVec F S16x32 .f32 := broadcastInDim S16x32 ![] bcast_S_S16x32 main_cst_32
  let main_v86 : IVec S16x32 1 := cmpf .olt main_v84 main_v85
  let main_c_33 : IVec S_ 1 := constantI S_ 1 1#1
  let main_v87 : IVec S_ 1 := (fun x v => Host.reduce IntOp.andi x v reducesTo_S16x32_S_d0_1 h_S_) main_v86 main_c_33
  let main_v88 : IVec S_ 1 := andi main_v83 main_v87
  let main_v89 : FVec F S32 .f32 := Host.absf main_arg26
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S16x32 .f32 := Host.absf main_arg27
  let main_cst_36 : FVec F S_ .f32 := constant S_ .f32 0x7F800000#32
  let main_v95 : FVec F S16x32 .f32 := broadcastInDim S16x32 ![] bcast_S_S16x32 main_cst_36
  let main_v96 : IVec S16x32 1 := cmpf .olt main_v94 main_v95
  let main_c_37 : IVec S_ 1 := constantI S_ 1 1#1
  let main_v97 : IVec S_ 1 := (fun x v => Host.reduce IntOp.andi x v reducesTo_S16x32_S_d0_1 h_S_) main_v96 main_c_37
  let main_v98 : IVec S_ 1 := andi main_v93 main_v97
  let main_v99 : FVec F S16x32 .f32 := Host.absf main_arg28
  let main_cst_38 : FVec F S_ .f32 := constant S_ .f32 0x7F800000#32
  let main_v100 : FVec F S16x32 .f32 := broadcastInDim S16x32 ![] bcast_S_S16x32 main_cst_38
  let main_v101 : IVec S16x32 1 := cmpf .olt main_v99 main_v100
  let main_c_39 : IVec S_ 1 := constantI S_ 1 1#1
  fn_part6 (F := F) main_arg29 main_arg30 main_arg31 main_arg32 main_arg33 main_v98 main_v101 main_c_39

def fn_part4 {F : FTy → Type} [FloatOps F] (main_arg22 : FVec F S16x32 .f32) (main_arg23 : FVec F S32 .f32) (main_arg24 : FVec F S16x32 .f32) (main_arg25 : FVec F S16x32 .f32) (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) (main_v63 : IVec S_ 1) (main_v67 : IVec S_ 1) : IVec S_ 1 :=
  let main_v68 : IVec S_ 1 := andi main_v63 main_v67
  let main_v69 : FVec F S16x32 .f32 := Host.absf main_arg22
  let main_cst_26 : FVec F S_ .f32 := constant S_ .f32 0x7F800000#32
  let main_v70 : FVec F S16x32 .f32 := broadcastInDim S16x32 ![] bcast_S_S16x32 main_cst_26
  let main_v71 : IVec S16x32 1 := cmpf .olt main_v69 main_v70
  let main_c_27 : IVec S_ 1 := constantI S_ 1 1#1
  let main_v72 : IVec S_ 1 := (fun x v => Host.reduce IntOp.andi x v reducesTo_S16x32_S_d0_1 h_S_) main_v71 main_c_27
  let main_v73 : IVec S_ 1 := andi main_v68 main_v72
  let main_v74 : FVec F S32 .f32 := Host.absf main_arg23
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S16x32 .f32 := Host.absf main_arg24
  let main_cst_30 : FVec F S_ .f32 := constant S_ .f32 0x7F800000#32
  let main_v80 : FVec F S16x32 .f32 := broadcastInDim S16x32 ![] bcast_S_S16x32 main_cst_30
  let main_v81 : IVec S16x32 1 := cmpf .olt main_v79 main_v80
  let main_c_31 : IVec S_ 1 := constantI S_ 1 1#1
  let main_v82 : IVec S_ 1 := (fun x v => Host.reduce IntOp.andi x v reducesTo_S16x32_S_d0_1 h_S_) main_v81 main_c_31
  let main_v83 : IVec S_ 1 := andi main_v78 main_v82
  let main_v84 : FVec F S16x32 .f32 := Host.absf main_arg25
  let main_cst_32 : FVec F S_ .f32 := constant S_ .f32 0x7F800000#32
  fn_part5 (F := F) main_arg26 main_arg27 main_arg28 main_arg29 main_arg30 main_arg31 main_arg32 main_arg33 main_v83 main_v84 main_cst_32

def fn_part3 {F : FTy → Type} [FloatOps F] (main_arg19 : FVec F S64x16 .f32) (main_arg20 : FVec F S16 .f32) (main_arg21 : FVec F S64x16 .f32) (main_arg22 : FVec F S16x32 .f32) (main_arg23 : FVec F S32 .f32) (main_arg24 : FVec F S16x32 .f32) (main_arg25 : FVec F S16x32 .f32) (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S64x16 .f32 := Host.absf main_arg19
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16 .f32 := Host.absf main_arg20
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S64x16 .f32 := Host.absf main_arg21
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg22 main_arg23 main_arg24 main_arg25 main_arg26 main_arg27 main_arg28 main_arg29 main_arg30 main_arg31 main_arg32 main_arg33 main_v63 main_v67

def fn_part2 {F : FTy → Type} [FloatOps F] (main_arg15 : FVec F S64x16 .f32) (main_arg16 : FVec F S64x16 .f32) (main_arg17 : FVec F S16 .f32) (main_arg18 : FVec F S64x16 .f32) (main_arg19 : FVec F S64x16 .f32) (main_arg20 : FVec F S16 .f32) (main_arg21 : FVec F S64x16 .f32) (main_arg22 : FVec F S16x32 .f32) (main_arg23 : FVec F S32 .f32) (main_arg24 : FVec F S16x32 .f32) (main_arg25 : FVec F S16x32 .f32) (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) (main_v33 : IVec S_ 1) : IVec S_ 1 :=
  let main_v34 : FVec F S64x16 .f32 := Host.absf main_arg15
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64x16 .f32 := Host.absf main_arg16
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg17
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S64x16 .f32 := Host.absf main_arg18
  let main_cst_18 : FVec F S_ .f32 := constant S_ .f32 0x7F800000#32
  let main_v50 : FVec F S64x16 .f32 := broadcastInDim S64x16 ![] bcast_S_S64x16 main_cst_18
  fn_part3 (F := F) main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg12 : FVec F S64x16 .f32) (main_arg13 : FVec F S64x16 .f32) (main_arg14 : FVec F S16 .f32) (main_arg15 : FVec F S64x16 .f32) (main_arg16 : FVec F S64x16 .f32) (main_arg17 : FVec F S16 .f32) (main_arg18 : FVec F S64x16 .f32) (main_arg19 : FVec F S64x16 .f32) (main_arg20 : FVec F S16 .f32) (main_arg21 : FVec F S64x16 .f32) (main_arg22 : FVec F S16x32 .f32) (main_arg23 : FVec F S32 .f32) (main_arg24 : FVec F S16x32 .f32) (main_arg25 : FVec F S16x32 .f32) (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S64x16 .f32 := Host.absf main_arg12
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S64x16 .f32 := Host.absf main_arg13
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg14
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x64 .f32) (main_arg1 : FVec F S500000x64 .f32) (main_arg2 : IVec S1000000 32) (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) (main_arg10 : FVec F S64x16 .f32) (main_arg11 : FVec F S16 .f32) (main_arg12 : FVec F S64x16 .f32) (main_arg13 : FVec F S64x16 .f32) (main_arg14 : FVec F S16 .f32) (main_arg15 : FVec F S64x16 .f32) (main_arg16 : FVec F S64x16 .f32) (main_arg17 : FVec F S16 .f32) (main_arg18 : FVec F S64x16 .f32) (main_arg19 : FVec F S64x16 .f32) (main_arg20 : FVec F S16 .f32) (main_arg21 : FVec F S64x16 .f32) (main_arg22 : FVec F S16x32 .f32) (main_arg23 : FVec F S32 .f32) (main_arg24 : FVec F S16x32 .f32) (main_arg25 : FVec F S16x32 .f32) (main_arg26 : FVec F S32 .f32) (main_arg27 : FVec F S16x32 .f32) (main_arg28 : FVec F S16x32 .f32) (main_arg29 : FVec F S32 .f32) (main_arg30 : FVec F S16x32 .f32) (main_arg31 : FVec F S16x32 .f32) (main_arg32 : FVec F S32 .f32) (main_arg33 : FVec F S16x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S64x16 .f32 := Host.absf main_arg10
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg11
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x64 : Shape := ⟨2, ![100000, 64]⟩
abbrev S500000x64 : Shape := ⟨2, ![500000, 64]⟩
abbrev S1000000 : Shape := ⟨1, ![1000000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S_ : Shape := ⟨0, ![]⟩
abbrev S500000 : Shape := ⟨1, ![500000]⟩
abbrev S1000000x1 : Shape := ⟨2, ![1000000, 1]⟩
abbrev S100000 : Shape := ⟨1, ![100000]⟩
abbrev S1000000x64 : Shape := ⟨2, ![1000000, 64]⟩
abbrev S500000x1 : Shape := ⟨2, ![500000, 1]⟩
abbrev S1x16 : Shape := ⟨2, ![1, 16]⟩
abbrev S500000x16 : Shape := ⟨2, ![500000, 16]⟩
abbrev S5000x64 : Shape := ⟨2, ![5000, 64]⟩
abbrev S5000x1 : Shape := ⟨2, ![5000, 1]⟩
abbrev S5000x16 : Shape := ⟨2, ![5000, 16]⟩
abbrev S100000x1 : Shape := ⟨2, ![100000, 1]⟩
abbrev S100000x16 : Shape := ⟨2, ![100000, 16]⟩
abbrev S1000000x16 : Shape := ⟨2, ![1000000, 16]⟩
abbrev S1x32 : Shape := ⟨2, ![1, 32]⟩
abbrev S500000x32 : Shape := ⟨2, ![500000, 32]⟩
abbrev S5000x32 : Shape := ⟨2, ![5000, 32]⟩
abbrev S100000x32 : Shape := ⟨2, ![100000, 32]⟩

abbrev nBuf : Space → Nat
  | .hbm => 182
  | .vmem => 72
  | .smem => 0
  | _ => 0

abbrev hbmTy0_0 (i : Nat) : BufTy := match i % 128 with
  | 0 => ⟨S100000x64, .f32⟩
  | 1 => ⟨S500000x64, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S64x16, .f32⟩
  | 11 => ⟨S16, .f32⟩
  | 12 => ⟨S64x16, .f32⟩
  | 13 => ⟨S64x16, .f32⟩
  | 14 => ⟨S16, .f32⟩
  | 15 => ⟨S64x16, .f32⟩
  | 16 => ⟨S64x16, .f32⟩
  | 17 => ⟨S16, .f32⟩
  | 18 => ⟨S64x16, .f32⟩
  | 19 => ⟨S64x16, .f32⟩
  | 20 => ⟨S16, .f32⟩
  | 21 => ⟨S64x16, .f32⟩
  | 22 => ⟨S16x32, .f32⟩
  | 23 => ⟨S32, .f32⟩
  | 24 => ⟨S16x32, .f32⟩
  | 25 => ⟨S16x32, .f32⟩
  | 26 => ⟨S32, .f32⟩
  | 27 => ⟨S16x32, .f32⟩
  | 28 => ⟨S16x32, .f32⟩
  | 29 => ⟨S32, .f32⟩
  | 30 => ⟨S16x32, .f32⟩
  | 31 => ⟨S16x32, .f32⟩
  | 32 => ⟨S32, .f32⟩
  | 33 => ⟨S16x32, .f32⟩
  | 34 => ⟨S_, .f32⟩
  | 35 => ⟨S1000000, .f32⟩
  | 36 => ⟨S_, .f32⟩
  | 37 => ⟨S500000, .f32⟩
  | 38 => ⟨S1000000x1, .i32⟩
  | 39 => ⟨S500000, .f32⟩
  | 40 => ⟨S_, .f32⟩
  | 41 => ⟨S1000000, .f32⟩
  | 42 => ⟨S_, .f32⟩
  | 43 => ⟨S500000, .f32⟩
  | 44 => ⟨S1000000x1, .i32⟩
  | 45 => ⟨S500000, .f32⟩
  | 46 => ⟨S_, .f32⟩
  | 47 => ⟨S1000000, .f32⟩
  | 48 => ⟨S_, .f32⟩
  | 49 => ⟨S100000, .f32⟩
  | 50 => ⟨S1000000x1, .i32⟩
  | 51 => ⟨S100000, .f32⟩
  | 52 => ⟨S_, .f32⟩
  | 53 => ⟨S1000000, .f32⟩
  | 54 => ⟨S_, .f32⟩
  | 55 => ⟨S100000, .f32⟩
  | 56 => ⟨S1000000x1, .i32⟩
  | 57 => ⟨S100000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x64, .f32⟩
  | 67 => ⟨S_, .f32⟩
  | 68 => ⟨S500000x64, .f32⟩
  | 69 => ⟨S1000000x1, .i32⟩
  | 70 => ⟨S500000x64, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S_, .f32⟩
  | 81 => ⟨S500000x64, .f32⟩
  | 82 => ⟨S1000000x1, .i32⟩
  | 83 => ⟨S500000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S_, .f32⟩
  | 94 => ⟨S100000x64, .f32⟩
  | 95 => ⟨S1000000x1, .i32⟩
  | 96 => ⟨S100000x64, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S500000x1, .f32⟩
  | 111 => ⟨S500000x1, .f32⟩
  | 112 => ⟨S1x16, .f32⟩
  | 113 => ⟨S1x16, .f32⟩
  | 114 => ⟨S500000x16, .f32⟩
  | 115 => ⟨S100000x1, .f32⟩
  | 116 => ⟨S100000x1, .f32⟩
  | 117 => ⟨S1x16, .f32⟩
  | 118 => ⟨S1x16, .f32⟩
  | 119 => ⟨S100000x16, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_1 (i : Nat) : BufTy := match i % 128 with
  | 0 => ⟨S1000000x16, .f32⟩
  | 1 => ⟨S_, .f32⟩
  | 2 => ⟨S500000x16, .f32⟩
  | 3 => ⟨S1000000x1, .i32⟩
  | 4 => ⟨S500000x16, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x16, .f32⟩
  | 14 => ⟨S_, .f32⟩
  | 15 => ⟨S500000x16, .f32⟩
  | 16 => ⟨S1000000x1, .i32⟩
  | 17 => ⟨S500000x16, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x16, .f32⟩
  | 27 => ⟨S_, .f32⟩
  | 28 => ⟨S100000x16, .f32⟩
  | 29 => ⟨S1000000x1, .i32⟩
  | 30 => ⟨S100000x16, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x16, .f32⟩
  | 40 => ⟨S_, .f32⟩
  | 41 => ⟨S100000x16, .f32⟩
  | 42 => ⟨S1000000x1, .i32⟩
  | 43 => ⟨S100000x16, .f32⟩
  | 44 => ⟨S500000x1, .f32⟩
  | 45 => ⟨S500000x1, .f32⟩
  | 46 => ⟨S1x32, .f32⟩
  | 47 => ⟨S1x32, .f32⟩
  | 48 => ⟨S500000x32, .f32⟩
  | 49 => ⟨S100000x1, .f32⟩
  | 50 => ⟨S100000x1, .f32⟩
  | 51 => ⟨S1x32, .f32⟩
  | 52 => ⟨S1x32, .f32⟩
  | 53 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S64x16, .f32⟩
  | .local _ .vmem, ⟨11, _⟩ => ⟨S1x16, .f32⟩
  | .local _ .vmem, ⟨12, _⟩ => ⟨S64x16, .f32⟩
  | .local _ .vmem, ⟨13, _⟩ => ⟨S64x16, .f32⟩
  | .local _ .vmem, ⟨14, _⟩ => ⟨S1x16, .f32⟩
  | .local _ .vmem, ⟨15, _⟩ => ⟨S64x16, .f32⟩
  | .local _ .vmem, ⟨16, _⟩ => ⟨S5000x16, .f32⟩
  | .local _ .vmem, ⟨17, _⟩ => ⟨S5000x16, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S64x16, .f32⟩
  | .local _ .vmem, ⟨29, _⟩ => ⟨S1x16, .f32⟩
  | .local _ .vmem, ⟨30, _⟩ => ⟨S64x16, .f32⟩
  | .local _ .vmem, ⟨31, _⟩ => ⟨S64x16, .f32⟩
  | .local _ .vmem, ⟨32, _⟩ => ⟨S1x16, .f32⟩
  | .local _ .vmem, ⟨33, _⟩ => ⟨S64x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S5000x16, .f32⟩
  | .local _ .vmem, ⟨38, _⟩ => ⟨S5000x1, .f32⟩
  | .local _ .vmem, ⟨39, _⟩ => ⟨S5000x1, .f32⟩
  | .local _ .vmem, ⟨40, _⟩ => ⟨S5000x16, .f32⟩
  | .local _ .vmem, ⟨41, _⟩ => ⟨S5000x16, .f32⟩
  | .local _ .vmem, ⟨42, _⟩ => ⟨S5000x1, .f32⟩
  | .local _ .vmem, ⟨43, _⟩ => ⟨S5000x1, .f32⟩
  | .local _ .vmem, ⟨44, _⟩ => ⟨S5000x16, .f32⟩
  | .local _ .vmem, ⟨45, _⟩ => ⟨S5000x16, .f32⟩
  | .local _ .vmem, ⟨46, _⟩ => ⟨S16x32, .f32⟩
  | .local _ .vmem, ⟨47, _⟩ => ⟨S1x32, .f32⟩
  | .local _ .vmem, ⟨48, _⟩ => ⟨S16x32, .f32⟩
  | .local _ .vmem, ⟨49, _⟩ => ⟨S16x32, .f32⟩
  | .local _ .vmem, ⟨50, _⟩ => ⟨S1x32, .f32⟩
  | .local _ .vmem, ⟨51, _⟩ => ⟨S16x32, .f32⟩
  | .local _ .vmem, ⟨52, _⟩ => ⟨S5000x32, .f32⟩
  | .local _ .vmem, ⟨53, _⟩ => ⟨S5000x32, .f32⟩
  | .local _ .vmem, ⟨54, _⟩ => ⟨S5000x16, .f32⟩
  | .local _ .vmem, ⟨55, _⟩ => ⟨S5000x16, .f32⟩
  | .local _ .vmem, ⟨56, _⟩ => ⟨S5000x1, .f32⟩
  | .local _ .vmem, ⟨57, _⟩ => ⟨S5000x1, .f32⟩
  | .local _ .vmem, ⟨58, _⟩ => ⟨S5000x16, .f32⟩
  | .local _ .vmem, ⟨59, _⟩ => ⟨S5000x16, .f32⟩
  | .local _ .vmem, ⟨60, _⟩ => ⟨S5000x1, .f32⟩
  | .local _ .vmem, ⟨61, _⟩ => ⟨S5000x1, .f32⟩
  | .local _ .vmem, ⟨62, _⟩ => ⟨S5000x16, .f32⟩
  | .local _ .vmem, ⟨63, _⟩ => ⟨S5000x16, .f32⟩
  | .local _ .vmem, ⟨64, _⟩ => ⟨S16x32, .f32⟩
  | .local _ .vmem, ⟨65, _⟩ => ⟨S1x32, .f32⟩
  | .local _ .vmem, ⟨66, _⟩ => ⟨S16x32, .f32⟩
  | .local _ .vmem, ⟨67, _⟩ => ⟨S16x32, .f32⟩
  | .local _ .vmem, ⟨68, _⟩ => ⟨S1x32, .f32⟩
  | .local _ .vmem, ⟨69, _⟩ => ⟨S16x32, .f32⟩
  | .local _ .vmem, ⟨70, _⟩ => ⟨S5000x32, .f32⟩
  | .local _ .vmem, ⟨71, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_cst : Ref sig .tc := ⟨.hbm, 34, rfl⟩
abbrev main_v0 : Ref sig .tc := ⟨.hbm, 35, rfl⟩
abbrev main_cst_0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst_1 : Ref sig .tc := ⟨.hbm, 40, rfl⟩
abbrev main_v4 : Ref sig .tc := ⟨.hbm, 41, rfl⟩
abbrev main_cst_2 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_3 : Ref sig .tc := ⟨.hbm, 46, rfl⟩
abbrev main_v8 : Ref sig .tc := ⟨.hbm, 47, rfl⟩
abbrev main_cst_4 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_5 : Ref sig .tc := ⟨.hbm, 52, rfl⟩
abbrev main_v12 : Ref sig .tc := ⟨.hbm, 53, rfl⟩
abbrev main_cst_6 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_c : Ref sig .tc := ⟨.hbm, 58, rfl⟩
abbrev main_v16 : Ref sig .tc := ⟨.hbm, 59, rfl⟩
abbrev main_v17 : Ref sig .tc := ⟨.hbm, 60, rfl⟩
abbrev main_c_7 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_8 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_9 : Ref sig .tc := ⟨.hbm, 71, rfl⟩
abbrev main_v26 : Ref sig .tc := ⟨.hbm, 72, rfl⟩
abbrev main_v27 : Ref sig .tc := ⟨.hbm, 73, rfl⟩
abbrev main_c_10 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_11 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_12 : Ref sig .tc := ⟨.hbm, 84, rfl⟩
abbrev main_v36 : Ref sig .tc := ⟨.hbm, 85, rfl⟩
abbrev main_v37 : Ref sig .tc := ⟨.hbm, 86, rfl⟩
abbrev main_c_13 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_14 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_15 : Ref sig .tc := ⟨.hbm, 97, rfl⟩
abbrev main_v46 : Ref sig .tc := ⟨.hbm, 98, rfl⟩
abbrev main_v47 : Ref sig .tc := ⟨.hbm, 99, rfl⟩
abbrev main_c_16 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_17 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_18 : Ref sig .tc := ⟨.hbm, 120, rfl⟩
abbrev main_v66 : Ref sig .tc := ⟨.hbm, 121, rfl⟩
abbrev main_v67 : Ref sig .tc := ⟨.hbm, 122, rfl⟩
abbrev main_c_19 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_20 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_21 : Ref sig .tc := ⟨.hbm, 133, rfl⟩
abbrev main_v76 : Ref sig .tc := ⟨.hbm, 134, rfl⟩
abbrev main_v77 : Ref sig .tc := ⟨.hbm, 135, rfl⟩
abbrev main_c_22 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_23 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_24 : Ref sig .tc := ⟨.hbm, 146, rfl⟩
abbrev main_v86 : Ref sig .tc := ⟨.hbm, 147, rfl⟩
abbrev main_v87 : Ref sig .tc := ⟨.hbm, 148, rfl⟩
abbrev main_c_25 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_26 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_27 : Ref sig .tc := ⟨.hbm, 159, rfl⟩
abbrev main_v96 : Ref sig .tc := ⟨.hbm, 160, rfl⟩
abbrev main_v97 : Ref sig .tc := ⟨.hbm, 161, rfl⟩
abbrev main_c_28 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_29 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg11_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg11_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem11_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem11_1 : DmaSem sig := 71

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S16x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S16x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S16x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S16x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x32 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  bcast_S_S1000000 : S_.BroadcastsInDim S1000000 (![] : Fin 0 → Fin S1000000.rank)
  bcast_S_S500000 : S_.BroadcastsInDim S500000 (![] : Fin 0 → Fin S500000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S_S500000x64 : S_.BroadcastsInDim S500000x64 (![] : Fin 0 → Fin S500000x64.rank)
  bcast_S_S100000x64 : S_.BroadcastsInDim S100000x64 (![] : Fin 0 → Fin S100000x64.rank)
  shapeCasts_S500000_S500000x1 : S500000.ShapeCasts S500000x1
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S100000_S100000x1 : S100000.ShapeCasts S100000x1
  bcast_S_S500000x16 : S_.BroadcastsInDim S500000x16 (![] : Fin 0 → Fin S500000x16.rank)
  bcast_S_S100000x16 : S_.BroadcastsInDim S100000x16 (![] : Fin 0 → Fin S100000x16.rank)
  shapeCasts_S32_S1x32 : S32.ShapeCasts S1x32
  shapeCasts_S5000x16_S5000x16 : S5000x16.ShapeCasts S5000x16
  broadcasts_S5000x1_S5000x16 : S5000x1.Broadcasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S500000_S1000000x1_S1000000_n_0_0_1_wf : ScatterDims.WF S500000 S1000000x1 S1000000 [] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x16_S5000x16_1_0_0_1_n_n_wf : DotDims.WF S5000x64 S64x16 S5000x16 [1] [0] [0] [1] [] []
  gather_S100000x16_S1000000x1_S1000000x16_1_0_n_n_0_1_116_wf : GatherDims.WF S100000x16 S1000000x1 S1000000x16 [1] [0] [] [0] [] 1 ![1, 16]
  scatter_S500000x16_S1000000x1_S1000000x16_1_0_0_1_wf : ScatterDims.WF S500000x16 S1000000x1 S1000000x16 [1] [0] [0] 1
  gather_S500000x16_S1000000x1_S1000000x16_1_0_n_n_0_1_116_wf : GatherDims.WF S500000x16 S1000000x1 S1000000x16 [1] [0] [] [0] [] 1 ![1, 16]
  scatter_S100000x16_S1000000x1_S1000000x16_1_0_0_1_wf : ScatterDims.WF S100000x16 S1000000x1 S1000000x16 [1] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .f32 = 32 ∨ (Rect.block (s := S500000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S500000x1.size a
  hwx0_3 : ∀ i : grid0.Coords, EltTy.bits .f32 = 32 ∨ (Rect.block (s := S500000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S500000x64.size a
  hwx0_4 : ∀ i : grid0.Coords, EltTy.bits .f32 = 32 ∨ (Rect.block (s := S500000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .f32 = 32 ∨ (Rect.block (s := S64x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x16.size a ≤ S64x16.size a
  hwx0_10 : ∀ i : grid0.Coords, EltTy.bits .f32 = 32 ∨ (Rect.block (s := S64x16) S64x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x16.size a ≤ S500000x16.size a
  hwx0_11 : ∀ i : grid0.Coords, EltTy.bits .f32 = 32 ∨ (Rect.block (s := S500000x16) S5000x16.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S64x16.size a
  hwx1_7 : ∀ i : grid1.Coords, EltTy.bits .f32 = 32 ∨ (Rect.block (s := S64x16) S64x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x16.size a ≤ S64x16.size a
  hwx1_8 : ∀ i : grid1.Coords, EltTy.bits .f32 = 32 ∨ (Rect.block (s := S64x16) S64x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x16.size a ≤ S64x16.size a
  hwx1_10 : ∀ i : grid1.Coords, EltTy.bits .f32 = 32 ∨ (Rect.block (s := S64x16) S64x16.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x16.size a ≤ S100000x16.size a
  hwx1_11 : ∀ i : grid1.Coords, EltTy.bits .f32 = 32 ∨ (Rect.block (s := S100000x16) S5000x16.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .f32 = 32 ∨ (Rect.block (s := S500000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S500000x16.size a
  hwx2_2 : ∀ i : grid2.Coords, EltTy.bits .f32 = 32 ∨ (Rect.block (s := S500000x16) S5000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S500000x1.size a
  hwx2_3 : ∀ i : grid2.Coords, EltTy.bits .f32 = 32 ∨ (Rect.block (s := S500000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S500000x16.size a
  hwx2_4 : ∀ i : grid2.Coords, EltTy.bits .f32 = 32 ∨ (Rect.block (s := S500000x16) S5000x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x32.size a ≤ S16x32.size a
  hwx2_5 : ∀ i : grid2.Coords, EltTy.bits .f32 = 32 ∨ (Rect.block (s := S16x32) S16x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16x32.size a ≤ S16x32.size a
  hwx2_7 : ∀ i : grid2.Coords, EltTy.bits .f32 = 32 ∨ (Rect.block (s := S16x32) S16x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16x32.size a ≤ S16x32.size a
  hwx2_8 : ∀ i : grid2.Coords, EltTy.bits .f32 = 32 ∨ (Rect.block (s := S16x32) S16x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S16x32.size a ≤ S16x32.size a
  hwx2_10 : ∀ i : grid2.Coords, EltTy.bits .f32 = 32 ∨ (Rect.block (s := S16x32) S16x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x32.size a ≤ S500000x32.size a
  hwx2_11 : ∀ i : grid2.Coords, EltTy.bits .f32 = 32 ∨ (Rect.block (s := S500000x32) S5000x32.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x32.size a ≤ S16x32.size a
  hwx3_5 : ∀ i : grid3.Coords, EltTy.bits .f32 = 32 ∨ (Rect.block (s := S16x32) S16x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x32.size a ≤ S16x32.size a
  hwx3_7 : ∀ i : grid3.Coords, EltTy.bits .f32 = 32 ∨ (Rect.block (s := S16x32) S16x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S16x32.size a ≤ S16x32.size a
  hwx3_8 : ∀ i : grid3.Coords, EltTy.bits .f32 = 32 ∨ (Rect.block (s := S16x32) S16x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x32.size a ≤ S1x32.size a
  hwx3_9 : ∀ i : grid3.Coords, EltTy.bits .f32 = 32 ∨ (Rect.block (s := S1x32) S1x32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S16x32.size a ≤ S16x32.size a
  hwx3_10 : ∀ i : grid3.Coords, EltTy.bits .f32 = 32 ∨ (Rect.block (s := S16x32) S16x32.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x32.size a ≤ S100000x32.size a
  hwx3_11 : ∀ i : grid3.Coords, EltTy.bits .f32 = 32 ∨ (Rect.block (s := S100000x32) S5000x32.size (cc3_transform_11 i) (hinb3_11 i)).WholeWords (EltTy.packing .f32)

variable [Facts₀]

def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S500000x16_S1000000x1_S1000000x16_1_0_0_1 : ScatterDims S500000x16 S1000000x1 S1000000x16 where
  updateWindowDims := [1]
  insertedWindowDims := [0]
  scatterDimsToOperandDims := [0]
  indexVectorDim := 1
  wf := scatter_S500000x16_S1000000x1_S1000000x16_1_0_0_1_wf
def gather_S500000x16_S1000000x1_S1000000x16_1_0_n_n_0_1_116 : GatherDims S500000x16 S1000000x1 S1000000x16 where
  offsetDims := [1]
  collapsedSliceDims := [0]
  operandBatchingDims := []
  startIndicesBatchingDims := []
  startIndexMap := [0]
  indexVectorDim := 1
  sliceSizes := ![1, 16]
  wf := gather_S500000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v59) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v60) S5000x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S64x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S64x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v64) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg21) S64x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v65) S5000x16.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v75) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v107) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x16.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S16x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v108) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg24) S16x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S16x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v109) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg27) S16x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v110) S5000x32.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v95) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v111) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v105) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v112) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x16.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg28) S16x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v113) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg30) S16x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg31) S16x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v114) S1x32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg33) S16x32.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v115) S5000x32.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S100000x64 : Shape := ⟨2, ![100000, 64]⟩
abbrev S500000x64 : Shape := ⟨2, ![500000, 64]⟩
abbrev S1000000 : Shape := ⟨1, ![1000000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S_ : Shape := ⟨0, ![]⟩
abbrev S1000000x1 : Shape := ⟨2, ![1000000, 1]⟩
abbrev S1000000x64 : Shape := ⟨2, ![1000000, 64]⟩
abbrev S500000 : Shape := ⟨1, ![500000]⟩
abbrev S500000x1 : Shape := ⟨2, ![500000, 1]⟩
abbrev S500000x16 : Shape := ⟨2, ![500000, 16]⟩
abbrev S1x16 : Shape := ⟨2, ![1, 16]⟩
abbrev S100000 : Shape := ⟨1, ![100000]⟩
abbrev S100000x1 : Shape := ⟨2, ![100000, 1]⟩
abbrev S100000x16 : Shape := ⟨2, ![100000, 16]⟩
abbrev S1000000x16 : Shape := ⟨2, ![1000000, 16]⟩
abbrev S500000x32 : Shape := ⟨2, ![500000, 32]⟩
abbrev S1x32 : Shape := ⟨2, ![1, 32]⟩
abbrev S100000x32 : Shape := ⟨2, ![100000, 32]⟩

abbrev nBuf : Space → Nat
  | .hbm => 292
  | .vmem => 0
  | .smem => 0
  | _ => 0

abbrev hbmTy0_0 (i : Nat) : BufTy := match i % 128 with
  | 0 => ⟨S100000x64, .f32⟩
  | 1 => ⟨S500000x64, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S64x16, .f32⟩
  | 11 => ⟨S16, .f32⟩
  | 12 => ⟨S64x16, .f32⟩
  | 13 => ⟨S64x16, .f32⟩
  | 14 => ⟨S16, .f32⟩
  | 15 => ⟨S64x16, .f32⟩
  | 16 => ⟨S64x16, .f32⟩
  | 17 => ⟨S16, .f32⟩
  | 18 => ⟨S64x16, .f32⟩
  | 19 => ⟨S64x16, .f32⟩
  | 20 => ⟨S16, .f32⟩
  | 21 => ⟨S64x16, .f32⟩
  | 22 => ⟨S16x32, .f32⟩
  | 23 => ⟨S32, .f32⟩
  | 24 => ⟨S16x32, .f32⟩
  | 25 => ⟨S16x32, .f32⟩
  | 26 => ⟨S32, .f32⟩
  | 27 => ⟨S16x32, .f32⟩
  | 28 => ⟨S16x32, .f32⟩
  | 29 => ⟨S32, .f32⟩
  | 30 => ⟨S16x32, .f32⟩
  | 31 => ⟨S16x32, .f32⟩
  | 32 => ⟨S32, .f32⟩
  | 33 => ⟨S16x32, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S_, .f32⟩
  | 44 => ⟨S500000x64, .f32⟩
  | 45 => ⟨S1000000x1, .i32⟩
  | 46 => ⟨S500000x64, .f32⟩
  | 47 => ⟨S_, .f32⟩
  | 48 => ⟨S1000000, .f32⟩
  | 49 => ⟨S_, .f32⟩
  | 50 => ⟨S500000, .f32⟩
  | 51 => ⟨S1000000x1, .i32⟩
  | 52 => ⟨S500000, .f32⟩
  | 53 => ⟨S_, .f32⟩
  | 54 => ⟨S500000, .f32⟩
  | 55 => ⟨S500000, .f32⟩
  | 56 => ⟨S500000x1, .f32⟩
  | 57 => ⟨S500000x64, .f32⟩
  | 58 => ⟨S500000x64, .f32⟩
  | 59 => ⟨S500000x16, .f32⟩
  | 60 => ⟨S1x16, .f32⟩
  | 61 => ⟨S500000x16, .f32⟩
  | 62 => ⟨S500000x16, .f32⟩
  | 63 => ⟨S500000x16, .f32⟩
  | 64 => ⟨S500000x16, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .f32⟩
  | 75 => ⟨S500000x64, .f32⟩
  | 76 => ⟨S1000000x1, .i32⟩
  | 77 => ⟨S500000x64, .f32⟩
  | 78 => ⟨S_, .f32⟩
  | 79 => ⟨S1000000, .f32⟩
  | 80 => ⟨S_, .f32⟩
  | 81 => ⟨S500000, .f32⟩
  | 82 => ⟨S1000000x1, .i32⟩
  | 83 => ⟨S500000, .f32⟩
  | 84 => ⟨S_, .f32⟩
  | 85 => ⟨S500000, .f32⟩
  | 86 => ⟨S500000, .f32⟩
  | 87 => ⟨S500000x1, .f32⟩
  | 88 => ⟨S500000x64, .f32⟩
  | 89 => ⟨S500000x64, .f32⟩
  | 90 => ⟨S500000x16, .f32⟩
  | 91 => ⟨S1x16, .f32⟩
  | 92 => ⟨S500000x16, .f32⟩
  | 93 => ⟨S500000x16, .f32⟩
  | 94 => ⟨S500000x16, .f32⟩
  | 95 => ⟨S500000x16, .f32⟩
  | 96 => ⟨S500000x16, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S_, .f32⟩
  | 111 => ⟨S1000000, .f32⟩
  | 112 => ⟨S_, .f32⟩
  | 113 => ⟨S100000, .f32⟩
  | 114 => ⟨S1000000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S100000x16, .f32⟩
  | 123 => ⟨S1x16, .f32⟩
  | 124 => ⟨S100000x16, .f32⟩
  | 125 => ⟨S100000x16, .f32⟩
  | 126 => ⟨S100000x16, .f32⟩
  | 127 => ⟨S100000x16, .f32⟩
  | _ => ⟨S100000x64, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S_, .f32⟩
  | 10 => ⟨S100000x64, .f32⟩
  | 11 => ⟨S1000000x1, .i32⟩
  | 12 => ⟨S100000x64, .f32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S100000x16, .f32⟩
  | 26 => ⟨S1x16, .f32⟩
  | 27 => ⟨S100000x16, .f32⟩
  | 28 => ⟨S100000x16, .f32⟩
  | 29 => ⟨S100000x16, .f32⟩
  | 30 => ⟨S100000x16, .f32⟩
  | 31 => ⟨S100000x16, .f32⟩
  | 32 => ⟨S_, .f32⟩
  | 33 => ⟨S100000x16, .f32⟩
  | 34 => ⟨S100000x16, .f32⟩
  | 35 => ⟨S_, .f32⟩
  | 36 => ⟨S500000x16, .f32⟩
  | 37 => ⟨S500000x16, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x16, .f32⟩
  | 47 => ⟨S_, .f32⟩
  | 48 => ⟨S500000x16, .f32⟩
  | 49 => ⟨S1000000x1, .i32⟩
  | 50 => ⟨S500000x16, .f32⟩
  | 51 => ⟨S_, .f32⟩
  | 52 => ⟨S1000000, .f32⟩
  | 53 => ⟨S_, .f32⟩
  | 54 => ⟨S500000, .f32⟩
  | 55 => ⟨S1000000x1, .i32⟩
  | 56 => ⟨S500000, .f32⟩
  | 57 => ⟨S_, .f32⟩
  | 58 => ⟨S500000, .f32⟩
  | 59 => ⟨S500000, .f32⟩
  | 60 => ⟨S500000x1, .f32⟩
  | 61 => ⟨S500000x16, .f32⟩
  | 62 => ⟨S500000x16, .f32⟩
  | 63 => ⟨S500000x32, .f32⟩
  | 64 => ⟨S1x32, .f32⟩
  | 65 => ⟨S500000x32, .f32⟩
  | 66 => ⟨S500000x32, .f32⟩
  | 67 => ⟨S500000x32, .f32⟩
  | 68 => ⟨S500000x32, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x16, .f32⟩
  | 78 => ⟨S_, .f32⟩
  | 79 => ⟨S500000x16, .f32⟩
  | 80 => ⟨S1000000x1, .i32⟩
  | 81 => ⟨S500000x16, .f32⟩
  | 82 => ⟨S_, .f32⟩
  | 83 => ⟨S1000000, .f32⟩
  | 84 => ⟨S_, .f32⟩
  | 85 => ⟨S500000, .f32⟩
  | 86 => ⟨S1000000x1, .i32⟩
  | 87 => ⟨S500000, .f32⟩
  | 88 => ⟨S_, .f32⟩
  | 89 => ⟨S500000, .f32⟩
  | 90 => ⟨S500000, .f32⟩
  | 91 => ⟨S500000x1, .f32⟩
  | 92 => ⟨S500000x16, .f32⟩
  | 93 => ⟨S500000x16, .f32⟩
  | 94 => ⟨S500000x32, .f32⟩
  | 95 => ⟨S1x32, .f32⟩
  | 96 => ⟨S500000x32, .f32⟩
  | 97 => ⟨S500000x32, .f32⟩
  | 98 => ⟨S500000x32, .f32⟩
  | 99 => ⟨S500000x32, .f32⟩
  | 100 => ⟨S500000x32, .f32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000x16, .f32⟩
  | 110 => ⟨S_, .f32⟩
  | 111 => ⟨S100000x16, .f32⟩
  | 112 => ⟨S1000000x1, .i32⟩
  | 113 => ⟨S100000x16, .f32⟩
  | 114 => ⟨S_, .f32⟩
  | 115 => ⟨S1000000, .f32⟩
  | 116 => ⟨S_, .f32⟩
  | 117 => ⟨S100000, .f32⟩
  | 118 => ⟨S1000000x1, .i32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x16, .f32⟩
  | 125 => ⟨S100000x16, .f32⟩
  | 126 => ⟨S100000x32, .f32⟩
  | 127 => ⟨S1x32, .f32⟩
  | _ => ⟨S100000x64, .f32⟩

abbrev hbmTy0_2 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x16, .f32⟩
  | 13 => ⟨S_, .f32⟩
  | 14 => ⟨S100000x16, .f32⟩
  | 15 => ⟨S1000000x1, .i32⟩
  | 16 => ⟨S100000x16, .f32⟩
  | 17 => ⟨S_, .f32⟩
  | 18 => ⟨S1000000, .f32⟩
  | 19 => ⟨S_, .f32⟩
  | 20 => ⟨S100000, .f32⟩
  | 21 => ⟨S1000000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x16, .f32⟩
  | 28 => ⟨S100000x16, .f32⟩
  | 29 => ⟨S100000x32, .f32⟩
  | 30 => ⟨S1x32, .f32⟩
  | 31 => ⟨S100000x32, .f32⟩
  | 32 => ⟨S100000x32, .f32⟩
  | 33 => ⟨S100000x32, .f32⟩
  | 34 => ⟨S100000x32, .f32⟩
  | 35 => ⟨S100000x32, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_c : Ref sig .tc := ⟨.hbm, 34, rfl⟩
abbrev main_v0 : Ref sig .tc := ⟨.hbm, 35, rfl⟩
abbrev main_v1 : Ref sig .tc := ⟨.hbm, 36, rfl⟩
abbrev main_c_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_1 : Ref sig .tc := ⟨.hbm, 47, rfl⟩
abbrev main_v10 : Ref sig .tc := ⟨.hbm, 48, rfl⟩
abbrev main_cst_2 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_3 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_4 : Ref sig .tc := ⟨.hbm, 65, rfl⟩
abbrev main_v25 : Ref sig .tc := ⟨.hbm, 66, rfl⟩
abbrev main_v26 : Ref sig .tc := ⟨.hbm, 67, rfl⟩
abbrev main_c_5 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_6 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_7 : Ref sig .tc := ⟨.hbm, 78, rfl⟩
abbrev main_v35 : Ref sig .tc := ⟨.hbm, 79, rfl⟩
abbrev main_cst_8 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_9 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_10 : Ref sig .tc := ⟨.hbm, 97, rfl⟩
abbrev main_v51 : Ref sig .tc := ⟨.hbm, 98, rfl⟩
abbrev main_v52 : Ref sig .tc := ⟨.hbm, 99, rfl⟩
abbrev main_c_11 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_12 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_13 : Ref sig .tc := ⟨.hbm, 110, rfl⟩
abbrev main_v61 : Ref sig .tc := ⟨.hbm, 111, rfl⟩
abbrev main_cst_14 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_15 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_16 : Ref sig .tc := ⟨.hbm, 128, rfl⟩
abbrev main_v76 : Ref sig .tc := ⟨.hbm, 129, rfl⟩
abbrev main_v77 : Ref sig .tc := ⟨.hbm, 130, rfl⟩
abbrev main_c_17 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_18 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_19 : Ref sig .tc := ⟨.hbm, 141, rfl⟩
abbrev main_v86 : Ref sig .tc := ⟨.hbm, 142, rfl⟩
abbrev main_cst_20 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_21 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_call0_cst : Ref sig .tc := ⟨.hbm, 160, rfl⟩
abbrev main_call0_v0 : Ref sig .tc := ⟨.hbm, 161, rfl⟩
abbrev main_v102 : Ref sig .tc := ⟨.hbm, 162, rfl⟩
abbrev main_call1_cst : Ref sig .tc := ⟨.hbm, 163, rfl⟩
abbrev main_call1_v0 : Ref sig .tc := ⟨.hbm, 164, rfl⟩
abbrev main_v103 : Ref sig .tc := ⟨.hbm, 165, rfl⟩
abbrev main_c_22 : Ref sig .tc := ⟨.hbm, 166, rfl⟩
abbrev main_v104 : Ref sig .tc := ⟨.hbm, 167, rfl⟩
abbrev main_v105 : Ref sig .tc := ⟨.hbm, 168, rfl⟩
abbrev main_c_23 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_24 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_25 : Ref sig .tc := ⟨.hbm, 179, rfl⟩
abbrev main_v114 : Ref sig .tc := ⟨.hbm, 180, rfl⟩
abbrev main_cst_26 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_27 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_c_28 : Ref sig .tc := ⟨.hbm, 197, rfl⟩
abbrev main_v129 : Ref sig .tc := ⟨.hbm, 198, rfl⟩
abbrev main_v130 : Ref sig .tc := ⟨.hbm, 199, rfl⟩
abbrev main_c_29 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_30 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_31 : Ref sig .tc := ⟨.hbm, 210, rfl⟩
abbrev main_v139 : Ref sig .tc := ⟨.hbm, 211, rfl⟩
abbrev main_cst_32 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_33 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_c_34 : Ref sig .tc := ⟨.hbm, 229, rfl⟩
abbrev main_v155 : Ref sig .tc := ⟨.hbm, 230, rfl⟩
abbrev main_v156 : Ref sig .tc := ⟨.hbm, 231, rfl⟩
abbrev main_c_35 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_36 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_cst_37 : Ref sig .tc := ⟨.hbm, 242, rfl⟩
abbrev main_v165 : Ref sig .tc := ⟨.hbm, 243, rfl⟩
abbrev main_cst_38 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_cst_39 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_c_40 : Ref sig .tc := ⟨.hbm, 260, rfl⟩
abbrev main_v180 : Ref sig .tc := ⟨.hbm, 261, rfl⟩
abbrev main_v181 : Ref sig .tc := ⟨.hbm, 262, rfl⟩
abbrev main_c_41 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_42 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_cst_43 : Ref sig .tc := ⟨.hbm, 273, rfl⟩
abbrev main_v190 : Ref sig .tc := ⟨.hbm, 274, rfl⟩
abbrev main_cst_44 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_cst_45 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x64 : S_.BroadcastsInDim S500000x64 (![] : Fin 0 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S500000x16 : S_.BroadcastsInDim S500000x16 (![] : Fin 0 → Fin S500000x16.rank)
  bcast_S500000x1_S500000x16_0_1 : S500000x1.BroadcastsInDim S500000x16 (![0, 1] : Fin 2 → Fin S500000x16.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S100000x1_S100000x16_0_1 : S100000x1.BroadcastsInDim S100000x16 (![0, 1] : Fin 2 → Fin S100000x16.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S500000x64_S1000000x1_S1000000x64_1_0_0_1_wf : ScatterDims.WF S500000x64 S1000000x1 S1000000x64 [1] [0] [0] 1
  scatter_S500000_S1000000x1_S1000000_n_0_0_1_wf : ScatterDims.WF S500000 S1000000x1 S1000000 [] [0] [0] 1
  dot_S500000x64_S64x16_S500000x16_1_0_0_1_n_n_wf : DotDims.WF S500000x64 S64x16 S500000x16 [1] [0] [0] [1] [] []
  gather_S500000x64_S1000000x1_S1000000x64_1_0_n_n_0_1_164_wf : GatherDims.WF S500000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x16_S100000x16_1_0_0_1_n_n_wf : DotDims.WF S100000x64 S64x16 S100000x16 [1] [0] [0] [1] [] []
  gather_S100000x16_S1000000x1_S1000000x16_1_0_n_n_0_1_116_wf : GatherDims.WF S100000x16 S1000000x1 S1000000x16 [1] [0] [] [0] [] 1 ![1, 16]
  scatter_S500000x16_S1000000x1_S1000000x16_1_0_0_1_wf : ScatterDims.WF S500000x16 S1000000x1 S1000000x16 [1] [0] [0] 1
  dot_S500000x16_S16x32_S500000x32_1_0_0_1_n_n_wf : DotDims.WF S500000x16 S16x32 S500000x32 [1] [0] [0] [1] [] []
  gather_S500000x16_S1000000x1_S1000000x16_1_0_n_n_0_1_116_wf : GatherDims.WF S500000x16 S1000000x1 S1000000x16 [1] [0] [] [0] [] 1 ![1, 16]
  scatter_S100000x16_S1000000x1_S1000000x16_1_0_0_1_wf : ScatterDims.WF S100000x16 S1000000x1 S1000000x16 [1] [0] [0] 1
  dot_S100000x16_S16x32_S100000x32_1_0_0_1_n_n_wf : DotDims.WF S100000x16 S16x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def dot_S500000x64_S64x16_S500000x16_1_0_0_1_n_n : DotDims S500000x64 S64x16 S500000x16 where
  lhsContracting := [1]
  rhsContracting := [0]
  lhsNonContracting := [0]
  rhsNonContracting := [1]
  lhsBatch := []
  rhsBatch := []
  wf := dot_S500000x64_S64x16_S500000x16_1_0_0_1_n_n_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S500000x16_S1000000x1_S1000000x16_1_0_0_1 : ScatterDims S500000x16 S1000000x1 S1000000x16 where
  updateWindowDims := [1]
  insertedWindowDims := [0]
  scatterDimsToOperandDims := [0]
  indexVectorDim := 1
  wf := scatter_S500000x16_S1000000x1_S1000000x16_1_0_0_1_wf
def dot_S500000x16_S16x32_S500000x32_1_0_0_1_n_n : DotDims S500000x16 S16x32 S500000x32 where
  lhsContracting := [1]
  rhsContracting := [0]
  lhsNonContracting := [0]
  rhsNonContracting := [1]
  lhsBatch := []
  rhsBatch := []
  wf := dot_S500000x16_S16x32_S500000x32_1_0_0_1_n_n_wf
def gather_S500000x16_S1000000x1_S1000000x16_1_0_n_n_0_1_116 : GatherDims S500000x16 S1000000x1 S1000000x16 where
  offsetDims := [1]
  collapsedSliceDims := [0]
  operandBatchingDims := []
  startIndicesBatchingDims := []
  startIndexMap := [0]
  indexVectorDim := 1
  sliceSizes := ![1, 16]
  wf := gather_S500000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.SageRun.lean ====
/-
  The idealized kernel program's run, with its two results read.

  The program is four launches of the combine kernel among stretches of host operations. Its buffer contents at the
  eight segment boundaries are a fold from the launch memory: a host stretch applies its operations, a launch
  replaces each of its arrays by what its write-backs leave and keeps every other buffer. Every weakly fair execution
  terminates, nothing faulting, with every unscoped buffer at the last boundary's contents `W8`; so the two result
  buffers end at `W8` read at their references, and each argument, which no stretch and no launch writes, ends as
  launched.
-/
import proofs.«180402_j10711648436497_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting; the two result buffers end at the last
    boundary's contents and the arguments as launched. -/
theorem run_results : θ_run defs (onTc (τ := τ) (main (F := F))) ⟨m, fun _ => 0, ρ⟩ (fun r => ∀ c : Dev nD,
      r.2.mem ((c.tc : Thread nD τ).loc main_v115) = W8 m ρ c (Proc.devRef .tc main_v115)
      ∧ r.2.mem ((c.tc : Thread nD τ).loc main_v110) = W8 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v115 (by decide)),
       h c _ (mem_uc main_v110 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c),
       (h c _ (mem_uc main_arg31 (by decide))).trans (W8_main_arg31 m ρ c),
       (h c _ (mem_uc main_arg32 (by decide))).trans (W8_main_arg32 m ρ c),
       (h c _ (mem_uc main_arg33 (by decide))).trans (W8_main_arg33 m ρ c)⟩)

end Cert.KernelIdeal.SageRun

end
-- ==== Proof.SageSpec.lean ====
/-
  One destination node's combined message, entry by entry, on the extended reals.

  For one destination row and one output column the layer adds, over the two relations that share the
  destination type, the relation's neighbour mean pushed through its neighbour weights, its bias, and the
  row's own features pushed through its root weights. With `a k` the summed neighbour feature `k`, `c` the
  number of neighbours, `x k` the row's own feature `k`, and the weight columns `wl`, `wr` and bias `b` of the
  output column at hand, one relation contributes

      (Σₖ (a k / max c 1) · wl k) + b + Σₖ x k · wr k.

  The kernel accumulates the six terms of the two relations left to right into one running sum; the reference
  forms each relation's three terms first and adds the two results. Addition of extended reals is associative
  (and needs no finiteness: `⊤ + ⊥ = ⊥` is still associative), so the two are one value: `combK_eq_combR`.
-/
import Idealize.ShloMosaic.PureOps.Ideal.Laws

noncomputable section

namespace Cert.Sage

open Idealize.ShloMosaic

/-- The word of `1.0`, as the extended real it denotes (never evaluated: both programs carry the same word). -/
abbrev oneE : EReal := Ideal.ofBits .f32 0x3F800000#32
/-- The word of `0.0`, as the extended real it denotes. -/
abbrev zeroE : EReal := Ideal.ofBits .f32 0x00000000#32

/-- A summed neighbour feature divided by the neighbour count, the count clamped below at one
    (an isolated node's mean is its zero sum over one). -/
def meanE (a c : EReal) : EReal := Ideal.div a (max c oneE)

/-- The rectifier: the larger of the value and zero. -/
def reluE (v : EReal) : EReal := max v zeroE

/-- The combined entry as the kernel accumulates it: one running sum, the six terms left to right. -/
def combK {K : Type} [Fintype K] (a0 a1 x : K → EReal) (c0 c1 : EReal) (wl0 wr0 wl1 wr1 : K → EReal)
    (b0 b1 : EReal) : EReal :=
  (((((∑ k, meanE (a0 k) c0 * wl0 k) + b0) + ∑ k, x k * wr0 k) + ∑ k, meanE (a1 k) c1 * wl1 k) + b1)
    + ∑ k, x k * wr1 k

/-- The combined entry as the reference forms it: each relation's three terms first, then the two results. -/
def combR {K : Type} [Fintype K] (a0 a1 x : K → EReal) (c0 c1 : EReal) (wl0 wr0 wl1 wr1 : K → EReal)
    (b0 b1 : EReal) : EReal :=
  (((∑ k, meanE (a0 k) c0 * wl0 k) + b0) + ∑ k, x k * wr0 k)
    + (((∑ k, meanE (a1 k) c1 * wl1 k) + b1) + ∑ k, x k * wr1 k)

/-- The two associations of the six-term sum agree on every extended real. -/
theorem combK_eq_combR {K : Type} [Fintype K] (a0 a1 x : K → EReal) (c0 c1 : EReal)
    (wl0 wr0 wl1 wr1 : K → EReal) (b0 b1 : EReal) :
    combK a0 a1 x c0 c1 wl0 wr0 wl1 wr1 b0 b1 = combR a0 a1 x c0 c1 wl0 wr0 wl1 wr1 b0 b1 := by
  unfold combK combR
  simp only [add_assoc]

end Cert.Sage

end
-- ==== Proof.SageHost.lean ====
/-
  The idealized kernel program's buffers between its launches.

  The program alternates stretches of host operations with four launches of the combine kernel. A host stretch
  rewrites exactly the buffers its operations name as results; a launch rewrites exactly its result buffer. So a
  buffer is followed from the launch memory to any later boundary by naming which stretch computes it and noting
  that nothing after that writes it: the arguments are never written; the neighbour counts and the layer-1
  neighbour sums are computed in the first stretch; the layer-2 neighbour sums in the third, from the two layer-1
  results; the reshaped counts and biases just before the launch that reads them.

  The neighbour count of a relation is a scatter-add of ones by destination node; a neighbour sum is a scatter-add by
  destination node of the rows gathered by source node (a negative source index counted from the end, as the
  program's own select/add writes it). Both programs apply these same host operations, so they are carried here as
  named functions of their operands and never opened.
-/
import proofs.«180402_j10711648436497_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.SageHost

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## What each host stretch writes -/

/-- The buffers the operations of host stretch 0 write. -/
abbrev wr0 : List (Ref sig .tc) := [
    main_cst, main_v0, main_cst_0, main_v1, main_v2, main_v3, main_cst_1, main_v4, main_cst_2, main_v5,
    main_v6, main_v7, main_cst_3, main_v8, main_cst_4, main_v9, main_v10, main_v11, main_cst_5, main_v12,
    main_cst_6, main_v13, main_v14, main_v15, main_c, main_v16, main_v17, main_c_7, main_v18, main_v19,
    main_v20, main_v21, main_v22, main_cst_8, main_v23, main_v24, main_v25, main_c_9, main_v26, main_v27,
    main_c_10, main_v28, main_v29, main_v30, main_v31, main_v32, main_cst_11, main_v33, main_v34, main_v35,
    main_c_12, main_v36, main_v37, main_c_13, main_v38, main_v39, main_v40, main_v41, main_v42, main_cst_14,
    main_v43, main_v44, main_v45, main_c_15, main_v46, main_v47, main_c_16, main_v48, main_v49, main_v50,
    main_v51, main_v52, main_cst_17, main_v53, main_v54, main_v55, main_v56, main_v57, main_v58, main_v59 ]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 1 write. -/
abbrev wr1 : List (Ref sig .tc) := [
    main_v61, main_v62, main_v63, main_v64 ]
theorem wr1_sub : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 2 write. -/
abbrev wr2 : List (Ref sig .tc) := [
    main_c_18, main_v66, main_v67, main_c_19, main_v68, main_v69, main_v70, main_v71, main_v72, main_cst_20,
    main_v73, main_v74, main_v75, main_c_21, main_v76, main_v77, main_c_22, main_v78, main_v79, main_v80,
    main_v81, main_v82, main_cst_23, main_v83, main_v84, main_v85, main_c_24, main_v86, main_v87, main_c_25,
    main_v88, main_v89, main_v90, main_v91, main_v92, main_cst_26, main_v93, main_v94, main_v95, main_c_27,
    main_v96, main_v97, main_c_28, main_v98, main_v99, main_v100, main_v101, main_v102, main_cst_29, main_v103,
    main_v104, main_v105, main_v106, main_v107, main_v108, main_v109 ]
theorem wr2_sub : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of host stretch 3 write. -/
abbrev wr3 : List (Ref sig .tc) := [
    main_v111, main_v112, main_v113, main_v114 ]
theorem wr3_sub : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-! ## What each segment keeps -/

/-- A buffer host stretch 0 does not write passes it unchanged. -/
theorem keep1 (c : Dev nD) (r : Ref sig .tc) (h : r ∉ wr0) :
    W1 m ρ c (Proc.devRef .tc r) = W0 m ρ c (Proc.devRef .tc r) :=
  StableHlo.after_of_writes_sub hostOps0 _ wr0_sub h

/-- A buffer host stretch 1 does not write passes it unchanged. -/
theorem keep3 (c : Dev nD) (r : Ref sig .tc) (h : r ∉ wr1) :
    W3 m ρ c (Proc.devRef .tc r) = W2 m ρ c (Proc.devRef .tc r) :=
  StableHlo.after_of_writes_sub hostOps1 _ wr1_sub h

/-- A buffer host stretch 2 does not write passes it unchanged. -/
theorem keep5 (c : Dev nD) (r : Ref sig .tc) (h : r ∉ wr2) :
    W5 m ρ c (Proc.devRef .tc r) = W4 m ρ c (Proc.devRef .tc r) :=
  StableHlo.after_of_writes_sub hostOps2 _ wr2_sub h

/-- A buffer host stretch 3 does not write passes it unchanged. -/
theorem keep7 (c : Dev nD) (r : Ref sig .tc) (h : r ∉ wr3) :
    W7 m ρ c (Proc.devRef .tc r) = W6 m ρ c (Proc.devRef .tc r) :=
  StableHlo.after_of_writes_sub hostOps3 _ wr3_sub h

/-- Launch 0 changes its result buffer only: an input window's array ends as entered (no block of it is written
    back), and a buffer that is no array of the launch is not touched. -/
theorem keep2 (c : Dev nD) (b : Ref sig .tc) (hb : b ≠ main_v60) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      revert hb; revert w; decide
    exact (W2_arr m ρ c w).trans (((dat0 (V1 m ρ) c).arrAt_in w hw _).trans (A_eq0 (V1 m ρ) c w))
  · exact W2_of_ne m ρ c b (fun w e => h ⟨w, e⟩)

/-- Launch 1 changes its result buffer only: an input window's array ends as entered (no block of it is written
    back), and a buffer that is no array of the launch is not touched. -/
theorem keep4 (c : Dev nD) (b : Ref sig .tc) (hb : b ≠ main_v65) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      revert hb; revert w; decide
    exact (W4_arr m ρ c w).trans (((dat1 (V3 m ρ) c).arrAt_in w hw _).trans (A_eq1 (V3 m ρ) c w))
  · exact W4_of_ne m ρ c b (fun w e => h ⟨w, e⟩)

/-- Launch 2 changes its result buffer only: an input window's array ends as entered (no block of it is written
    back), and a buffer that is no array of the launch is not touched. -/
theorem keep6 (c : Dev nD) (b : Ref sig .tc) (hb : b ≠ main_v110) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      revert hb; revert w; decide
    exact (W6_arr m ρ c w).trans (((dat2 (V5 m ρ) c).arrAt_in w hw _).trans (A_eq2 (V5 m ρ) c w))
  · exact W6_of_ne m ρ c b (fun w e => h ⟨w, e⟩)

/-- Launch 3 changes its result buffer only: an input window's array ends as entered (no block of it is written
    back), and a buffer that is no array of the launch is not touched. -/
theorem keep8 (c : Dev nD) (b : Ref sig .tc) (hb : b ≠ main_v115) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      revert hb; revert w; decide
    exact (W8_arr m ρ c w).trans (((dat3 (V7 m ρ) c).arrAt_in w hw _).trans (A_eq3 (V7 m ρ) c w))
  · exact W8_of_ne m ρ c b (fun w e => h ⟨w, e⟩)

/-! ## The host chains, named -/

/-- The number of edges of a relation ending at each task node: ones scatter-added by destination. -/
def cntT (dst : (⟨S1000000, .i32⟩ : BufTy).Contents (Elt F)) : (⟨S500000, .f32⟩ : BufTy).Contents (Elt F) :=
  Host.scatterAdd scatter_S500000_S1000000x1_S1000000_n_0_0_1
    (broadcastInDim S500000 ![] bcast_S_S500000 (constant S_ .f32 0x00000000#32))
    (broadcastInDim S1000000x1 ![0] bcast_S1000000_S1000000x1_0 dst)
    (broadcastInDim S1000000 ![] bcast_S_S1000000 (constant S_ .f32 0x3F800000#32))

/-- The number of edges of a relation ending at each device node. -/
def cntD (dst : (⟨S1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32))
    (broadcastInDim S1000000x1 ![0] bcast_S1000000_S1000000x1_0 dst)
    (broadcastInDim S1000000 ![] bcast_S_S1000000 (constant S_ .f32 0x3F800000#32))

/-- The source indices as the gather takes them: a negative index counted from the end of a table of `n` rows. -/
def srcIdx (n : BitVec 32) (src : (⟨S1000000, .i32⟩ : BufTy).Contents (Elt F)) : (⟨S1000000x1, .i32⟩ : BufTy).Contents (Elt F) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 n))) src)

/-- Layer 1, device → task: the device rows gathered by source, scatter-added by destination task. -/
def aggT64 (x : (⟨S100000x64, .f32⟩ : BufTy).Contents (Elt F)) (src dst : (⟨S1000000, .i32⟩ : BufTy).Contents (Elt F)) : (⟨S500000x64, .f32⟩ : BufTy).Contents (Elt F) :=
  Host.scatterAdd scatter_S500000x64_S1000000x1_S1000000x64_1_0_0_1
    (broadcastInDim S500000x64 ![] bcast_S_S500000x64 (constant S_ .f32 0x00000000#32))
    (broadcastInDim S1000000x1 ![0] bcast_S1000000_S1000000x1_0 dst)
    (Host.gather gather_S100000x64_S1000000x1_S1000000x64_1_0_n_n_0_1_164 x (srcIdx 100000#32 src))

/-- Layer 1, task → device. -/
def aggD64 (x : (⟨S500000x64, .f32⟩ : BufTy).Contents (Elt F)) (src dst : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S500000x64_S1000000x1_S1000000x64_1_0_n_n_0_1_164 x (srcIdx 500000#32 src))

/-- Layer 2, device → task, over the layer-1 device result. -/
def aggT16 (x : (⟨S100000x16, .f32⟩ : BufTy).Contents (Elt F)) (src dst : (⟨S1000000, .i32⟩ : BufTy).Contents (Elt F)) : (⟨S500000x16, .f32⟩ : BufTy).Contents (Elt F) :=
  Host.scatterAdd scatter_S500000x16_S1000000x1_S1000000x16_1_0_0_1
    (broadcastInDim S500000x16 ![] bcast_S_S500000x16 (constant S_ .f32 0x00000000#32))
    (broadcastInDim S1000000x1 ![0] bcast_S1000000_S1000000x1_0 dst)
    (Host.gather gather_S100000x16_S1000000x1_S1000000x16_1_0_n_n_0_1_116 x (srcIdx 100000#32 src))

/-- Layer 2, task → device, over the layer-1 task result. -/
def aggD16 (x : (⟨S500000x16, .f32⟩ : BufTy).Contents (Elt F)) (src dst : (⟨S1000000, .i32⟩ : BufTy).Contents (Elt F)) : (⟨S100000x16, .f32⟩ : BufTy).Contents (Elt F) :=
  Host.scatterAdd scatter_S100000x16_S1000000x1_S1000000x16_1_0_0_1
    (broadcastInDim S100000x16 ![] bcast_S_S100000x16 (constant S_ .f32 0x00000000#32))
    (broadcastInDim S1000000x1 ![0] bcast_S1000000_S1000000x1_0 dst)
    (Host.gather gather_S500000x16_S1000000x1_S1000000x16_1_0_n_n_0_1_116 x (srcIdx 500000#32 src))

/-! ## The first stretch's results -/

set_option maxHeartbeats 4000000 in
theorem v3_at1 (c : Dev nD) :
    W1 m ρ c (Proc.devRef .tc main_v3) = cntT (F := F) (m ((c : Thread nD τ).loc main_arg3)) := by
  show StableHlo.after hostOps0 (W0 m ρ c) (Proc.devRef .tc main_v3) = _
  after_results_simp
  rfl

set_option maxHeartbeats 4000000 in
theorem v25_at1 (c : Dev nD) :
    W1 m ρ c (Proc.devRef .tc main_v25) = aggT64 (F := F) (m ((c : Thread nD τ).loc main_arg0))
      (m ((c : Thread nD τ).loc main_arg2)) (m ((c : Thread nD τ).loc main_arg3)) := by
  show StableHlo.after hostOps0 (W0 m ρ c) (Proc.devRef .tc main_v25) = _
  after_results_simp
  rfl

set_option maxHeartbeats 4000000 in
theorem v7_at1 (c : Dev nD) :
    W1 m ρ c (Proc.devRef .tc main_v7) = cntT (F := F) (m ((c : Thread nD τ).loc main_arg5)) := by
  show StableHlo.after hostOps0 (W0 m ρ c) (Proc.devRef .tc main_v7) = _
  after_results_simp
  rfl

set_option maxHeartbeats 4000000 in
theorem v11_at1 (c : Dev nD) :
    W1 m ρ c (Proc.devRef .tc main_v11) = cntD (F := F) (m ((c : Thread nD τ).loc main_arg7)) := by
  show StableHlo.after hostOps0 (W0 m ρ c) (Proc.devRef .tc main_v11) = _
  after_results_simp
  rfl

set_option maxHeartbeats 4000000 in
theorem v15_at1 (c : Dev nD) :
    W1 m ρ c (Proc.devRef .tc main_v15) = cntD (F := F) (m ((c : Thread nD τ).loc main_arg9)) := by
  show StableHlo.after hostOps0 (W0 m ρ c) (Proc.devRef .tc main_v15) = _
  after_results_simp
  rfl

set_option maxHeartbeats 4000000 in
theorem v35_at1 (c : Dev nD) :
    W1 m ρ c (Proc.devRef .tc main_v35) = aggT64 (F := F) (m ((c : Thread nD τ).loc main_arg0))
      (m ((c : Thread nD τ).loc main_arg4)) (m ((c : Thread nD τ).loc main_arg5)) := by
  show StableHlo.after hostOps0 (W0 m ρ c) (Proc.devRef .tc main_v35) = _
  after_results_simp
  rfl

set_option maxHeartbeats 4000000 in
theorem v45_at1 (c : Dev nD) :
    W1 m ρ c (Proc.devRef .tc main_v45) = aggD64 (F := F) (m ((c : Thread nD τ).loc main_arg1))
      (m ((c : Thread nD τ).loc main_arg6)) (m ((c : Thread nD τ).loc main_arg7)) := by
  show StableHlo.after hostOps0 (W0 m ρ c) (Proc.devRef .tc main_v45) = _
  after_results_simp
  rfl

set_option maxHeartbeats 4000000 in
theorem v55_at1 (c : Dev nD) :
    W1 m ρ c (Proc.devRef .tc main_v55) = aggD64 (F := F) (m ((c : Thread nD τ).loc main_arg1))
      (m ((c : Thread nD τ).loc main_arg8)) (m ((c : Thread nD τ).loc main_arg9)) := by
  show StableHlo.after hostOps0 (W0 m ρ c) (Proc.devRef .tc main_v55) = _
  after_results_simp
  rfl

/-! ## A reshaped count column and a reshaped bias row, read at an index -/

/-- A vector reshaped to one column, read at a row, is the vector at that row. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    omega)

/-! ## The arguments, and the first stretch's results, at the later boundaries -/

theorem arg_at1 (c : Dev nD) (b : Ref sig .tc) (h0 : b ∉ wr0) :
    W1 m ρ c (Proc.devRef .tc b) = m ((c : Thread nD τ).loc b) :=
  (keep1 m ρ c b h0).trans rfl
theorem from1_at3 (c : Dev nD) (b : Ref sig .tc) (h1 : b ∉ wr1) (n0 : b ≠ main_v60) :
    W3 m ρ c (Proc.devRef .tc b) = W1 m ρ c (Proc.devRef .tc b) :=
  (keep3 m ρ c b h1).trans (keep2 m ρ c b n0)
theorem from1_at4 (c : Dev nD) (b : Ref sig .tc) (h1 : b ∉ wr1) (n0 : b ≠ main_v60) (n1 : b ≠ main_v65) :
    W4 m ρ c (Proc.devRef .tc b) = W1 m ρ c (Proc.devRef .tc b) :=
  (keep4 m ρ c b n1).trans (from1_at3 m ρ c b h1 n0)
theorem from1_at5 (c : Dev nD) (b : Ref sig .tc) (h1 : b ∉ wr1) (h2 : b ∉ wr2) (n0 : b ≠ main_v60) (n1 : b ≠ main_v65) :
    W5 m ρ c (Proc.devRef .tc b) = W1 m ρ c (Proc.devRef .tc b) :=
  (keep5 m ρ c b h2).trans (from1_at4 m ρ c b h1 n0 n1)
theorem from1_at6 (c : Dev nD) (b : Ref sig .tc) (h1 : b ∉ wr1) (h2 : b ∉ wr2) (n0 : b ≠ main_v60) (n1 : b ≠ main_v65)
    (n2 : b ≠ main_v110) : W6 m ρ c (Proc.devRef .tc b) = W1 m ρ c (Proc.devRef .tc b) :=
  (keep6 m ρ c b n2).trans (from1_at5 m ρ c b h1 h2 n0 n1)
theorem from1_at7 (c : Dev nD) (b : Ref sig .tc) (h1 : b ∉ wr1) (h2 : b ∉ wr2) (h3 : b ∉ wr3) (n0 : b ≠ main_v60)
    (n1 : b ≠ main_v65) (n2 : b ≠ main_v110) : W7 m ρ c (Proc.devRef .tc b) = W1 m ρ c (Proc.devRef .tc b) :=
  (keep7 m ρ c b h3).trans (from1_at6 m ρ c b h1 h2 n0 n1 n2)
theorem arg_at3 (c : Dev nD) (b : Ref sig .tc) (h0 : b ∉ wr0) (h1 : b ∉ wr1) (n0 : b ≠ main_v60) :
    W3 m ρ c (Proc.devRef .tc b) = m ((c : Thread nD τ).loc b) :=
  (from1_at3 m ρ c b h1 n0).trans (arg_at1 m ρ c b h0)
theorem arg_at4 (c : Dev nD) (b : Ref sig .tc) (h0 : b ∉ wr0) (h1 : b ∉ wr1) (n0 : b ≠ main_v60) (n1 : b ≠ main_v65) :
    W4 m ρ c (Proc.devRef .tc b) = m ((c : Thread nD τ).loc b) :=
  (from1_at4 m ρ c b h1 n0 n1).trans (arg_at1 m ρ c b h0)
theorem arg_at5 (c : Dev nD) (b : Ref sig .tc) (h0 : b ∉ wr0) (h1 : b ∉ wr1) (h2 : b ∉ wr2) (n0 : b ≠ main_v60) (n1 : b ≠ main_v65) :
    W5 m ρ c (Proc.devRef .tc b) = m ((c : Thread nD τ).loc b) :=
  (from1_at5 m ρ c b h1 h2 n0 n1).trans (arg_at1 m ρ c b h0)
theorem arg_at6 (c : Dev nD) (b : Ref sig .tc) (h0 : b ∉ wr0) (h1 : b ∉ wr1) (h2 : b ∉ wr2) (n0 : b ≠ main_v60) (n1 : b ≠ main_v65) (n2 : b ≠ main_v110) :
    W6 m ρ c (Proc.devRef .tc b) = m ((c : Thread nD τ).loc b) :=
  (from1_at6 m ρ c b h1 h2 n0 n1 n2).trans (arg_at1 m ρ c b h0)
theorem arg_at7 (c : Dev nD) (b : Ref sig .tc) (h0 : b ∉ wr0) (h1 : b ∉ wr1) (h2 : b ∉ wr2) (h3 : b ∉ wr3) (n0 : b ≠ main_v60) (n1 : b ≠ main_v65) (n2 : b ≠ main_v110) :
    W7 m ρ c (Proc.devRef .tc b) = m ((c : Thread nD τ).loc b) :=
  (from1_at7 m ρ c b h1 h2 h3 n0 n1 n2).trans (arg_at1 m ρ c b h0)

/-! ## Launch 0's operands at its entry (the first boundary) -/

set_option maxHeartbeats 4000000 in
theorem v56_at1 (c : Dev nD) (r : Fin 500000) (u : Fin 1) :
    (W1 m ρ c (Proc.devRef .tc main_v56) : (⟨S500000x1, .f32⟩ : BufTy).Contents (Elt F)) (ValueIdx.ix2 r u)
      = cntT (F := F) (m ((c : Thread nD τ).loc main_arg3)) (ValueIdx.ix1 r) := by
  have e : W1 m ρ c (Proc.devRef .tc main_v56)
      = shapeCast S500000x1 (cntT (F := F) (m ((c : Thread nD τ).loc main_arg3))) shapeCasts_S500000_S500000x1 := by
    show StableHlo.after hostOps0 (W0 m ρ c) (Proc.devRef .tc main_v56) = _
    after_results_simp
    rfl
  rw [e]
  exact shapeCast_col_apply _ _ r u

set_option maxHeartbeats 4000000 in
theorem v57_at1 (c : Dev nD) (r : Fin 500000) (u : Fin 1) :
    (W1 m ρ c (Proc.devRef .tc main_v57) : (⟨S500000x1, .f32⟩ : BufTy).Contents (Elt F)) (ValueIdx.ix2 r u)
      = cntT (F := F) (m ((c : Thread nD τ).loc main_arg5)) (ValueIdx.ix1 r) := by
  have e : W1 m ρ c (Proc.devRef .tc main_v57)
      = shapeCast S500000x1 (cntT (F := F) (m ((c : Thread nD τ).loc main_arg5))) shapeCasts_S500000_S500000x1 := by
    show StableHlo.after hostOps0 (W0 m ρ c) (Proc.devRef .tc main_v57) = _
    after_results_simp
    rfl
  rw [e]
  exact shapeCast_col_apply _ _ r u

set_option maxHeartbeats 4000000 in
theorem v58_at1 (c : Dev nD) (u : Fin 1) (j : Fin 16) :
    (W1 m ρ c (Proc.devRef .tc main_v58) : (⟨S1x16, .f32⟩ : BufTy).Contents (Elt F)) (ValueIdx.ix2 u j)
      = ((m ((c : Thread nD τ).loc main_arg11)) : (⟨S16, .f32⟩ : BufTy).Contents (Elt F)) (ValueIdx.ix1 j) := by
  have e : W1 m ρ c (Proc.devRef .tc main_v58)
      = shapeCast S1x16 ((m ((c : Thread nD τ).loc main_arg11)) : (⟨S16, .f32⟩ : BufTy).Contents (Elt F)) shapeCasts_S16_S1x16 := by
    show StableHlo.after hostOps0 (W0 m ρ c) (Proc.devRef .tc main_v58) = _
    after_results_simp
    rfl
  rw [e]
  exact ValueIdx.shapeCast_a_1a_apply _ _ u j

set_option maxHeartbeats 4000000 in
theorem v59_at1 (c : Dev nD) (u : Fin 1) (j : Fin 16) :
    (W1 m ρ c (Proc.devRef .tc main_v59) : (⟨S1x16, .f32⟩ : BufTy).Contents (Elt F)) (ValueIdx.ix2 u j)
      = ((m ((c : Thread nD τ).loc main_arg14)) : (⟨S16, .f32⟩ : BufTy).Contents (Elt F)) (ValueIdx.ix1 j) := by
  have e : W1 m ρ c (Proc.devRef .tc main_v59)
      = shapeCast S1x16 ((m ((c : Thread nD τ).loc main_arg14)) : (⟨S16, .f32⟩ : BufTy).Contents (Elt F)) shapeCasts_S16_S1x16 := by
    show StableHlo.after hostOps0 (W0 m ρ c) (Proc.devRef .tc main_v59) = _
    after_results_simp
    rfl
  rw [e]
  exact ValueIdx.shapeCast_a_1a_apply _ _ u j

/-! ## Launch 1's operands at its entry (the third boundary) -/

theorem v45_at3 (c : Dev nD) :
    W3 m ρ c (Proc.devRef .tc main_v45) = aggD64 (F := F) (m ((c : Thread nD τ).loc main_arg1))
      (m ((c : Thread nD τ).loc main_arg6)) (m ((c : Thread nD τ).loc main_arg7)) :=
  (from1_at3 m ρ c main_v45 (by decide) (by decide)).trans (v45_at1 m ρ c)

theorem v55_at3 (c : Dev nD) :
    W3 m ρ c (Proc.devRef .tc main_v55) = aggD64 (F := F) (m ((c : Thread nD τ).loc main_arg1))
      (m ((c : Thread nD τ).loc main_arg8)) (m ((c : Thread nD τ).loc main_arg9)) :=
  (from1_at3 m ρ c main_v55 (by decide) (by decide)).trans (v55_at1 m ρ c)

theorem v61_at3 (c : Dev nD) (r : Fin 100000) (u : Fin 1) :
    (W3 m ρ c (Proc.devRef .tc main_v61) : (⟨S100000x1, .f32⟩ : BufTy).Contents (Elt F)) (ValueIdx.ix2 r u)
      = cntD (F := F) (m ((c : Thread nD τ).loc main_arg7)) (ValueIdx.ix1 r) := by
  have e : W3 m ρ c (Proc.devRef .tc main_v61)
      = shapeCast S100000x1 (W2 m ρ c (Proc.devRef .tc main_v11)) shapeCasts_S100000_S100000x1 := by
    show StableHlo.after hostOps1 (W2 m ρ c) (Proc.devRef .tc main_v61) = _
    after_results_simp
    rfl
  rw [e]
  refine (shapeCast_col_apply _ _ r u).trans ?_
  exact congrFun ((keep2 m ρ c main_v11 (by decide)).trans (v11_at1 m ρ c)) (ValueIdx.ix1 r)

theorem v62_at3 (c : Dev nD) (r : Fin 100000) (u : Fin 1) :
    (W3 m ρ c (Proc.devRef .tc main_v62) : (⟨S100000x1, .f32⟩ : BufTy).Contents (Elt F)) (ValueIdx.ix2 r u)
      = cntD (F := F) (m ((c : Thread nD τ).loc main_arg9)) (ValueIdx.ix1 r) := by
  have e : W3 m ρ c (Proc.devRef .tc main_v62)
      = shapeCast S100000x1 (W2 m ρ c (Proc.devRef .tc main_v15)) shapeCasts_S100000_S100000x1 := by
    show StableHlo.after hostOps1 (W2 m ρ c) (Proc.devRef .tc main_v62) = _
    after_results_simp
    rfl
  rw [e]
  refine (shapeCast_col_apply _ _ r u).trans ?_
  exact congrFun ((keep2 m ρ c main_v15 (by decide)).trans (v15_at1 m ρ c)) (ValueIdx.ix1 r)

theorem v63_at3 (c : Dev nD) (u : Fin 1) (j : Fin 16) :
    (W3 m ρ c (Proc.devRef .tc main_v63) : (⟨S1x16, .f32⟩ : BufTy).Contents (Elt F)) (ValueIdx.ix2 u j)
      = ((m ((c : Thread nD τ).loc main_arg17)) : (⟨S16, .f32⟩ : BufTy).Contents (Elt F)) (ValueIdx.ix1 j) := by
  have e : W3 m ρ c (Proc.devRef .tc main_v63)
      = shapeCast S1x16 (W2 m ρ c (Proc.devRef .tc main_arg17)) shapeCasts_S16_S1x16 := by
    show StableHlo.after hostOps1 (W2 m ρ c) (Proc.devRef .tc main_v63) = _
    after_results_simp
    rfl
  rw [e]
  refine (ValueIdx.shapeCast_a_1a_apply _ _ u j).trans ?_
  exact congrFun ((keep2 m ρ c main_arg17 (by decide)).trans (arg_at1 m ρ c main_arg17 (by decide))) (ValueIdx.ix1 j)

theorem v64_at3 (c : Dev nD) (u : Fin 1) (j : Fin 16) :
    (W3 m ρ c (Proc.devRef .tc main_v64) : (⟨S1x16, .f32⟩ : BufTy).Contents (Elt F)) (ValueIdx.ix2 u j)
      = ((m ((c : Thread nD τ).loc main_arg20)) : (⟨S16, .f32⟩ : BufTy).Contents (Elt F)) (ValueIdx.ix1 j) := by
  have e : W3 m ρ c (Proc.devRef .tc main_v64)
      = shapeCast S1x16 (W2 m ρ c (Proc.devRef .tc main_arg20)) shapeCasts_S16_S1x16 := by
    show StableHlo.after hostOps1 (W2 m ρ c) (Proc.devRef .tc main_v64) = _
    after_results_simp
    rfl
  rw [e]
  refine (ValueIdx.shapeCast_a_1a_apply _ _ u j).trans ?_
  exact congrFun ((keep2 m ρ c main_arg20 (by decide)).trans (arg_at1 m ρ c main_arg20 (by decide))) (ValueIdx.ix1 j)

/-! ## Launch 2's operands at its entry (the fifth boundary) -/

set_option maxHeartbeats 4000000 in
/-- A layer-2 neighbour sum, over the layer-1 result as the fourth boundary holds it. -/
theorem v75_at5 (c : Dev nD) :
    W5 m ρ c (Proc.devRef .tc main_v75) = aggT16 (F := F) (W4 m ρ c (Proc.devRef .tc main_v65))
      (m ((c : Thread nD τ).loc main_arg2)) (m ((c : Thread nD τ).loc main_arg3)) := by
  have e : W5 m ρ c (Proc.devRef .tc main_v75) = aggT16 (F := F) (W4 m ρ c (Proc.devRef .tc main_v65))
      (W4 m ρ c (Proc.devRef .tc main_arg2)) (W4 m ρ c (Proc.devRef .tc main_arg3)) := by
    show StableHlo.after hostOps2 (W4 m ρ c) (Proc.devRef .tc main_v75) = _
    after_results_simp
    rfl
  rw [e, arg_at4 m ρ c main_arg2 (by decide) (by decide) (by decide) (by decide),
    arg_at4 m ρ c main_arg3 (by decide) (by decide) (by decide) (by decide)]

set_option maxHeartbeats 4000000 in
/-- A layer-2 neighbour sum, over the layer-1 result as the fourth boundary holds it. -/
theorem v85_at5 (c : Dev nD) :
    W5 m ρ c (Proc.devRef .tc main_v85) = aggT16 (F := F) (W4 m ρ c (Proc.devRef .tc main_v65))
      (m ((c : Thread nD τ).loc main_arg4)) (m ((c : Thread nD τ).loc main_arg5)) := by
  have e : W5 m ρ c (Proc.devRef .tc main_v85) = aggT16 (F := F) (W4 m ρ c (Proc.devRef .tc main_v65))
      (W4 m ρ c (Proc.devRef .tc main_arg4)) (W4 m ρ c (Proc.devRef .tc main_arg5)) := by
    show StableHlo.after hostOps2 (W4 m ρ c) (Proc.devRef .tc main_v85) = _
    after_results_simp
    rfl
  rw [e, arg_at4 m ρ c main_arg4 (by decide) (by decide) (by decide) (by decide),
    arg_at4 m ρ c main_arg5 (by decide) (by decide) (by decide) (by decide)]

set_option maxHeartbeats 4000000 in
/-- A layer-2 neighbour sum, over the layer-1 result as the fourth boundary holds it. -/
theorem v95_at5 (c : Dev nD) :
    W5 m ρ c (Proc.devRef .tc main_v95) = aggD16 (F := F) (W4 m ρ c (Proc.devRef .tc main_v60))
      (m ((c : Thread nD τ).loc main_arg6)) (m ((c : Thread nD τ).loc main_arg7)) := by
  have e : W5 m ρ c (Proc.devRef .tc main_v95) = aggD16 (F := F) (W4 m ρ c (Proc.devRef .tc main_v60))
      (W4 m ρ c (Proc.devRef .tc main_arg6)) (W4 m ρ c (Proc.devRef .tc main_arg7)) := by
    show StableHlo.after hostOps2 (W4 m ρ c) (Proc.devRef .tc main_v95) = _
    after_results_simp
    rfl
  rw [e, arg_at4 m ρ c main_arg6 (by decide) (by decide) (by decide) (by decide),
    arg_at4 m ρ c main_arg7 (by decide) (by decide) (by decide) (by decide)]

set_option maxHeartbeats 4000000 in
/-- A layer-2 neighbour sum, over the layer-1 result as the fourth boundary holds it. -/
theorem v105_at5 (c : Dev nD) :
    W5 m ρ c (Proc.devRef .tc main_v105) = aggD16 (F := F) (W4 m ρ c (Proc.devRef .tc main_v60))
      (m ((c : Thread nD τ).loc main_arg8)) (m ((c : Thread nD τ).loc main_arg9)) := by
  have e : W5 m ρ c (Proc.devRef .tc main_v105) = aggD16 (F := F) (W4 m ρ c (Proc.devRef .tc main_v60))
      (W4 m ρ c (Proc.devRef .tc main_arg8)) (W4 m ρ c (Proc.devRef .tc main_arg9)) := by
    show StableHlo.after hostOps2 (W4 m ρ c) (Proc.devRef .tc main_v105) = _
    after_results_simp
    rfl
  rw [e, arg_at4 m ρ c main_arg8 (by decide) (by decide) (by decide) (by decide),
    arg_at4 m ρ c main_arg9 (by decide) (by decide) (by decide) (by decide)]

/-- The layer-1 task result, which launch 2 reads as its rows' own features, is still what launch 0 left. -/
theorem v60_at5 (c : Dev nD) : W5 m ρ c (Proc.devRef .tc main_v60) = W2 m ρ c (Proc.devRef .tc main_v60) :=
  (keep5 m ρ c main_v60 (by decide)).trans ((keep4 m ρ c main_v60 (by decide)).trans (keep3 m ρ c main_v60 (by decide)))
/-- At the fourth boundary too (where the third stretch's gathers read it). -/
theorem v60_at4 (c : Dev nD) : W4 m ρ c (Proc.devRef .tc main_v60) = W2 m ρ c (Proc.devRef .tc main_v60) :=
  (keep4 m ρ c main_v60 (by decide)).trans (keep3 m ρ c main_v60 (by decide))

theorem v106_at5 (c : Dev nD) (r : Fin 500000) (u : Fin 1) :
    (W5 m ρ c (Proc.devRef .tc main_v106) : (⟨S500000x1, .f32⟩ : BufTy).Contents (Elt F)) (ValueIdx.ix2 r u)
      = cntT (F := F) (m ((c : Thread nD τ).loc main_arg3)) (ValueIdx.ix1 r) := by
  have e : W5 m ρ c (Proc.devRef .tc main_v106)
      = shapeCast S500000x1 (W4 m ρ c (Proc.devRef .tc main_v3)) shapeCasts_S500000_S500000x1 := by
    show StableHlo.after hostOps2 (W4 m ρ c) (Proc.devRef .tc main_v106) = _
    after_results_simp
    rfl
  rw [e]
  refine (shapeCast_col_apply _ _ r u).trans ?_
  exact congrFun ((from1_at4 m ρ c main_v3 (by decide) (by decide) (by decide)).trans (v3_at1 m ρ c)) (ValueIdx.ix1 r)

theorem v107_at5 (c : Dev nD) (r : Fin 500000) (u : Fin 1) :
    (W5 m ρ c (Proc.devRef .tc main_v107) : (⟨S500000x1, .f32⟩ : BufTy).Contents (Elt F)) (ValueIdx.ix2 r u)
      = cntT (F := F) (m ((c : Thread nD τ).loc main_arg5)) (ValueIdx.ix1 r) := by
  have e : W5 m ρ c (Proc.devRef .tc main_v107)
      = shapeCast S500000x1 (W4 m ρ c (Proc.devRef .tc main_v7)) shapeCasts_S500000_S500000x1 := by
    show StableHlo.after hostOps2 (W4 m ρ c) (Proc.devRef .tc main_v107) = _
    after_results_simp
    rfl
  rw [e]
  refine (shapeCast_col_apply _ _ r u).trans ?_
  exact congrFun ((from1_at4 m ρ c main_v7 (by decide) (by decide) (by decide)).trans (v7_at1 m ρ c)) (ValueIdx.ix1 r)

theorem v108_at5 (c : Dev nD) (u : Fin 1) (j : Fin 32) :
    (W5 m ρ c (Proc.devRef .tc main_v108) : (⟨S1x32, .f32⟩ : BufTy).Contents (Elt F)) (ValueIdx.ix2 u j)
      = ((m ((c : Thread nD τ).loc main_arg23)) : (⟨S32, .f32⟩ : BufTy).Contents (Elt F)) (ValueIdx.ix1 j) := by
  have e : W5 m ρ c (Proc.devRef .tc main_v108)
      = shapeCast S1x32 (W4 m ρ c (Proc.devRef .tc main_arg23)) shapeCasts_S32_S1x32 := by
    show StableHlo.after hostOps2 (W4 m ρ c) (Proc.devRef .tc main_v108) = _
    after_results_simp
    rfl
  rw [e]
  refine (ValueIdx.shapeCast_a_1a_apply _ _ u j).trans ?_
  exact congrFun (arg_at4 m ρ c main_arg23 (by decide) (by decide) (by decide) (by decide)) (ValueIdx.ix1 j)

theorem v109_at5 (c : Dev nD) (u : Fin 1) (j : Fin 32) :
    (W5 m ρ c (Proc.devRef .tc main_v109) : (⟨S1x32, .f32⟩ : BufTy).Contents (Elt F)) (ValueIdx.ix2 u j)
      = ((m ((c : Thread nD τ).loc main_arg26)) : (⟨S32, .f32⟩ : BufTy).Contents (Elt F)) (ValueIdx.ix1 j) := by
  have e : W5 m ρ c (Proc.devRef .tc main_v109)
      = shapeCast S1x32 (W4 m ρ c (Proc.devRef .tc main_arg26)) shapeCasts_S32_S1x32 := by
    show StableHlo.after hostOps2 (W4 m ρ c) (Proc.devRef .tc main_v109) = _
    after_results_simp
    rfl
  rw [e]
  refine (ValueIdx.shapeCast_a_1a_apply _ _ u j).trans ?_
  exact congrFun (arg_at4 m ρ c main_arg26 (by decide) (by decide) (by decide) (by decide)) (ValueIdx.ix1 j)

/-! ## Launch 3's operands at its entry (the seventh boundary) -/

theorem v95_at7 (c : Dev nD) : W7 m ρ c (Proc.devRef .tc main_v95) = W5 m ρ c (Proc.devRef .tc main_v95) :=
  (keep7 m ρ c main_v95 (by decide)).trans (keep6 m ρ c main_v95 (by decide))

theorem v105_at7 (c : Dev nD) : W7 m ρ c (Proc.devRef .tc main_v105) = W5 m ρ c (Proc.devRef .tc main_v105) :=
  (keep7 m ρ c main_v105 (by decide)).trans (keep6 m ρ c main_v105 (by decide))

/-- The layer-1 device result, which launch 3 reads as its rows' own features, is still what launch 1 left. -/
theorem v65_at7 (c : Dev nD) : W7 m ρ c (Proc.devRef .tc main_v65) = W4 m ρ c (Proc.devRef .tc main_v65) :=
  (keep7 m ρ c main_v65 (by decide)).trans ((keep6 m ρ c main_v65 (by decide)).trans (keep5 m ρ c main_v65 (by decide)))

theorem v111_at7 (c : Dev nD) (r : Fin 100000) (u : Fin 1) :
    (W7 m ρ c (Proc.devRef .tc main_v111) : (⟨S100000x1, .f32⟩ : BufTy).Contents (Elt F)) (ValueIdx.ix2 r u)
      = cntD (F := F) (m ((c : Thread nD τ).loc main_arg7)) (ValueIdx.ix1 r) := by
  have e : W7 m ρ c (Proc.devRef .tc main_v111)
      = shapeCast S100000x1 (W6 m ρ c (Proc.devRef .tc main_v11)) shapeCasts_S100000_S100000x1 := by
    show StableHlo.after hostOps3 (W6 m ρ c) (Proc.devRef .tc main_v111) = _
    after_results_simp
    rfl
  rw [e]
  refine (shapeCast_col_apply _ _ r u).trans ?_
  exact congrFun ((from1_at6 m ρ c main_v11 (by decide) (by decide) (by decide) (by decide) (by decide)).trans (v11_at1 m ρ c)) (ValueIdx.ix1 r)

theorem v112_at7 (c : Dev nD) (r : Fin 100000) (u : Fin 1) :
    (W7 m ρ c (Proc.devRef .tc main_v112) : (⟨S100000x1, .f32⟩ : BufTy).Contents (Elt F)) (ValueIdx.ix2 r u)
      = cntD (F := F) (m ((c : Thread nD τ).loc main_arg9)) (ValueIdx.ix1 r) := by
  have e : W7 m ρ c (Proc.devRef .tc main_v112)
      = shapeCast S100000x1 (W6 m ρ c (Proc.devRef .tc main_v15)) shapeCasts_S100000_S100000x1 := by
    show StableHlo.after hostOps3 (W6 m ρ c) (Proc.devRef .tc main_v112) = _
    after_results_simp
    rfl
  rw [e]
  refine (shapeCast_col_apply _ _ r u).trans ?_
  exact congrFun ((from1_at6 m ρ c main_v15 (by decide) (by decide) (by decide) (by decide) (by decide)).trans (v15_at1 m ρ c)) (ValueIdx.ix1 r)

theorem v113_at7 (c : Dev nD) (u : Fin 1) (j : Fin 32) :
    (W7 m ρ c (Proc.devRef .tc main_v113) : (⟨S1x32, .f32⟩ : BufTy).Contents (Elt F)) (ValueIdx.ix2 u j)
      = ((m ((c : Thread nD τ).loc main_arg29)) : (⟨S32, .f32⟩ : BufTy).Contents (Elt F)) (ValueIdx.ix1 j) := by
  have e : W7 m ρ c (Proc.devRef .tc main_v113)
      = shapeCast S1x32 (W6 m ρ c (Proc.devRef .tc main_arg29)) shapeCasts_S32_S1x32 := by
    show StableHlo.after hostOps3 (W6 m ρ c) (Proc.devRef .tc main_v113) = _
    after_results_simp
    rfl
  rw [e]
  refine (ValueIdx.shapeCast_a_1a_apply _ _ u j).trans ?_
  exact congrFun (arg_at6 m ρ c main_arg29 (by decide) (by decide) (by decide) (by decide) (by decide) (by decide)) (ValueIdx.ix1 j)

theorem v114_at7 (c : Dev nD) (u : Fin 1) (j : Fin 32) :
    (W7 m ρ c (Proc.devRef .tc main_v114) : (⟨S1x32, .f32⟩ : BufTy).Contents (Elt F)) (ValueIdx.ix2 u j)
      = ((m ((c : Thread nD τ).loc main_arg32)) : (⟨S32, .f32⟩ : BufTy).Contents (Elt F)) (ValueIdx.ix1 j) := by
  have e : W7 m ρ c (Proc.devRef .tc main_v114)
      = shapeCast S1x32 (W6 m ρ c (Proc.devRef .tc main_arg32)) shapeCasts_S32_S1x32 := by
    show StableHlo.after hostOps3 (W6 m ρ c) (Proc.devRef .tc main_v114) = _
    after_results_simp
    rfl
  rw [e]
  refine (ValueIdx.shapeCast_a_1a_apply _ _ u j).trans ?_
  exact congrFun (arg_at6 m ρ c main_arg32 (by decide) (by decide) (by decide) (by decide) (by decide) (by decide)) (ValueIdx.ix1 j)

/-! ## Where the four launches' results sit -/

/-- Launch 0's result buffer (the layer-1 task features) at its exit is what its write-backs leave. -/
theorem t1_at2 (c : Dev nD) : W2 m ρ c (Proc.devRef .tc main_v60) = (dat0 (V1 m ρ) c).arrAt 11 cfg0.N := W2_arr m ρ c 11
/-- Launch 1's result buffer (the layer-1 device features). -/
theorem d1_at4 (c : Dev nD) : W4 m ρ c (Proc.devRef .tc main_v65) = (dat1 (V3 m ρ) c).arrAt 11 cfg1.N := W4_arr m ρ c 11
/-- Launch 2's result buffer (the task output) is not written again. -/
theorem t2_at8 (c : Dev nD) : W8 m ρ c (Proc.devRef .tc main_v110) = (dat2 (V5 m ρ) c).arrAt 11 cfg2.N :=
  (keep8 m ρ c main_v110 (by decide)).trans ((keep7 m ρ c main_v110 (by decide)).trans (W6_arr m ρ c 11))
/-- Launch 3's result buffer (the device output). -/
theorem d2_at8 (c : Dev nD) : W8 m ρ c (Proc.devRef .tc main_v115) = (dat3 (V7 m ρ) c).arrAt 11 cfg3.N := W8_arr m ρ c 11

end Cert.KernelIdeal.SageHost

end
-- ==== Proof.SageK0.lean ====
/-
  The first layer-one launch of the combine kernel, read as a value on the extended reals.

  The launch walks the 500000 destination rows in 100 blocks of 5000 rows. At each block it reads the same
  5000 rows of five row-indexed arrays (the two relations' summed neighbour features and neighbour counts, and the
  rows' own features) and the whole of six small arrays (each relation's neighbour weights, root weights and
  bias row), and writes back 5000 rows of the result. For one row p of a block and one output column q the body
  computes, with mean = sum / max(count, 1),

      max( ((((Σₖ mean₀ₖ · wl₀ₖq) + b₀q) + Σₖ xₖ · wr₀ₖq) + Σₖ mean₁ₖ · wl₁ₖq) + b₁q) + Σₖ xₖ · wr₁ₖq , 0 ),

  the six terms added left to right: on the extended reals a change of float format is the identity and a matrix
  product into a zero accumulator is the plain sum over the contracted index. That is `Sage.reluE (Sage.combK …)`
  of the block's rows (`pay_apply`). A block's row p at point t is row 5000·t + p of its array and the small
  arrays are read whole (`blk0` … `blk10`), so what point t writes back is block t of ONE function `G` of the
  arrays as the launch finds them (`flushed_eq`); row r lies in the block of point r / 5000 and every point writes
  its block back (`cover`), so after the launch the result array is `G` (`final`), entry by entry (`out_eq`).
-/
import proofs.«180402_j10711648436497_1_alg».proof.Proof.Gen.KernelIdeal.Frame
import proofs.«180402_j10711648436497_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SageK0

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-! ## The body's result at one row and one column of a block -/

/-- The zero offsets of a whole-buffer load or store, as the constant function. -/
theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The neighbour mean the body forms: the summed feature over the count clamped below at one, the count read
    at the row's one column. -/
theorem mean_apply (cnt : Vec Ideal S5000x1 .f32) (agg : Vec Ideal S5000x64 .f32) (p : Fin 5000) (k : Fin 64) :
    Gen.k0_pay2 (F := Ideal) cnt agg (ix2 p k) = meanE (agg (ix2 p k)) (cnt (ix2 p 0)) := by
  unfold Gen.k0_pay2
  simp only [shapeCast_self]
  show Ideal.div (agg (ix2 p k)) (broadcastTo S5000x64 (maximumf (F := Ideal) cnt (broadcast S5000x1 (Scalar.ofBits .f32 0x3F800000#32))) broadcasts_S5000x1_S5000x64 (ix2 p k)) = _
  rw [broadcastTo_a1_ab_apply]
  rfl

/-- A bias row `[1, 16]` broadcast over the 5000 rows reads its entry of the column. -/
theorem bias_apply (b : Vec Ideal S1x16 .f32) (p : Fin 5000) (q : Fin 16) :
    broadcastTo S5000x16 (shapeCast S1x16 b shapeCasts_S1x16_S1x16) broadcasts_S1x16_S5000x16 (ix2 p q) = b (ix2 0 q) := by
  rw [shapeCast_self]
  exact broadcastTo_1b_ab_apply b broadcasts_S1x16_S5000x16 p q

/-- The left operand's index of the product `[5000, 64] × [64, 16]` at output `(p, q)` and contraction `k` is
    `(p, k)`: its row coordinate … -/
theorem lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
/-- … and its column coordinate. -/
theorem lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- The right operand's index is `(k, q)`: its row coordinate … -/
theorem rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- … and its column coordinate. -/
theorem rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The body's matrix product into the zero accumulator, at `(p, q)`: the sum over the 64 features of the products. -/
theorem matmul_apply (l : FVec Ideal S5000x64 .bf16) (r : FVec Ideal S64x16 .bf16) (p : Fin 5000) (q : Fin 16) :
    matmul dot_S5000x64_S64x16_S5000x16_1_0_0_1_n_n none l r (constant S5000x16 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The first three terms as the body accumulates them: relation 0's neighbour mean through its neighbour
    weights, its bias, the row's own features through relation 0's root weights. -/
theorem pay6_apply (cnt0 : Vec Ideal S5000x1 .f32) (agg0 x : Vec Ideal S5000x64 .f32) (wl0 wr0 : Vec Ideal S64x16 .f32)
    (b0 : Vec Ideal S1x16 .f32) (p : Fin 5000) (q : Fin 16) :
    Gen.k0_pay6 (F := Ideal) cnt0 agg0 x wl0 wr0 b0 (ix2 p q)
      = ((∑ k : Fin 64, meanE (agg0 (ix2 p k)) (cnt0 (ix2 p 0)) * wl0 (ix2 k q)) + b0 (ix2 0 q))
          + ∑ k : Fin 64, x (ix2 p k) * wr0 (ix2 k q) := by
  show (matmul dot_S5000x64_S64x16_S5000x16_1_0_0_1_n_n none (Gen.k0_pay2 (F := Ideal) cnt0 agg0) (truncf .bf16 wl0 bitsLt_bf16_f32) (constant S5000x16 .f32 0x00000000#32) (ix2 p q)
      + broadcastTo S5000x16 (shapeCast S1x16 b0 shapeCasts_S1x16_S1x16) broadcasts_S1x16_S5000x16 (ix2 p q))
      + matmul dot_S5000x64_S64x16_S5000x16_1_0_0_1_n_n none (Gen.k0_pay3 (F := Ideal) x) (truncf .bf16 wr0 bitsLt_bf16_f32) (constant S5000x16 .f32 0x00000000#32) (ix2 p q) = _
  rw [matmul_apply, matmul_apply, bias_apply]
  simp only [mean_apply]
  rfl

/-- WHAT THE BODY LEAVES in the result's staging buffer, at row `p` and column `q`, from the eleven blocks it
    read: the rectified six-term sum of the block's row `p` and the weights' column `q`. -/
theorem pay_apply (x0 : Vec Ideal S5000x64 .f32) (x1 : Vec Ideal S5000x1 .f32) (x2 : Vec Ideal S5000x64 .f32) (x3 : Vec Ideal S5000x1 .f32) (x4 : Vec Ideal S5000x64 .f32) (x5 : Vec Ideal S64x16 .f32) (x6 : Vec Ideal S1x16 .f32) (x7 : Vec Ideal S64x16 .f32) (x8 : Vec Ideal S64x16 .f32) (x9 : Vec Ideal S1x16 .f32) (x10 : Vec Ideal S64x16 .f32) (p : Fin 5000) (q : Fin 16) :
    Gen.out0_11 (F := Ideal) x0 x1 x2 x3 x4 x5 x6 x7 x8 x9 x10 (ix2 p q) =
      reluE (combK (K := Fin 64) (fun k => x0 (ix2 p k)) (fun k => x2 (ix2 p k)) (fun k => x4 (ix2 p k))
        (x1 (ix2 p 0)) (x3 (ix2 p 0)) (fun k => x5 (ix2 k q)) (fun k => x7 (ix2 k q)) (fun k => x8 (ix2 k q)) (fun k => x10 (ix2 k q))
        (x6 (ix2 0 q)) (x9 (ix2 0 q))) := by
  unfold Gen.out0_11
  rw [View.canon_unit_zero hz]
  simp only [View.ld_unit_zero (S := S5000x64) hz, View.ld_unit_zero (S := S5000x1) hz, View.ld_unit_zero (S := S64x16) hz, View.ld_unit_zero (S := S1x16) hz]
  show max (((Gen.k0_pay6 (F := Ideal) x1 x0 x4 x5 x7 x6 (ix2 p q)
        + matmul dot_S5000x64_S64x16_S5000x16_1_0_0_1_n_n none (Gen.k0_pay2 (F := Ideal) x3 x2) (Gen.k0_pay4 (F := Ideal) x8) (constant S5000x16 .f32 0x00000000#32) (ix2 p q))
        + broadcastTo S5000x16 (shapeCast S1x16 x9 shapeCasts_S1x16_S1x16) broadcasts_S1x16_S5000x16 (ix2 p q))
        + matmul dot_S5000x64_S64x16_S5000x16_1_0_0_1_n_n none (Gen.k0_pay3 (F := Ideal) x4) (Gen.k0_pay5 (F := Ideal) x10) (constant S5000x16 .f32 0x00000000#32) (ix2 p q))
      (Ideal.ofBits .f32 0x00000000#32) = _
  rw [pay6_apply, matmul_apply, matmul_apply, bias_apply]
  simp only [mean_apply]
  rfl

/-! ## The blocks as rows of the arrays the launch finds -/

variable (V : (c : Dev nD) → (b : Ref sig .tc) → Buf (Elt Ideal) ((c : Thread nD τ).loc b))

/-- The combined entry of destination row `r` and output column `j`, from the arrays as the launch finds them. -/
def entry (c : Dev nD) (r : Fin 500000) (j : Fin 16) : EReal :=
  reluE (combK (K := Fin 64)
    (fun k => V c main_v25 (ix2 r k)) (fun k => V c main_v35 (ix2 r k)) (fun k => V c main_arg1 (ix2 r k))
    (V c main_v56 (ix2 r 0)) (V c main_v57 (ix2 r 0))
    (fun k => V c main_arg10 (ix2 k j)) (fun k => V c main_arg12 (ix2 k j))
    (fun k => V c main_arg13 (ix2 k j)) (fun k => V c main_arg15 (ix2 k j))
    (V c main_v58 (ix2 0 j)) (V c main_v59 (ix2 0 j)))

/-- The result array the launch leaves: every entry the combined entry of its row and column. -/
def G (c : Dev nD) : Buf (Elt Ideal) ((c : Thread nD τ).loc main_v60) := fun i => entry V c (i 0) (i 1)

/-- The block index of each window at each point, decided over the grid: the five row-indexed inputs and the result
    are at block `(t, 0)`, the six small arrays at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Window 0's block at point `t` is rows `5000·t … 5000·t + 4999` of relation 0's summed neighbour features: an element
    of a block sits at block index × block size + its coordinate inside the block. -/
theorem blk0 (c : Dev nD) (t : Fin cfg0.N) (p : Fin 5000) (k : Fin 64) (r : Fin 500000)
    (hr : r.val = t.val * 5000 + p.val) : Gen.iblk0 V c 0 t (ix2 p k) = V c main_v25 (ix2 r k) := by
  obtain ⟨e0, e1⟩ := (idx_facts t).1
  show (V c main_v25 : S500000x64.Idx → EReal) (((cfg0.win 0).blk t).view.emb (ix2 p k)) = V c main_v25 (ix2 r k)
  refine congrArg (V c main_v25 : S500000x64.Idx → EReal) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Window 1's block at point `t` is the same rows of relation 0's neighbour counts. -/
theorem blk1 (c : Dev nD) (t : Fin cfg0.N) (p : Fin 5000) (k : Fin 1) (r : Fin 500000)
    (hr : r.val = t.val * 5000 + p.val) : Gen.iblk0 V c 1 t (ix2 p k) = V c main_v56 (ix2 r k) := by
  obtain ⟨e0, e1⟩ := (idx_facts t).2.1
  show (V c main_v56 : S500000x1.Idx → EReal) (((cfg0.win 1).blk t).view.emb (ix2 p k)) = V c main_v56 (ix2 r k)
  refine congrArg (V c main_v56 : S500000x1.Idx → EReal) (funext fun a => Fin.ext ?_)
  match a with
  | ⟨0, _⟩ => show win0_1.index t (0 : Fin 2) * 5000 + 1 * p.val = r.val; omega
  | ⟨1, _⟩ => show win0_1.index t (1 : Fin 2) * 1 + 1 * k.val = k.val; omega

/-- Window 2's block at point `t` is the same rows of relation 1's summed neighbour features. -/
theorem blk2 (c : Dev nD) (t : Fin cfg0.N) (p : Fin 5000) (k : Fin 64) (r : Fin 500000)
    (hr : r.val = t.val * 5000 + p.val) : Gen.iblk0 V c 2 t (ix2 p k) = V c main_v35 (ix2 r k) := by
  obtain ⟨e0, e1⟩ := (idx_facts t).2.2.1
  show (V c main_v35 : S500000x64.Idx → EReal) (((cfg0.win 2).blk t).view.emb (ix2 p k)) = V c main_v35 (ix2 r k)
  refine congrArg (V c main_v35 : S500000x64.Idx → EReal) (funext fun a => Fin.ext ?_)
  match a with
  | ⟨0, _⟩ => show win0_2.index t (0 : Fin 2) * 5000 + 1 * p.val = r.val; omega
  | ⟨1, _⟩ => show win0_2.index t (1 : Fin 2) * 64 + 1 * k.val = k.val; omega

/-- Window 3's block at point `t` is the same rows of relation 1's neighbour counts. -/
theorem blk3 (c : Dev nD) (t : Fin cfg0.N) (p : Fin 5000) (k : Fin 1) (r : Fin 500000)
    (hr : r.val = t.val * 5000 + p.val) : Gen.iblk0 V c 3 t (ix2 p k) = V c main_v57 (ix2 r k) := by
  obtain ⟨e0, e1⟩ := (idx_facts t).2.2.2.1
  show (V c main_v57 : S500000x1.Idx → EReal) (((cfg0.win 3).blk t).view.emb (ix2 p k)) = V c main_v57 (ix2 r k)
  refine congrArg (V c main_v57 : S500000x1.Idx → EReal) (funext fun a => Fin.ext ?_)
  match a with
  | ⟨0, _⟩ => show win0_3.index t (0 : Fin 2) * 5000 + 1 * p.val = r.val; omega
  | ⟨1, _⟩ => show win0_3.index t (1 : Fin 2) * 1 + 1 * k.val = k.val; omega

/-- Window 4's block at point `t` is the same rows of the destination nodes' own features. -/
theorem blk4 (c : Dev nD) (t : Fin cfg0.N) (p : Fin 5000) (k : Fin 64) (r : Fin 500000)
    (hr : r.val = t.val * 5000 + p.val) : Gen.iblk0 V c 4 t (ix2 p k) = V c main_arg1 (ix2 r k) := by
  obtain ⟨e0, e1⟩ := (idx_facts t).2.2.2.2.1
  show (V c main_arg1 : S500000x64.Idx → EReal) (((cfg0.win 4).blk t).view.emb (ix2 p k)) = V c main_arg1 (ix2 r k)
  refine congrArg (V c main_arg1 : S500000x64.Idx → EReal) (funext fun a => Fin.ext ?_)
  match a with
  | ⟨0, _⟩ => show win0_4.index t (0 : Fin 2) * 5000 + 1 * p.val = r.val; omega
  | ⟨1, _⟩ => show win0_4.index t (1 : Fin 2) * 64 + 1 * k.val = k.val; omega

/-- Window 5's block is, at every point, the whole of relation 0's neighbour weights. -/
theorem blk5 (c : Dev nD) (t : Fin cfg0.N) (k : Fin 64) (q : Fin 16) :
    Gen.iblk0 V c 5 t (ix2 k q) = V c main_arg10 (ix2 k q) := by
  obtain ⟨e0, e1⟩ := (idx_facts t).2.2.2.2.2.1
  show (V c main_arg10 : S64x16.Idx → EReal) (((cfg0.win 5).blk t).view.emb (ix2 k q)) = V c main_arg10 (ix2 k q)
  refine congrArg (V c main_arg10 : S64x16.Idx → EReal) (funext fun a => Fin.ext ?_)
  match a with
  | ⟨0, _⟩ => show win0_5.index t (0 : Fin 2) * 64 + 1 * k.val = k.val; omega
  | ⟨1, _⟩ => show win0_5.index t (1 : Fin 2) * 16 + 1 * q.val = q.val; omega

/-- Window 6's block is, at every point, the whole of relation 0's bias row. -/
theorem blk6 (c : Dev nD) (t : Fin cfg0.N) (k : Fin 1) (q : Fin 16) :
    Gen.iblk0 V c 6 t (ix2 k q) = V c main_v58 (ix2 k q) := by
  obtain ⟨e0, e1⟩ := (idx_facts t).2.2.2.2.2.2.1
  show (V c main_v58 : S1x16.Idx → EReal) (((cfg0.win 6).blk t).view.emb (ix2 k q)) = V c main_v58 (ix2 k q)
  refine congrArg (V c main_v58 : S1x16.Idx → EReal) (funext fun a => Fin.ext ?_)
  match a with
  | ⟨0, _⟩ => show win0_6.index t (0 : Fin 2) * 1 + 1 * k.val = k.val; omega
  | ⟨1, _⟩ => show win0_6.index t (1 : Fin 2) * 16 + 1 * q.val = q.val; omega

/-- Window 7's block is, at every point, the whole of relation 0's root weights. -/
theorem blk7 (c : Dev nD) (t : Fin cfg0.N) (k : Fin 64) (q : Fin 16) :
    Gen.iblk0 V c 7 t (ix2 k q) = V c main_arg12 (ix2 k q) := by
  obtain ⟨e0, e1⟩ := (idx_facts t).2.2.2.2.2.2.2.1
  show (V c main_arg12 : S64x16.Idx → EReal) (((cfg0.win 7).blk t).view.emb (ix2 k q)) = V c main_arg12 (ix2 k q)
  refine congrArg (V c main_arg12 : S64x16.Idx → EReal) (funext fun a => Fin.ext ?_)
  match a with
  | ⟨0, _⟩ => show win0_7.index t (0 : Fin 2) * 64 + 1 * k.val = k.val; omega
  | ⟨1, _⟩ => show win0_7.index t (1 : Fin 2) * 16 + 1 * q.val = q.val; omega

/-- Window 8's block is, at every point, the whole of relation 1's neighbour weights. -/
theorem blk8 (c : Dev nD) (t : Fin cfg0.N) (k : Fin 64) (q : Fin 16) :
    Gen.iblk0 V c 8 t (ix2 k q) = V c main_arg13 (ix2 k q) := by
  obtain ⟨e0, e1⟩ := (idx_facts t).2.2.2.2.2.2.2.2.1
  show (V c main_arg13 : S64x16.Idx → EReal) (((cfg0.win 8).blk t).view.emb (ix2 k q)) = V c main_arg13 (ix2 k q)
  refine congrArg (V c main_arg13 : S64x16.Idx → EReal) (funext fun a => Fin.ext ?_)
  match a with
  | ⟨0, _⟩ => show win0_8.index t (0 : Fin 2) * 64 + 1 * k.val = k.val; omega
  | ⟨1, _⟩ => show win0_8.index t (1 : Fin 2) * 16 + 1 * q.val = q.val; omega

/-- Window 9's block is, at every point, the whole of relation 1's bias row. -/
theorem blk9 (c : Dev nD) (t : Fin cfg0.N) (k : Fin 1) (q : Fin 16) :
    Gen.iblk0 V c 9 t (ix2 k q) = V c main_v59 (ix2 k q) := by
  obtain ⟨e0, e1⟩ := (idx_facts t).2.2.2.2.2.2.2.2.2.1
  show (V c main_v59 : S1x16.Idx → EReal) (((cfg0.win 9).blk t).view.emb (ix2 k q)) = V c main_v59 (ix2 k q)
  refine congrArg (V c main_v59 : S1x16.Idx → EReal) (funext fun a => Fin.ext ?_)
  match a with
  | ⟨0, _⟩ => show win0_9.index t (0 : Fin 2) * 1 + 1 * k.val = k.val; omega
  | ⟨1, _⟩ => show win0_9.index t (1 : Fin 2) * 16 + 1 * q.val = q.val; omega

/-- Window 10's block is, at every point, the whole of relation 1's root weights. -/
theorem blk10 (c : Dev nD) (t : Fin cfg0.N) (k : Fin 64) (q : Fin 16) :
    Gen.iblk0 V c 10 t (ix2 k q) = V c main_arg15 (ix2 k q) := by
  obtain ⟨e0, e1⟩ := (idx_facts t).2.2.2.2.2.2.2.2.2.2.1
  show (V c main_arg15 : S64x16.Idx → EReal) (((cfg0.win 10).blk t).view.emb (ix2 k q)) = V c main_arg15 (ix2 k q)
  refine congrArg (V c main_arg15 : S64x16.Idx → EReal) (funext fun a => Fin.ext ?_)
  match a with
  | ⟨0, _⟩ => show win0_10.index t (0 : Fin 2) * 64 + 1 * k.val = k.val; omega
  | ⟨1, _⟩ => show win0_10.index t (1 : Fin 2) * 16 + 1 * q.val = q.val; omega

/-! ## From the blocks to the array -/

/-- WHAT POINT `t` WRITES BACK is block `t` of `G`: row `p` of the block is row `5000·t + p` of the result, and the
    body's entry there is the combined entry of that row of the arrays. -/
theorem flushed_eq (c : Dev nD) (t : Fin cfg0.N) :
    (Gen.dat0 (F := Ideal) V c).flushed 11 t = ((cfg0.win 11).blk t).view.read (Elt Ideal) (G V c) := by
  show (cfg0.win 11).cut (grid0.coords t) ((Gen.dat0 (F := Ideal) V c).after 11 t) = _
  rw [Gen.after0_11]
  refine funext fun (j : S5000x16.Idx) => ?_
  obtain ⟨p, q, rfl⟩ : ∃ (p : Fin 5000) (q : Fin 16), j = ix2 p q := ⟨j 0, j 1, eq_ix2 j⟩
  show Gen.out0_11 (F := Ideal) (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) (Gen.iblk0 V c 9 t) (Gen.iblk0 V c 10 t) (ix2 p q) = G V c (((cfg0.win 11).blk t).view.emb (ix2 p q))
  refine (pay_apply (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) (Gen.iblk0 V c 9 t) (Gen.iblk0 V c 10 t) p q).trans ?_
  have ht : t.val < 100 := Nat.lt_of_lt_of_eq t.isLt Gen.N_0
  have hp : p.val < 5000 := p.isLt
  obtain ⟨e0, e1⟩ := (idx_facts t).2.2.2.2.2.2.2.2.2.2.2
  have hemb : ((cfg0.win 11).blk t).view.emb (ix2 p q) = ix2 (⟨t.val * 5000 + p.val, by omega⟩ : Fin 500000) q :=
    funext fun a => Fin.ext (by
      match a with
      | ⟨0, _⟩ => show win0_11.index t (0 : Fin 2) * 5000 + 1 * p.val = t.val * 5000 + p.val; omega
      | ⟨1, _⟩ => show win0_11.index t (1 : Fin 2) * 16 + 1 * q.val = q.val; omega)
  rw [hemb]
  show _ = entry V c ⟨t.val * 5000 + p.val, by omega⟩ q
  unfold entry
  rw [funext fun k => blk0 V c t p k ⟨t.val * 5000 + p.val, by omega⟩ rfl,
    funext fun k => blk2 V c t p k ⟨t.val * 5000 + p.val, by omega⟩ rfl,
    funext fun k => blk4 V c t p k ⟨t.val * 5000 + p.val, by omega⟩ rfl,
    blk1 V c t p 0 ⟨t.val * 5000 + p.val, by omega⟩ rfl,
    blk3 V c t p 0 ⟨t.val * 5000 + p.val, by omega⟩ rfl,
    funext fun k => blk5 V c t k q, funext fun k => blk7 V c t k q, funext fun k => blk8 V c t k q,
    funext fun k => blk10 V c t k q, blk6 V c t 0 q, blk9 V c t 0 q]

/-- An index of the result array lies in point `t`'s block iff each coordinate lies in the block's range on its axis. -/
theorem mem_blk (t : Fin cfg0.N) (i : S500000x16.Idx) :
    i ∈ ((cfg0.win 11).blk t).view.set ↔ ∀ a : Fin 2, win0_11.index t a * S5000x16.size a ≤ (i a).val ∧ (i a).val < win0_11.index t a * S5000x16.size a + S5000x16.size a := by
  show i ∈ ((View.whole main_v60).slice (win0_11.rect t)).set ↔ _
  rw [View.set_slice_whole, Rect.mem_set_unit]
  exact Iff.rfl

/-- Row `r` of the result lies in the block of point `r / 5000`, and every point writes its block back. -/
theorem cover (i : S500000x16.Idx) :
    ∃ t : Fin cfg0.N, (cfg0.win 11).flush t = true ∧ i ∈ ((cfg0.win 11).blk t).view.set := by
  have hi0 : (i 0).val < 500000 := (i 0).isLt
  have hi1 : (i 1).val < 16 := (i 1).isLt
  obtain ⟨t, ht⟩ : ∃ t : Fin cfg0.N, t.val = (i 0).val / 5000 :=
    ⟨⟨(i 0).val / 5000, Nat.lt_of_lt_of_eq (by omega : (i 0).val / 5000 < 100) Gen.N_0.symm⟩, rfl⟩
  obtain ⟨e0, e1⟩ := (idx_facts t).2.2.2.2.2.2.2.2.2.2.2
  refine ⟨t, Gen.flush0_11 t, ?_⟩
  rw [mem_blk]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 16 ≤ (i 1).val ∧ (i 1).val < win0_11.index t (1 : Fin 2) * 16 + 16; omega

/-- THE RESULT ARRAY after the launch is `G`: the blocks written back are blocks of `G` and they cover the array. -/
theorem final (c : Dev nD) : (Gen.dat0 (F := Ideal) V c).arrAt 11 cfg0.N = G V c :=
  (Gen.dat0 (F := Ideal) V c).arrAt_eq_of_cover 11 (G V c) (fun t _ => flushed_eq V c t) cover

/-- Entry by entry: after the launch the result at row `r`, column `j` is the rectified six-term sum, accumulated
    left to right, of row `r` of the row-indexed arrays and column `j` of the weights and biases. -/
theorem out_eq (c : Dev nD) (r : Fin 500000) (j : Fin 16) :
    (Gen.dat0 (F := Ideal) V c).arrAt 11 cfg0.N (ValueIdx.ix2 r j) =
      Cert.Sage.reluE (Cert.Sage.combK (K := Fin 64)
        (fun k => V c main_v25 (ValueIdx.ix2 r k)) (fun k => V c main_v35 (ValueIdx.ix2 r k)) (fun k => V c main_arg1 (ValueIdx.ix2 r k))
        (V c main_v56 (ValueIdx.ix2 r 0)) (V c main_v57 (ValueIdx.ix2 r 0))
        (fun k => V c main_arg10 (ValueIdx.ix2 k j)) (fun k => V c main_arg12 (ValueIdx.ix2 k j))
        (fun k => V c main_arg13 (ValueIdx.ix2 k j)) (fun k => V c main_arg15 (ValueIdx.ix2 k j))
        (V c main_v58 (ValueIdx.ix2 0 j)) (V c main_v59 (ValueIdx.ix2 0 j))) := by
  rw [final]
  rfl

end Cert.KernelIdeal.SageK0

end
-- ==== Proof.SageK1.lean ====
/-
  The second layer-one launch of the combine kernel, read as a value on the extended reals.

  The launch walks the 100000 destination rows in 20 blocks of 5000 rows. At each block it reads the same
  5000 rows of five row-indexed arrays (the two relations' summed neighbour features and neighbour counts, and the
  rows' own features) and the whole of six small arrays (each relation's neighbour weights, root weights and
  bias row), and writes back 5000 rows of the result. For one row p of a block and one output column q the body
  computes, with mean = sum / max(count, 1),

      max( ((((Σₖ mean₀ₖ · wl₀ₖq) + b₀q) + Σₖ xₖ · wr₀ₖq) + Σₖ mean₁ₖ · wl₁ₖq) + b₁q) + Σₖ xₖ · wr₁ₖq , 0 ),

  the six terms added left to right: on the extended reals a change of float format is the identity and a matrix
  product into a zero accumulator is the plain sum over the contracted index. That is `Sage.reluE (Sage.combK …)`
  of the block's rows (`pay_apply`). A block's row p at point t is row 5000·t + p of its array and the small
  arrays are read whole (`blk0` … `blk10`), so what point t writes back is block t of ONE function `G` of the
  arrays as the launch finds them (`flushed_eq`); row r lies in the block of point r / 5000 and every point writes
  its block back (`cover`), so after the launch the result array is `G` (`final`), entry by entry (`out_eq`).
-/
import proofs.«180402_j10711648436497_1_alg».proof.Proof.Gen.KernelIdeal.Frame
import proofs.«180402_j10711648436497_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SageK1

open Idealize.ShloMosaic Idealize.ShloMosaic.TcCoe Idealize.SL.Sem Idealize.ShloMosaic.ValueIdx
open Idealize.ShloMosaic.Pipeline (Dat)
open Cert.KernelIdeal Cert.KernelIdeal.Gen Cert.Sage

/-! ## The body's result at one row and one column of a block -/

/-- The zero offsets of a whole-buffer load or store, as the constant function. -/
theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The neighbour mean the body forms: the summed feature over the count clamped below at one, the count read
    at the row's one column. -/
theorem mean_apply (cnt : Vec Ideal S5000x1 .f32) (agg : Vec Ideal S5000x64 .f32) (p : Fin 5000) (k : Fin 64) :
    Gen.k1_pay2 (F := Ideal) cnt agg (ix2 p k) = meanE (agg (ix2 p k)) (cnt (ix2 p 0)) := by
  unfold Gen.k1_pay2
  simp only [shapeCast_self]
  show Ideal.div (agg (ix2 p k)) (broadcastTo S5000x64 (maximumf (F := Ideal) cnt (broadcast S5000x1 (Scalar.ofBits .f32 0x3F800000#32))) broadcasts_S5000x1_S5000x64 (ix2 p k)) = _
  rw [broadcastTo_a1_ab_apply]
  rfl

/-- A bias row `[1, 16]` broadcast over the 5000 rows reads its entry of the column. -/
theorem bias_apply (b : Vec Ideal S1x16 .f32) (p : Fin 5000) (q : Fin 16) :
    broadcastTo S5000x16 (shapeCast S1x16 b shapeCasts_S1x16_S1x16) broadcasts_S1x16_S5000x16 (ix2 p q) = b (ix2 0 q) := by
  rw [shapeCast_self]
  exact broadcastTo_1b_ab_apply b broadcasts_S1x16_S5000x16 p q

/-- The left operand's index of the product `[5000, 64] × [64, 16]` at output `(p, q)` and contraction `k` is
    `(p, k)`: its row coordinate … -/
theorem lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
/-- … and its column coordinate. -/
theorem lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- The right operand's index is `(k, q)`: its row coordinate … -/
theorem rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- … and its column coordinate. -/
theorem rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The body's matrix product into the zero accumulator, at `(p, q)`: the sum over the 64 features of the products. -/
theorem matmul_apply (l : FVec Ideal S5000x64 .bf16) (r : FVec Ideal S64x16 .bf16) (p : Fin 5000) (q : Fin 16) :
    matmul dot_S5000x64_S64x16_S5000x16_1_0_0_1_n_n none l r (constant S5000x16 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The first three terms as the body accumulates them: relation 0's neighbour mean through its neighbour
    weights, its bias, the row's own features through relation 0's root weights. -/
theorem pay6_apply (cnt0 : Vec Ideal S5000x1 .f32) (agg0 x : Vec Ideal S5000x64 .f32) (wl0 wr0 : Vec Ideal S64x16 .f32)
    (b0 : Vec Ideal S1x16 .f32) (p : Fin 5000) (q : Fin 16) :
    Gen.k1_pay6 (F := Ideal) cnt0 agg0 x wl0 wr0 b0 (ix2 p q)
      = ((∑ k : Fin 64, meanE (agg0 (ix2 p k)) (cnt0 (ix2 p 0)) * wl0 (ix2 k q)) + b0 (ix2 0 q))
          + ∑ k : Fin 64, x (ix2 p k) * wr0 (ix2 k q) := by
  show (matmul dot_S5000x64_S64x16_S5000x16_1_0_0_1_n_n none (Gen.k1_pay2 (F := Ideal) cnt0 agg0) (truncf .bf16 wl0 bitsLt_bf16_f32) (constant S5000x16 .f32 0x00000000#32) (ix2 p q)
      + broadcastTo S5000x16 (shapeCast S1x16 b0 shapeCasts_S1x16_S1x16) broadcasts_S1x16_S5000x16 (ix2 p q))
      + matmul dot_S5000x64_S64x16_S5000x16_1_0_0_1_n_n none (Gen.k1_pay3 (F := Ideal) x) (truncf .bf16 wr0 bitsLt_bf16_f32) (constant S5000x16 .f32 0x00000000#32) (ix2 p q) = _
  rw [matmul_apply, matmul_apply, bias_apply]
  simp only [mean_apply]
  rfl

/-- WHAT THE BODY LEAVES in the result's staging buffer, at row `p` and column `q`, from the eleven blocks it
    read: the rectified six-term sum of the block's row `p` and the weights' column `q`. -/
theorem pay_apply (x0 : Vec Ideal S5000x64 .f32) (x1 : Vec Ideal S5000x1 .f32) (x2 : Vec Ideal S5000x64 .f32) (x3 : Vec Ideal S5000x1 .f32) (x4 : Vec Ideal S5000x64 .f32) (x5 : Vec Ideal S64x16 .f32) (x6 : Vec Ideal S1x16 .f32) (x7 : Vec Ideal S64x16 .f32) (x8 : Vec Ideal S64x16 .f32) (x9 : Vec Ideal S1x16 .f32) (x10 : Vec Ideal S64x16 .f32) (p : Fin 5000) (q : Fin 16) :
    Gen.out1_11 (F := Ideal) x0 x1 x2 x3 x4 x5 x6 x7 x8 x9 x10 (ix2 p q) =
      reluE (combK (K := Fin 64) (fun k => x0 (ix2 p k)) (fun k => x2 (ix2 p k)) (fun k => x4 (ix2 p k))
        (x1 (ix2 p 0)) (x3 (ix2 p 0)) (fun k => x5 (ix2 k q)) (fun k => x7 (ix2 k q)) (fun k => x8 (ix2 k q)) (fun k => x10 (ix2 k q))
        (x6 (ix2 0 q)) (x9 (ix2 0 q))) := by
  unfold Gen.out1_11
  rw [View.canon_unit_zero hz]
  simp only [View.ld_unit_zero (S := S5000x64) hz, View.ld_unit_zero (S := S5000x1) hz, View.ld_unit_zero (S := S64x16) hz, View.ld_unit_zero (S := S1x16) hz]
  show max (((Gen.k1_pay6 (F := Ideal) x1 x0 x4 x5 x7 x6 (ix2 p q)
        + matmul dot_S5000x64_S64x16_S5000x16_1_0_0_1_n_n none (Gen.k1_pay2 (F := Ideal) x3 x2) (Gen.k1_pay4 (F := Ideal) x8) (constant S5000x16 .f32 0x00000000#32) (ix2 p q))
        + broadcastTo S5000x16 (shapeCast S1x16 x9 shapeCasts_S1x16_S1x16) broadcasts_S1x16_S5000x16 (ix2 p q))
        + matmul dot_S5000x64_S64x16_S5000x16_1_0_0_1_n_n none (Gen.k1_pay3 (F := Ideal) x4) (Gen.k1_pay5 (F := Ideal) x10) (constant S5000x16 .f32 0x00000000#32) (ix2 p q))
      (Ideal.ofBits .f32 0x00000000#32) = _
  rw [pay6_apply, matmul_apply, matmul_apply, bias_apply]
  simp only [mean_apply]
  rfl

/-! ## The blocks as rows of the arrays the launch finds -/

variable (V : (c : Dev nD) → (b : Ref sig .tc) → Buf (Elt Ideal) ((c : Thread nD τ).loc b))

/-- The combined entry of destination row `r` and output column `j`, from the arrays as the launch finds them. -/
def entry (c : Dev nD) (r : Fin 100000) (j : Fin 16) : EReal :=
  reluE (combK (K := Fin 64)
    (fun k => V c main_v45 (ix2 r k)) (fun k => V c main_v55 (ix2 r k)) (fun k => V c main_arg0 (ix2 r k))
    (V c main_v61 (ix2 r 0)) (V c main_v62 (ix2 r 0))
    (fun k => V c main_arg16 (ix2 k j)) (fun k => V c main_arg18 (ix2 k j))
    (fun k => V c main_arg19 (ix2 k j)) (fun k => V c main_arg21 (ix2 k j))
    (V c main_v63 (ix2 0 j)) (V c main_v64 (ix2 0 j)))

/-- The result array the launch leaves: every entry the combined entry of its row and column. -/
def G (c : Dev nD) : Buf (Elt Ideal) ((c : Thread nD τ).loc main_v65) := fun i => entry V c (i 0) (i 1)

/-- The block index of each window at each point, decided over the grid: the five row-indexed inputs and the result
    are at block `(t, 0)`, the six small arrays at block `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- Window 0's block at point `t` is rows `5000·t … 5000·t + 4999` of relation 0's summed neighbour features: an element
    of a block sits at block index × block size + its coordinate inside the block. -/
theorem blk0 (c : Dev nD) (t : Fin cfg1.N) (p : Fin 5000) (k : Fin 64) (r : Fin 100000)
    (hr : r.val = t.val * 5000 + p.val) : Gen.iblk1 V c 0 t (ix2 p k) = V c main_v45 (ix2 r k) := by
  obtain ⟨e0, e1⟩ := (idx_facts t).1
  show (V c main_v45 : S100000x64.Idx → EReal) (((cfg1.win 0).blk t).view.emb (ix2 p k)) = V c main_v45 (ix2 r k)
  refine congrArg (V c main_v45 : S100000x64.Idx → EReal) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Window 1's block at point `t` is the same rows of relation 0's neighbour counts. -/
theorem blk1 (c : Dev nD) (t : Fin cfg1.N) (p : Fin 5000) (k : Fin 1) (r : Fin 100000)
    (hr : r.val = t.val * 5000 + p.val) : Gen.iblk1 V c 1 t (ix2 p k) = V c main_v61 (ix2 r k) := by
  obtain ⟨e0, e1⟩ := (idx_facts t).2.1
  show (V c main_v61 : S100000x1.Idx → EReal) (((cfg1.win 1).blk t).view.emb (ix2 p k)) = V c main_v61 (ix2 r k)
  refine congrArg (V c main_v61 : S100000x1.Idx → EReal) (funext fun a => Fin.ext ?_)
  match a with
  | ⟨0, _⟩ => show win1_1.index t (0 : Fin 2) * 5000 + 1 * p.val = r.val; omega
  | ⟨1, _⟩ => show win1_1.index t (1 : Fin 2) * 1 + 1 * k.val = k.val; omega

/-- Window 2's block at point `t` is the same rows of relation 1's summed neighbour features. -/
theorem blk2 (c : Dev nD) (t : Fin cfg1.N) (p : Fin 5000) (k : Fin 64) (r : Fin 100000)
    (hr : r.val = t.val * 5000 + p.val) : Gen.iblk1 V c 2 t (ix2 p k) = V c main_v55 (ix2 r k) := by
  obtain ⟨e0, e1⟩ := (idx_facts t).2.2.1
  show (V c main_v55 : S100000x64.Idx → EReal) (((cfg1.win 2).blk t).view.emb (ix2 p k)) = V c main_v55 (ix2 r k)
  refine congrArg (V c main_v55 : S100000x64.Idx → EReal) (funext fun a => Fin.ext ?_)
  match a with
  | ⟨0, _⟩ => show win1_2.index t (0 : Fin 2) * 5000 + 1 * p.val = r.val; omega
  | ⟨1, _⟩ => show win1_2.index t (1 : Fin 2) * 64 + 1 * k.val = k.val; omega

/-- Window 3's block at point `t` is the same rows of relation 1's neighbour counts. -/
theorem blk3 (c : Dev nD) (t : Fin cfg1.N) (p : Fin 5000) (k : Fin 1) (r : Fin 100000)
    (hr : r.val = t.val * 5000 + p.val) : Gen.iblk1 V c 3 t (ix2 p k) = V c main_v62 (ix2 r k) := by
  obtain ⟨e0, e1⟩ := (idx_facts t).2.2.2.1
  show (V c main_v62 : S100000x1.Idx → EReal) (((cfg1.win 3).blk t).view.emb (ix2 p k)) = V c main_v62 (ix2 r k)
  refine congrArg (V c main_v62 : S100000x1.Idx → EReal) (funext fun a => Fin.ext ?_)
  match a with
  | ⟨0, _⟩ => show win1_3.index t (0 : Fin 2) * 5000 + 1 * p.val = r.val; omega
  | ⟨1, _⟩ => show win1_3.index t (1 : Fin 2) * 1 + 1 * k.val = k.val; omega

/-- Window 4's block at point `t` is the same rows of the destination nodes' own features. -/
theorem blk4 (c : Dev nD) (t : Fin cfg1.N) (p : Fin 5000) (k : Fin 64) (r : Fin 100000)
    (hr : r.val = t.val * 5000 + p.val) : Gen.iblk1 V c 4 t (ix2 p k) = V c main_arg0 (ix2 r k) := by
  obtain ⟨e0, e1⟩ := (idx_facts t).2.2.2.2.1
  show (V c main_arg0 : S100000x64.Idx → EReal) (((cfg1.win 4).blk t).view.emb (ix2 p k)) = V c main_arg0 (ix2 r k)
  refine congrArg (V c main_arg0 : S100000x64.Idx → EReal) (funext fun a => Fin.ext ?_)
  match a with
  | ⟨0, _⟩ => show win1_4.index t (0 : Fin 2) * 5000 + 1 * p.val = r.val; omega
  | ⟨1, _⟩ => show win1_4.index t (1 : Fin 2) * 64 + 1 * k.val = k.val; omega

/-- Window 5's block is, at every point, the whole of relation 0's neighbour weights. -/
theorem blk5 (c : Dev nD) (t : Fin cfg1.N) (k : Fin 64) (q : Fin 16) :
    Gen.iblk1 V c 5 t (ix2 k q) = V c main_arg16 (ix2 k q) := by
  obtain ⟨e0, e1⟩ := (idx_facts t).2.2.2.2.2.1
  show (V c main_arg16 : S64x16.Idx → EReal) (((cfg1.win 5).blk t).view.emb (ix2 k q)) = V c main_arg16 (ix2 k q)
  refine congrArg (V c main_arg16 : S64x16.Idx → EReal) (funext fun a => Fin.ext ?_)
  match a with
  | ⟨0, _⟩ => show win1_5.index t (0 : Fin 2) * 64 + 1 * k.val = k.val; omega
  | ⟨1, _⟩ => show win1_5.index t (1 : Fin 2) * 16 + 1 * q.val = q.val; omega

/-- Window 6's block is, at every point, the whole of relation 0's bias row. -/
theorem blk6 (c : Dev nD) (t : Fin cfg1.N) (k : Fin 1) (q : Fin 16) :
    Gen.iblk1 V c 6 t (ix2 k q) = V c main_v63 (ix2 k q) := by
  obtain ⟨e0, e1⟩ := (idx_facts t).2.2.2.2.2.2.1
  show (V c main_v63 : S1x16.Idx → EReal) (((cfg1.win 6).blk t).view.emb (ix2 k q)) = V c main_v63 (ix2 k q)
  refine congrArg (V c main_v63 : S1x16.Idx → EReal) (funext fun a => Fin.ext ?_)
  match a with
  | ⟨0, _⟩ => show win1_6.index t (0 : Fin 2) * 1 + 1 * k.val = k.val; omega
  | ⟨1, _⟩ => show win1_6.index t (1 : Fin 2) * 16 + 1 * q.val = q.val; omega

/-- Window 7's block is, at every point, the whole of relation 0's root weights. -/
theorem blk7 (c : Dev nD) (t : Fin cfg1.N) (k : Fin 64) (q : Fin 16) :
    Gen.iblk1 V c 7 t (ix2 k q) = V c main_arg18 (ix2 k q) := by
  obtain ⟨e0, e1⟩ := (idx_facts t).2.2.2.2.2.2.2.1
  show (V c main_arg18 : S64x16.Idx → EReal) (((cfg1.win 7).blk t).view.emb (ix2 k q)) = V c main_arg18 (ix2 k q)
  refine congrArg (V c main_arg18 : S64x16.Idx → EReal) (funext fun a => Fin.ext ?_)
  match a with
  | ⟨0, _⟩ => show win1_7.index t (0 : Fin 2) * 64 + 1 * k.val = k.val; omega
  | ⟨1, _⟩ => show win1_7.index t (1 : Fin 2) * 16 + 1 * q.val = q.val; omega

/-- Window 8's block is, at every point, the whole of relation 1's neighbour weights. -/
theorem blk8 (c : Dev nD) (t : Fin cfg1.N) (k : Fin 64) (q : Fin 16) :
    Gen.iblk1 V c 8 t (ix2 k q) = V c main_arg19 (ix2 k q) := by
  obtain ⟨e0, e1⟩ := (idx_facts t).2.2.2.2.2.2.2.2.1
  show (V c main_arg19 : S64x16.Idx → EReal) (((cfg1.win 8).blk t).view.emb (ix2 k q)) = V c main_arg19 (ix2 k q)
  refine congrArg (V c main_arg19 : S64x16.Idx → EReal) (funext fun a => Fin.ext ?_)
  match a with
  | ⟨0, _⟩ => show win1_8.index t (0 : Fin 2) * 64 + 1 * k.val = k.val; omega
  | ⟨1, _⟩ => show win1_8.index t (1 : Fin 2) * 16 + 1 * q.val = q.val; omega

/-- Window 9's block is, at every point, the whole of relation 1's bias row. -/
theorem blk9 (c : Dev nD) (t : Fin cfg1.N) (k : Fin 1) (q : Fin 16) :
    Gen.iblk1 V c 9 t (ix2 k q) = V c main_v64 (ix2 k q) := by
  obtain ⟨e0, e1⟩ := (idx_facts t).2.2.2.2.2.2.2.2.2.1
  show (V c main_v64 : S1x16.Idx → EReal) (((cfg1.win 9).blk t).view.emb (ix2 k q)) = V c main_v64 (ix2 k q)
  refine congrArg (V c main_v64 : S1x16.Idx → EReal) (funext fun a => Fin.ext ?_)
  match a with
  | ⟨0, _⟩ => show win1_9.index t (0 : Fin 2) * 1 + 1 * k.val = k.val; omega
  | ⟨1, _⟩ => show win1_9.index t (1 : Fin 2) * 16 + 1 * q.val = q.val; omega

/-- Window 10's block is, at every point, the whole of relation 1's root weights. -/
theorem blk10 (c : Dev nD) (t : Fin cfg1.N) (k : Fin 64) (q : Fin 16) :
    Gen.iblk1 V c 10 t (ix2 k q) = V c main_arg21 (ix2 k q) := by
  obtain ⟨e0, e1⟩ := (idx_facts t).2.2.2.2.2.2.2.2.2.2.1
  show (V c main_arg21 : S64x16.Idx → EReal) (((cfg1.win 10).blk t).view.emb (ix2 k q)) = V c main_arg21 (ix2 k q)
  refine congrArg (V c main_arg21 : S64x16.Idx → EReal) (funext fun a => Fin.ext ?_)
  match a with
  | ⟨0, _⟩ => show win1_10.index t (0 : Fin 2) * 64 + 1 * k.val = k.val; omega
  | ⟨1, _⟩ => show win1_10.index t (1 : Fin 2) * 16 + 1 * q.val = q.val; omega

/-! ## From the blocks to the array -/

/-- WHAT POINT `t` WRITES BACK is block `t` of `G`: row `p` of the block is row `5000·t + p` of the result, and the
    body's entry there is the combined entry of that row of the arrays. -/
theorem flushed_eq (c : Dev nD) (t : Fin cfg1.N) :
    (Gen.dat1 (F := Ideal) V c).flushed 11 t = ((cfg1.win 11).blk t).view.read (Elt Ideal) (G V c) := by
  show (cfg1.win 11).cut (grid1.coords t) ((Gen.dat1 (F := Ideal) V c).after 11 t) = _
  rw [Gen.after1_11]
  refine funext fun (j : S5000x16.Idx) => ?_
  obtain ⟨p, q, rfl⟩ : ∃ (p : Fin 5000) (q : Fin 16), j = ix2 p q := ⟨j 0, j 1, eq_ix2 j⟩
  show Gen.out1_11 (F := Ideal) (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) (Gen.iblk1 V c 10 t) (ix2 p q) = G V c (((cfg1.win 11).blk t).view.emb (ix2 p q))
  refine (pay_apply (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) (Gen.iblk1 V c 10 t) p q).trans ?_
  have ht : t.val < 20 := Nat.lt_of_lt_of_eq t.isLt Gen.N_1
  have hp : p.val < 5000 := p.isLt
  obtain ⟨e0, e1⟩ := (idx_facts t).2.2.2.2.2.2.2.2.2.2.2
  have hemb : ((cfg1.win 11).blk t).view.emb (ix2 p q) = ix2 (⟨t.val * 5000 + p.val, by omega⟩ : Fin 100000) q :=
    funext fun a => Fin.ext (by
      match a with
      | ⟨0, _⟩ => show win1_11.index t (0 : Fin 2) * 5000 + 1 * p.val = t.val * 5000 + p.val; omega
      | ⟨1, _⟩ => show win1_11.index t (1 : Fin 2) * 16 + 1 * q.val = q.val; omega)
  rw [hemb]
  show _ = entry V c ⟨t.val * 5000 + p.val, by omega⟩ q
  unfold entry
  rw [funext fun k => blk0 V c t p k ⟨t.val * 5000 + p.val, by omega⟩ rfl,
    funext fun k => blk2 V c t p k ⟨t.val * 5000 + p.val, by omega⟩ rfl,
    funext fun k => blk4 V c t p k ⟨t.val * 5000 + p.val, by omega⟩ rfl,
    blk1 V c t p 0 ⟨t.val * 5000 + p.val, by omega⟩ rfl,
    blk3 V c t p 0 ⟨t.val * 5000 + p.val, by omega⟩ rfl,
    funext fun k => blk5 V c t k q, funext fun k => blk7 V c t k q, funext fun k => blk8 V c t k q,
    funext fun k => blk10 V c t k q, blk6 V c t 0 q, blk9 V c t 0 q]

/-- An index of the result array lies in point `t`'s block iff each coordinate lies in the block's range on its axis. -/
theorem mem_blk (t : Fin cfg1.N) (i : S100000x16.Idx) :
    i ∈ ((cfg1.win 11).blk t).view.set ↔ ∀ a : Fin 2, win1_11.index t a * S5000x16.size a ≤ (i a).val ∧ (i a).val < win1_11.index t a * S5000x16.size a + S5000x16.size a := by
  show i ∈ ((View.whole main_v65).slice (win1_11.rect t)).set ↔ _
  rw [View.set_slice_whole, Rect.mem_set_unit]
  exact Iff.rfl

/-- Row `r` of the result lies in the block of point `r / 5000`, and every point writes its block back. -/
theorem cover (i : S100000x16.Idx) :
    ∃ t : Fin cfg1.N, (cfg1.win 11).flush t = true ∧ i ∈ ((cfg1.win 11).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, Nat.lt_of_lt_of_eq (by omega : (i 0).val / 5000 < 20) Gen.N_1.symm⟩, rfl⟩
  obtain ⟨e0, e1⟩ := (idx_facts t).2.2.2.2.2.2.2.2.2.2.2
  refine ⟨t, Gen.flush1_11 t, ?_⟩
  rw [mem_blk]
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 16 ≤ (i 1).val ∧ (i 1).val < win1_11.index t (1 : Fin 2) * 16 + 16; omega

/-- THE RESULT ARRAY after the launch is `G`: the blocks written back are blocks of `G` and they cover the array. -/
theorem final (c : Dev nD) : (Gen.dat1 (F := Ideal) V c).arrAt 11 cfg1.N = G V c :=
  (Gen.dat1 (F := Ideal) V c).arrAt_eq_of_cover 11 (G V c) (fun t _ => flushed_eq V c t) cover

/-- Entry by entry: after the launch the result at row `r`, column `j` is the rectified six-term sum, accumulated
    left to right, of row `r` of the row-indexed arrays and column `j` of the weights and biases. -/
theorem out_eq (c : Dev nD) (r : Fin 100000) (j : Fin 16) :
    (Gen.dat1 (F := Ideal) V c).arrAt 11 cfg1.N (ValueIdx.ix2 r j) =
      Cert.Sage.reluE (Cert.Sage.combK (K := Fin 64)
        (fun k => V c main_v45 (ValueIdx.ix2 r k)) (fun k => V c main_v55 (ValueIdx.ix2 r k)) (fun k => V c main_arg0 (ValueIdx.ix2 r k))
        (V c main_v61 (ValueIdx.ix2 r 0)) (V c main_v62 (ValueIdx.ix2 r 0))
        (fun k => V c main_arg16 (ValueIdx.ix2 k j)) (fun k => V c main_arg18 (ValueIdx.ix2 k j))
        (fun k => V c main_arg19 (ValueIdx.ix2 k j)) (fun k => V c main_arg21 (ValueIdx.ix2 k j))
        (V c main_v63 (ValueIdx.ix2 0 j)) (V c main_v64 (ValueIdx.ix2 0 j))) := by
  rw [final]
  rfl

end Cert.KernelIdeal.SageK1

end
-- ==== Proof.SageK2.lean ====
/-
  A layer-two launch of the two-relation neighbourhood combine (the destination type with 500000 rows; no rectifier
  follows), read as a value on the extended reals.

  For one destination type the launch walks its 500000 rows in a hundred blocks of 5000 rows. At each block it holds
  the two relations' summed neighbour features (5000 × 16), their neighbour counts (5000 × 1), the rows' own features
  (5000 × 16), and, whole, the four weight arrays (16 × 32) and the two bias rows (1 × 32). It divides each neighbour
  sum by its count clamped below at one, multiplies the two means and (twice) the rows' own features by their weight
  arrays, and adds the six terms left to right into one running sum, which it stores as the block's 5000 × 32 result.
  On the extended reals a change of number format is the identity and a product into a zero accumulator is the plain
  sum over the sixteen features, so entry (p, q) of the stored block is `Cert.Sage.combK` of row p's data and column
  q's weights (`stored_block_at`). Block t of every row-blocked operand is rows 5000 t … 5000 t + 4999 of its array
  and a whole-array operand's block is the array (`rows0` … `whole10`), so what block t writes back is those rows of
  ONE function of the arrays (`written_rows`); the hundred blocks tile the rows (`rows_tiled`), and the result array
  ends holding that function (`array_eq`, `out_eq`).
-/
import proofs.«180402_j10711648436497_1_alg».proof.Proof.Gen.KernelIdeal.Frame
import proofs.«180402_j10711648436497_1_alg».proof.Proof.SageSpec
import Idealize.ShloMosaic.Lib.Pipeline.Value
import Idealize.ShloMosaic.Lib.ValueIdx
import Idealize.ShloMosaic.PureOps.Ideal.Laws

noncomputable section

namespace Cert.KernelIdeal.SageK2

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

theorem zero_offsets : (![0, 0] : Fin 2 → Nat) = fun _ => 0 := funext fun a => by fin_cases a <;> rfl

/-! ## One product read at an entry

The product's dimension numbers contract the block's feature axis against the weight array's row axis. At output
entry `(p, q)` and contraction index `k` the block is read at `(p, k)` and the weights at `(k, q)`. -/

theorem lhs_row (i : S5000x32.Idx) (u : dot_S5000x16_S16x32_S5000x32_1_0_0_1_n_n.contr.Idx) :
    (dot_S5000x16_S16x32_S5000x32_1_0_0_1_n_n.lhsIdx i u 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_feat (i : S5000x32.Idx) (u : dot_S5000x16_S16x32_S5000x32_1_0_0_1_n_n.contr.Idx) :
    (dot_S5000x16_S16x32_S5000x32_1_0_0_1_n_n.lhsIdx i u 1).val = (u ⟨0, by decide⟩).val :=
  dot_S5000x16_S16x32_S5000x32_1_0_0_1_n_n.lhsIdx_val_of_single rfl i u
theorem rhs_feat (i : S5000x32.Idx) (u : dot_S5000x16_S16x32_S5000x32_1_0_0_1_n_n.contr.Idx) :
    (dot_S5000x16_S16x32_S5000x32_1_0_0_1_n_n.rhsIdx i u 0).val = (u ⟨0, by decide⟩).val :=
  dot_S5000x16_S16x32_S5000x32_1_0_0_1_n_n.rhsIdx_val_of_single rfl i u
theorem rhs_col (i : S5000x32.Idx) (u : dot_S5000x16_S16x32_S5000x32_1_0_0_1_n_n.contr.Idx) :
    (dot_S5000x16_S16x32_S5000x32_1_0_0_1_n_n.rhsIdx i u 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- One product of a [5000,16] block with a [16,32] weight array into a zero accumulator, read at row `p` and
    column `q`: the sum over the sixteen features of the row's entry times the column's weight. -/
theorem dot_at (lhs : FVec Ideal S5000x16 .bf16) (rhs : FVec Ideal S16x32 .bf16) (p : Fin 5000) (q : Fin 32) :
    matmul dot_S5000x16_S16x32_S5000x32_1_0_0_1_n_n none lhs rhs (constant (F := Ideal) S5000x32 .f32 0x00000000#32) (ix2 p q)
      = ∑ k : Fin 16, lhs (ix2 p k) * rhs (ix2 k q) := by
  show FloatOps.matmul dot_S5000x16_S16x32_S5000x32_1_0_0_1_n_n none lhs rhs (constant (F := Ideal) S5000x32 .f32 0x00000000#32) (ix2 p q) = _
  rw [Ideal.matmul_constant_zero_apply, ← Equiv.sum_comp (contrEquiv1 dot_S5000x16_S16x32_S5000x32_1_0_0_1_n_n 16 rfl rfl).symm]
  refine Finset.sum_congr rfl fun k _ => ?_
  have hk := contrEquiv1_symm_val dot_S5000x16_S16x32_S5000x32_1_0_0_1_n_n 16 rfl rfl k
  have el : dot_S5000x16_S16x32_S5000x32_1_0_0_1_n_n.lhsIdx (ix2 p q) ((contrEquiv1 dot_S5000x16_S16x32_S5000x32_1_0_0_1_n_n 16 rfl rfl).symm k) = ix2 p k :=
    funext fun a => Fin.ext (by
      match a with
      | ⟨0, _⟩ => exact lhs_row _ _
      | ⟨1, _⟩ => exact (lhs_feat _ _).trans hk)
  have er : dot_S5000x16_S16x32_S5000x32_1_0_0_1_n_n.rhsIdx (ix2 p q) ((contrEquiv1 dot_S5000x16_S16x32_S5000x32_1_0_0_1_n_n 16 rfl rfl).symm k) = ix2 k q :=
    funext fun a => Fin.ext (by
      match a with
      | ⟨0, _⟩ => exact (rhs_feat _ _).trans hk
      | ⟨1, _⟩ => exact rhs_col _ _)
  rw [el, er]

/-- A count column [5000,1] spread over the sixteen feature columns reads, at row `p`, the row's one count. -/
theorem spread_col {α : Type} (v : S5000x1.Idx → α) (p : Fin 5000) (k : Fin 16) :
    broadcastTo S5000x16 v broadcasts_S5000x1_S5000x16 (ix2 p k) = v (ix2 p 0) :=
  broadcastTo_apply v broadcasts_S5000x1_S5000x16 (ix2 p k) (ix2 p 0) fun a => by
    match a with
    | ⟨0, _⟩ => rfl
    | ⟨1, _⟩ => rfl

/-- A bias row [1,32] spread over the 5000 rows reads, at column `q`, the column's one bias. -/
theorem spread_row {α : Type} (v : S1x32.Idx → α) (p : Fin 5000) (q : Fin 32) :
    broadcastTo S5000x32 v broadcasts_S1x32_S5000x32 (ix2 p q) = v (ix2 0 q) :=
  broadcastTo_apply v broadcasts_S1x32_S5000x32 (ix2 p q) (ix2 0 q) fun a => by
    match a with
    | ⟨0, _⟩ => rfl
    | ⟨1, _⟩ => rfl

/-! ## The body's payloads read at an entry

Every format change is the identity on extended reals and every same-shape cast is the identity on values, so each
payload, read at one entry, is an expression in the loaded blocks' entries. -/

/-- A neighbour sum block divided by its count column (clamped below at one), read at row `p`, feature `k`: the
    neighbour mean of that feature. -/
theorem mean_at (cnt : Vec Ideal S5000x1 .f32) (agg : Vec Ideal S5000x16 .f32) (p : Fin 5000) (k : Fin 16) :
    (k2_pay2 cnt agg (ix2 p k) : EReal) = meanE (agg (ix2 p k)) (cnt (ix2 p 0)) := by
  unfold k2_pay2
  simp only [shapeCast_self]
  show Ideal.div (agg (ix2 p k)) (broadcastTo S5000x16 (maximumf cnt (broadcast S5000x1 (Scalar.ofBits (F := Ideal) .f32 0x3F800000#32))) broadcasts_S5000x1_S5000x16 (ix2 p k)) = _
  rw [spread_col]
  rfl

/-- The row's own features, after the format change, are the features. -/
theorem self_at (x : Vec Ideal S5000x16 .f32) (i : S5000x16.Idx) : (k2_pay3 x i : EReal) = x i := by
  unfold k2_pay3
  simp only [shapeCast_self]
  rfl

/-- A weight array after the format change is the weight array. -/
theorem wl1_at (w : Vec Ideal S16x32 .f32) (i : S16x32.Idx) : (k2_pay4 w i : EReal) = w i := rfl
theorem wr1_at (w : Vec Ideal S16x32 .f32) (i : S16x32.Idx) : (k2_pay5 w i : EReal) = w i := rfl

/-- The first relation's neighbour term plus its bias, at row `p`, column `q`. -/
theorem first_at (cnt : Vec Ideal S5000x1 .f32) (agg : Vec Ideal S5000x16 .f32) (w : Vec Ideal S16x32 .f32) (b : Vec Ideal S1x32 .f32)
    (p : Fin 5000) (q : Fin 32) :
    (k2_pay6 cnt agg w b (ix2 p q) : EReal) = (∑ k : Fin 16, meanE (agg (ix2 p k)) (cnt (ix2 p 0)) * w (ix2 k q)) + b (ix2 0 q) := by
  unfold k2_pay6
  simp only [shapeCast_self]
  show matmul dot_S5000x16_S16x32_S5000x32_1_0_0_1_n_n none _ _ (constant (F := Ideal) S5000x32 .f32 0x00000000#32) (ix2 p q) + broadcastTo S5000x32 b broadcasts_S1x32_S5000x32 (ix2 p q) = _
  rw [dot_at, spread_row]
  refine congrArg (· + b (ix2 0 q)) (Finset.sum_congr rfl fun k _ => ?_)
  show Ideal.div (agg (ix2 p k)) (broadcastTo S5000x16 (maximumf cnt (broadcast S5000x1 (Scalar.ofBits (F := Ideal) .f32 0x3F800000#32))) broadcasts_S5000x1_S5000x16 (ix2 p k)) * w (ix2 k q) = _
  rw [spread_col]
  rfl

/-- The first relation's root term, at row `p`, column `q`. -/
theorem root0_at (x : Vec Ideal S5000x16 .f32) (w : Vec Ideal S16x32 .f32) (p : Fin 5000) (q : Fin 32) :
    (k2_pay7 x w (ix2 p q) : EReal) = ∑ k : Fin 16, x (ix2 p k) * w (ix2 k q) := by
  unfold k2_pay7
  show matmul dot_S5000x16_S16x32_S5000x32_1_0_0_1_n_n none (k2_pay3 x) _ (constant (F := Ideal) S5000x32 .f32 0x00000000#32) (ix2 p q) = _
  rw [dot_at]
  refine Finset.sum_congr rfl fun k _ => ?_
  rw [self_at]
  rfl

/-- The stored value at row `p`, column `q`, from the six pieces the earlier statements left: the running sum. -/
theorem stored_at (m1 : FVec Ideal S5000x16 .bf16) (xs : FVec Ideal S5000x16 .bf16) (wl1 wr1 : FVec Ideal S16x32 .bf16)
    (s0 r0 : FVec Ideal S5000x32 .f32) (b1 : Vec Ideal S1x32 .f32) (p : Fin 5000) (q : Fin 32) :
    (k2_pay1 m1 xs wl1 wr1 s0 r0 b1 (ix2 p q) : EReal)
      = (((s0 (ix2 p q) + r0 (ix2 p q)) + ∑ k : Fin 16, m1 (ix2 p k) * wl1 (ix2 k q)) + b1 (ix2 0 q))
          + ∑ k : Fin 16, xs (ix2 p k) * wr1 (ix2 k q) := by
  unfold k2_pay1
  simp only [shapeCast_self]
  show (((s0 (ix2 p q) + r0 (ix2 p q)) + matmul dot_S5000x16_S16x32_S5000x32_1_0_0_1_n_n none m1 wl1 (constant (F := Ideal) S5000x32 .f32 0x00000000#32) (ix2 p q))
      + broadcastTo S5000x32 b1 broadcasts_S1x32_S5000x32 (ix2 p q))
      + matmul dot_S5000x16_S16x32_S5000x32_1_0_0_1_n_n none xs wr1 (constant (F := Ideal) S5000x32 .f32 0x00000000#32) (ix2 p q) = _
  rw [dot_at, dot_at, spread_row]

/-! ## The staging buffer after the body, at an entry -/

/-- What the body leaves in the output block at row `p`, column `q`, from the eleven input blocks: the combined
    message of the row, accumulated left to right. -/
theorem stored_block_at (x0 : Vec Ideal S5000x16 .f32) (x1 : Vec Ideal S5000x1 .f32) (x2 : Vec Ideal S5000x16 .f32) (x3 : Vec Ideal S5000x1 .f32)
    (x4 : Vec Ideal S5000x16 .f32) (x5 : Vec Ideal S16x32 .f32) (x6 : Vec Ideal S1x32 .f32) (x7 : Vec Ideal S16x32 .f32)
    (x8 : Vec Ideal S16x32 .f32) (x9 : Vec Ideal S1x32 .f32) (x10 : Vec Ideal S16x32 .f32) (p : Fin 5000) (q : Fin 32) :
    (out2_11 x0 x1 x2 x3 x4 x5 x6 x7 x8 x9 x10 (ix2 p q) : EReal)
      = combK (K := Fin 16) (fun k => x0 (ix2 p k)) (fun k => x2 (ix2 p k)) (fun k => x4 (ix2 p k))
          (x1 (ix2 p 0)) (x3 (ix2 p 0))
          (fun k => x5 (ix2 k q)) (fun k => x7 (ix2 k q)) (fun k => x8 (ix2 k q)) (fun k => x10 (ix2 k q))
          (x6 (ix2 0 q)) (x9 (ix2 0 q)) := by
  unfold out2_11
  rw [View.canon_unit_zero zero_offsets]
  simp only [View.ld_unit_zero (S := S5000x16) zero_offsets, View.ld_unit_zero (S := S5000x1) zero_offsets, View.ld_unit_zero (S := S16x32) zero_offsets,
    View.ld_unit_zero (S := S1x32) zero_offsets]
  rw [stored_at, first_at, root0_at]
  unfold combK
  refine congrArg₂ (· + ·) (congrArg (· + x9 (ix2 0 q)) (congrArg₂ (· + ·) rfl (Finset.sum_congr rfl fun k _ => ?_))) (Finset.sum_congr rfl fun k _ => ?_)
  · rw [mean_at, wl1_at]
  · rw [self_at, wr1_at]

/-! ## From blocks to the array

A row-blocked window's block at grid point `t` holds rows `5000 t … 5000 t + 4999` of its array; a whole-array
window's block is its array. So the output block at point `t` is rows `5000 t …` of ONE function of the arrays,
and the hundred blocks tile the 500000 rows. -/

variable (V : (c : Dev nD) → (b : Ref sig .tc) → Buf (Elt Ideal) ((c : Thread nD τ).loc b))

/-- The printed index maps, decided over the hundred grid points: a row-blocked window sits at block `(t, 0)`, a
    whole-array window at block `(0, 0)`. -/
theorem block_positions : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-- Window 0 (the first relation's neighbour sums): row `p` of block `t` is row `5000 t + p` of the array. -/
theorem rows0 (c : Dev nD) (t : Fin cfg2.N) (p : Fin 5000) (k : Fin 16) (r : Fin 500000) (hr : r.val = t.val * 5000 + p.val) :
    ((iblk2 V c 0 t : Vec Ideal S5000x16 .f32) (ix2 p k) : EReal) = V c main_v75 (ix2 r k) := by
  have hi := (block_positions t).1
  unfold iblk2
  rw [View.read_apply]
  show V c main_v75 _ = V c main_v75 _
  refine congrArg (V c main_v75) (funext fun a => Fin.ext ?_)
  match a with
  | ⟨0, _⟩ => show win2_0.index t (0 : Fin 2) * 5000 + 1 * p.val = r.val; rw [hi.1, hr]; omega
  | ⟨1, _⟩ => show win2_0.index t (1 : Fin 2) * 16 + 1 * k.val = k.val; rw [hi.2]; omega

/-- Window 1 (the first relation's neighbour counts). -/
theorem rows1 (c : Dev nD) (t : Fin cfg2.N) (p : Fin 5000) (r : Fin 500000) (hr : r.val = t.val * 5000 + p.val) :
    ((iblk2 V c 1 t : Vec Ideal S5000x1 .f32) (ix2 p 0) : EReal) = V c main_v106 (ix2 r 0) := by
  have hi := (block_positions t).2.1
  unfold iblk2
  rw [View.read_apply]
  show V c main_v106 _ = V c main_v106 _
  refine congrArg (V c main_v106) (funext fun a => Fin.ext ?_)
  match a with
  | ⟨0, _⟩ => show win2_1.index t (0 : Fin 2) * 5000 + 1 * p.val = r.val; rw [hi.1, hr]; omega
  | ⟨1, _⟩ => show win2_1.index t (1 : Fin 2) * 1 + 1 * 0 = 0; rw [hi.2]

/-- Window 2 (the second relation's neighbour sums). -/
theorem rows2 (c : Dev nD) (t : Fin cfg2.N) (p : Fin 5000) (k : Fin 16) (r : Fin 500000) (hr : r.val = t.val * 5000 + p.val) :
    ((iblk2 V c 2 t : Vec Ideal S5000x16 .f32) (ix2 p k) : EReal) = V c main_v85 (ix2 r k) := by
  have hi := (block_positions t).2.2.1
  unfold iblk2
  rw [View.read_apply]
  show V c main_v85 _ = V c main_v85 _
  refine congrArg (V c main_v85) (funext fun a => Fin.ext ?_)
  match a with
  | ⟨0, _⟩ => show win2_2.index t (0 : Fin 2) * 5000 + 1 * p.val = r.val; rw [hi.1, hr]; omega
  | ⟨1, _⟩ => show win2_2.index t (1 : Fin 2) * 16 + 1 * k.val = k.val; rw [hi.2]; omega

/-- Window 3 (the second relation's neighbour counts). -/
theorem rows3 (c : Dev nD) (t : Fin cfg2.N) (p : Fin 5000) (r : Fin 500000) (hr : r.val = t.val * 5000 + p.val) :
    ((iblk2 V c 3 t : Vec Ideal S5000x1 .f32) (ix2 p 0) : EReal) = V c main_v107 (ix2 r 0) := by
  have hi := (block_positions t).2.2.2.1
  unfold iblk2
  rw [View.read_apply]
  show V c main_v107 _ = V c main_v107 _
  refine congrArg (V c main_v107) (funext fun a => Fin.ext ?_)
  match a with
  | ⟨0, _⟩ => show win2_3.index t (0 : Fin 2) * 5000 + 1 * p.val = r.val; rw [hi.1, hr]; omega
  | ⟨1, _⟩ => show win2_3.index t (1 : Fin 2) * 1 + 1 * 0 = 0; rw [hi.2]

/-- Window 4 (the rows' own features). -/
theorem rows4 (c : Dev nD) (t : Fin cfg2.N) (p : Fin 5000) (k : Fin 16) (r : Fin 500000) (hr : r.val = t.val * 5000 + p.val) :
    ((iblk2 V c 4 t : Vec Ideal S5000x16 .f32) (ix2 p k) : EReal) = V c main_v60 (ix2 r k) := by
  have hi := (block_positions t).2.2.2.2.1
  unfold iblk2
  rw [View.read_apply]
  show V c main_v60 _ = V c main_v60 _
  refine congrArg (V c main_v60) (funext fun a => Fin.ext ?_)
  match a with
  | ⟨0, _⟩ => show win2_4.index t (0 : Fin 2) * 5000 + 1 * p.val = r.val; rw [hi.1, hr]; omega
  | ⟨1, _⟩ => show win2_4.index t (1 : Fin 2) * 16 + 1 * k.val = k.val; rw [hi.2]; omega

/-- Window 5 (the first relation's neighbour weights): the block is the array. -/
theorem whole5 (c : Dev nD) (t : Fin cfg2.N) (k : Fin 16) (q : Fin 32) :
    ((iblk2 V c 5 t : Vec Ideal S16x32 .f32) (ix2 k q) : EReal) = V c main_arg22 (ix2 k q) := by
  have hi := (block_positions t).2.2.2.2.2.1
  unfold iblk2
  rw [View.read_apply]
  show V c main_arg22 _ = V c main_arg22 _
  refine congrArg (V c main_arg22) (funext fun a => Fin.ext ?_)
  match a with
  | ⟨0, _⟩ => show win2_5.index t (0 : Fin 2) * 16 + 1 * k.val = k.val; rw [hi.1]; omega
  | ⟨1, _⟩ => show win2_5.index t (1 : Fin 2) * 32 + 1 * q.val = q.val; rw [hi.2]; omega

/-- Window 6 (the first relation's bias row). -/
theorem whole6 (c : Dev nD) (t : Fin cfg2.N) (q : Fin 32) :
    ((iblk2 V c 6 t : Vec Ideal S1x32 .f32) (ix2 0 q) : EReal) = V c main_v108 (ix2 0 q) := by
  have hi := (block_positions t).2.2.2.2.2.2.1
  unfold iblk2
  rw [View.read_apply]
  show V c main_v108 _ = V c main_v108 _
  refine congrArg (V c main_v108) (funext fun a => Fin.ext ?_)
  match a with
  | ⟨0, _⟩ => show win2_6.index t (0 : Fin 2) * 1 + 1 * 0 = 0; rw [hi.1]
  | ⟨1, _⟩ => show win2_6.index t (1 : Fin 2) * 32 + 1 * q.val = q.val; rw [hi.2]; omega

/-- Window 7 (the first relation's root weights). -/
theorem whole7 (c : Dev nD) (t : Fin cfg2.N) (k : Fin 16) (q : Fin 32) :
    ((iblk2 V c 7 t : Vec Ideal S16x32 .f32) (ix2 k q) : EReal) = V c main_arg24 (ix2 k q) := by
  have hi := (block_positions t).2.2.2.2.2.2.2.1
  unfold iblk2
  rw [View.read_apply]
  show V c main_arg24 _ = V c main_arg24 _
  refine congrArg (V c main_arg24) (funext fun a => Fin.ext ?_)
  match a with
  | ⟨0, _⟩ => show win2_7.index t (0 : Fin 2) * 16 + 1 * k.val = k.val; rw [hi.1]; omega
  | ⟨1, _⟩ => show win2_7.index t (1 : Fin 2) * 32 + 1 * q.val = q.val; rw [hi.2]; omega

/-- Window 8 (the second relation's neighbour weights). -/
theorem whole8 (c : Dev nD) (t : Fin cfg2.N) (k : Fin 16) (q : Fin 32) :
    ((iblk2 V c 8 t : Vec Ideal S16x32 .f32) (ix2 k q) : EReal) = V c main_arg25 (ix2 k q) := by
  have hi := (block_positions t).2.2.2.2.2.2.2.2.1
  unfold iblk2
  rw [View.read_apply]
  show V c main_arg25 _ = V c main_arg25 _
  refine congrArg (V c main_arg25) (funext fun a => Fin.ext ?_)
  match a with
  | ⟨0, _⟩ => show win2_8.index t (0 : Fin 2) * 16 + 1 * k.val = k.val; rw [hi.1]; omega
  | ⟨1, _⟩ => show win2_8.index t (1 : Fin 2) * 32 + 1 * q.val = q.val; rw [hi.2]; omega

/-- Window 9 (the second relation's bias row). -/
theorem whole9 (c : Dev nD) (t : Fin cfg2.N) (q : Fin 32) :
    ((iblk2 V c 9 t : Vec Ideal S1x32 .f32) (ix2 0 q) : EReal) = V c main_v109 (ix2 0 q) := by
  have hi := (block_positions t).2.2.2.2.2.2.2.2.2.1
  unfold iblk2
  rw [View.read_apply]
  show V c main_v109 _ = V c main_v109 _
  refine congrArg (V c main_v109) (funext fun a => Fin.ext ?_)
  match a with
  | ⟨0, _⟩ => show win2_9.index t (0 : Fin 2) * 1 + 1 * 0 = 0; rw [hi.1]
  | ⟨1, _⟩ => show win2_9.index t (1 : Fin 2) * 32 + 1 * q.val = q.val; rw [hi.2]; omega

/-- Window 10 (the second relation's root weights). -/
theorem whole10 (c : Dev nD) (t : Fin cfg2.N) (k : Fin 16) (q : Fin 32) :
    ((iblk2 V c 10 t : Vec Ideal S16x32 .f32) (ix2 k q) : EReal) = V c main_arg27 (ix2 k q) := by
  have hi := (block_positions t).2.2.2.2.2.2.2.2.2.2.1
  unfold iblk2
  rw [View.read_apply]
  show V c main_arg27 _ = V c main_arg27 _
  refine congrArg (V c main_arg27) (funext fun a => Fin.ext ?_)
  match a with
  | ⟨0, _⟩ => show win2_10.index t (0 : Fin 2) * 16 + 1 * k.val = k.val; rw [hi.1]; omega
  | ⟨1, _⟩ => show win2_10.index t (1 : Fin 2) * 32 + 1 * q.val = q.val; rw [hi.2]; omega

/-- The combined message of row `r`, column `j`, from the arrays as the launch finds them. -/
def rowMsg (c : Dev nD) (r : Fin 500000) (j : Fin 32) : EReal :=
  combK (K := Fin 16)
    (fun k => V c main_v75 (ix2 r k)) (fun k => V c main_v85 (ix2 r k)) (fun k => V c main_v60 (ix2 r k))
    (V c main_v106 (ix2 r 0)) (V c main_v107 (ix2 r 0))
    (fun k => V c main_arg22 (ix2 k j)) (fun k => V c main_arg24 (ix2 k j))
    (fun k => V c main_arg25 (ix2 k j)) (fun k => V c main_arg27 (ix2 k j))
    (V c main_v108 (ix2 0 j)) (V c main_v109 (ix2 0 j))

/-- The whole result array: every row's combined message. -/
def msgs (c : Dev nD) : S500000x32.Idx → EReal := fun i => rowMsg V c (i 0) (i 1)

/-- What grid point `t` writes back is rows `5000 t … 5000 t + 4999` of `msgs`. -/
theorem written_rows (c : Dev nD) (t : Fin cfg2.N) :
    (dat2 V c).flushed 11 t = ((cfg2.win 11).blk t).view.read (Elt Ideal) (msgs V c) := by
  show (cfg2.win 11).cut (grid2.coords t) ((dat2 V c).after 11 t) = _
  rw [after2_11]
  funext y
  obtain ⟨p, q, rfl⟩ : ∃ (p : Fin 5000) (q : Fin 32), y = ix2 p q := ⟨y 0, y 1, eq_ix2 y⟩
  have ht : t.val < 100 := Nat.lt_of_lt_of_eq t.isLt N_2
  obtain ⟨r, hr⟩ : ∃ r : Fin 500000, r.val = t.val * 5000 + p.val := ⟨⟨t.val * 5000 + p.val, by omega⟩, rfl⟩
  have hi := (block_positions t).2.2.2.2.2.2.2.2.2.2.2
  have hemb : ((cfg2.win 11).blk t).view.emb (ix2 p q) = (ix2 r q : S500000x32.Idx) := by
    funext a; apply Fin.ext
    match a with
    | ⟨0, _⟩ => show win2_11.index t (0 : Fin 2) * 5000 + 1 * p.val = r.val; rw [hi.1, hr]; omega
    | ⟨1, _⟩ => show win2_11.index t (1 : Fin 2) * 32 + 1 * q.val = q.val; rw [hi.2]; omega
  show (out2_11 (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (ix2 p q) : EReal)
    = msgs V c (((cfg2.win 11).blk t).view.emb (ix2 p q))
  rw [hemb]
  refine (stored_block_at (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) p q).trans ?_
  show _ = rowMsg V c r q
  unfold rowMsg
  have e0 : (fun k : Fin 16 => ((iblk2 V c 0 t : Vec Ideal S5000x16 .f32) (ix2 p k) : EReal)) = fun k => V c main_v75 (ix2 r k) :=
    funext fun k => rows0 V c t p k r hr
  have e2 : (fun k : Fin 16 => ((iblk2 V c 2 t : Vec Ideal S5000x16 .f32) (ix2 p k) : EReal)) = fun k => V c main_v85 (ix2 r k) :=
    funext fun k => rows2 V c t p k r hr
  have e4 : (fun k : Fin 16 => ((iblk2 V c 4 t : Vec Ideal S5000x16 .f32) (ix2 p k) : EReal)) = fun k => V c main_v60 (ix2 r k) :=
    funext fun k => rows4 V c t p k r hr
  have e5 : (fun k : Fin 16 => ((iblk2 V c 5 t : Vec Ideal S16x32 .f32) (ix2 k q) : EReal)) = fun k => V c main_arg22 (ix2 k q) :=
    funext fun k => whole5 V c t k q
  have e7 : (fun k : Fin 16 => ((iblk2 V c 7 t : Vec Ideal S16x32 .f32) (ix2 k q) : EReal)) = fun k => V c main_arg24 (ix2 k q) :=
    funext fun k => whole7 V c t k q
  have e8 : (fun k : Fin 16 => ((iblk2 V c 8 t : Vec Ideal S16x32 .f32) (ix2 k q) : EReal)) = fun k => V c main_arg25 (ix2 k q) :=
    funext fun k => whole8 V c t k q
  have e10 : (fun k : Fin 16 => ((iblk2 V c 10 t : Vec Ideal S16x32 .f32) (ix2 k q) : EReal)) = fun k => V c main_arg27 (ix2 k q) :=
    funext fun k => whole10 V c t k q
  rw [e0, e2, e4, e5, e7, e8, e10, rows1 V c t p r hr, rows3 V c t p r hr, whole6 V c t q, whole9 V c t q]

/-- An index of the result array is in point `t`'s block iff each coordinate is in the block's range on its axis. -/
theorem in_block_iff (t : Fin cfg2.N) (i : S500000x32.Idx) :
    i ∈ ((cfg2.win 11).blk t).view.set ↔ ∀ a : Fin 2, win2_11.index t a * S5000x32.size a ≤ (i a).val ∧ (i a).val < win2_11.index t a * S5000x32.size a + S5000x32.size a := by
  show i ∈ ((View.whole main_v110).slice (win2_11.rect t)).set ↔ _
  rw [View.set_slice_whole, Rect.mem_set_unit]
  exact Iff.rfl

/-- Row `i 0` lies in the block of grid point `(i 0) / 5000`: the hundred blocks tile the array. -/
theorem rows_tiled (i : S500000x32.Idx) : ∃ t : Fin cfg2.N, (cfg2.win 11).flush t = true ∧ i ∈ ((cfg2.win 11).blk t).view.set := by
  have hi0 : (i 0).val < 500000 := idx2_lt0 i
  have hi1 : (i 1).val < 32 := idx2_lt1 i
  obtain ⟨t, htv⟩ : ∃ t : Fin cfg2.N, t.val = (i 0).val / 5000 :=
    ⟨⟨(i 0).val / 5000, Nat.lt_of_lt_of_eq (by omega : (i 0).val / 5000 < 100) N_2.symm⟩, rfl⟩
  have hi := (block_positions t).2.2.2.2.2.2.2.2.2.2.2
  refine ⟨t, flush2_11 t, ?_⟩
  rw [in_block_iff]
  intro a
  match a with
  | ⟨0, _⟩ =>
    show win2_11.index t (0 : Fin 2) * 5000 ≤ (i 0).val ∧ (i 0).val < win2_11.index t (0 : Fin 2) * 5000 + 5000
    rw [hi.1, htv]; omega
  | ⟨1, _⟩ =>
    show win2_11.index t (1 : Fin 2) * 32 ≤ (i 1).val ∧ (i 1).val < win2_11.index t (1 : Fin 2) * 32 + 32
    rw [hi.2]; omega

/-- The result array after the launch holds every row's combined message. -/
theorem array_eq (c : Dev nD) : (dat2 V c).arrAt 11 cfg2.N = msgs V c :=
  (dat2 V c).arrAt_eq_of_cover 11 (msgs V c) (fun t _ => written_rows V c t) rows_tiled

/-- Entry `(r, j)` of the result array after the launch: row `r`'s combined message at column `j`. -/
theorem out_eq (c : Dev nD) (r : Fin 500000) (j : Fin 32) :
    (Gen.dat2 (F := Ideal) V c).arrAt 11 cfg2.N (ValueIdx.ix2 r j) =
      Cert.Sage.combK (K := Fin 16)
        (fun k => V c main_v75 (ValueIdx.ix2 r k)) (fun k => V c main_v85 (ValueIdx.ix2 r k)) (fun k => V c main_v60 (ValueIdx.ix2 r k))
        (V c main_v106 (ValueIdx.ix2 r 0)) (V c main_v107 (ValueIdx.ix2 r 0))
        (fun k => V c main_arg22 (ValueIdx.ix2 k j)) (fun k => V c main_arg24 (ValueIdx.ix2 k j))
        (fun k => V c main_arg25 (ValueIdx.ix2 k j)) (fun k => V c main_arg27 (ValueIdx.ix2 k j))
        (V c main_v108 (ValueIdx.ix2 0 j)) (V c main_v109 (ValueIdx.ix2 0 j)) := by
  rw [array_eq]
  rfl

end Cert.KernelIdeal.SageK2

end
-- ==== Proof.SageK3.lean ====
/-
  A layer-two launch of the two-relation neighbourhood combine (the destination type with 100000 rows; no rectifier
  follows), read as a value on the extended reals.

  For one destination type the launch walks its 100000 rows in twenty blocks of 5000 rows. At each block it holds
  the two relations' summed neighbour features (5000 × 16), their neighbour counts (5000 × 1), the rows' own features
  (5000 × 16), and, whole, the four weight arrays (16 × 32) and the two bias rows (1 × 32). It divides each neighbour
  sum by its count clamped below at one, multiplies the two means and (twice) the rows' own features by their weight
  arrays, and adds the six terms left to right into one running sum, which it stores as the block's 5000 × 32 result.
  On the extended reals a change of number format is the identity and a product into a zero accumulator is the plain
  sum over the sixteen features, so entry (p, q) of the stored block is `Cert.Sage.combK` of row p's data and column
  q's weights (`stored_block_at`). Block t of every row-blocked operand is rows 5000 t … 5000 t + 4999 of its array
  and a whole-array operand's block is the array (`rows0` … `whole10`), so what block t writes back is those rows of
  ONE function of the arrays (`written_rows`); the twenty blocks tile the rows (`rows_tiled`), and the result array
  ends holding that function (`array_eq`, `out_eq`).
-/
import proofs.«180402_j10711648436497_1_alg».proof.Proof.Gen.KernelIdeal.Frame
import proofs.«180402_j10711648436497_1_alg».proof.Proof.SageSpec
import Idealize.ShloMosaic.Lib.Pipeline.Value
import Idealize.ShloMosaic.Lib.ValueIdx
import Idealize.ShloMosaic.PureOps.Ideal.Laws

noncomputable section

namespace Cert.KernelIdeal.SageK3

open Cert.KernelIdeal Cert.KernelIdeal.Gen Idealize.ShloMosaic Idealize.ShloMosaic.TcCoe Idealize.SL.Sem
open Idealize.ShloMosaic.Pipeline (Dat)
open Idealize.ShloMosaic.ValueIdx
open Cert.Sage

theorem zero_offsets : (![0, 0] : Fin 2 → Nat) = fun _ => 0 := funext fun a => by fin_cases a <;> rfl

/-! ## One product read at an entry

The product's dimension numbers contract the block's feature axis against the weight array's row axis. At output
entry `(p, q)` and contraction index `k` the block is read at `(p, k)` and the weights at `(k, q)`. -/

theorem lhs_row (i : S5000x32.Idx) (u : dot_S5000x16_S16x32_S5000x32_1_0_0_1_n_n.contr.Idx) :
    (dot_S5000x16_S16x32_S5000x32_1_0_0_1_n_n.lhsIdx i u 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_feat (i : S5000x32.Idx) (u : dot_S5000x16_S16x32_S5000x32_1_0_0_1_n_n.contr.Idx) :
    (dot_S5000x16_S16x32_S5000x32_1_0_0_1_n_n.lhsIdx i u 1).val = (u ⟨0, by decide⟩).val :=
  dot_S5000x16_S16x32_S5000x32_1_0_0_1_n_n.lhsIdx_val_of_single rfl i u
theorem rhs_feat (i : S5000x32.Idx) (u : dot_S5000x16_S16x32_S5000x32_1_0_0_1_n_n.contr.Idx) :
    (dot_S5000x16_S16x32_S5000x32_1_0_0_1_n_n.rhsIdx i u 0).val = (u ⟨0, by decide⟩).val :=
  dot_S5000x16_S16x32_S5000x32_1_0_0_1_n_n.rhsIdx_val_of_single rfl i u
theorem rhs_col (i : S5000x32.Idx) (u : dot_S5000x16_S16x32_S5000x32_1_0_0_1_n_n.contr.Idx) :
    (dot_S5000x16_S16x32_S5000x32_1_0_0_1_n_n.rhsIdx i u 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- One product of a [5000,16] block with a [16,32] weight array into a zero accumulator, read at row `p` and
    column `q`: the sum over the sixteen features of the row's entry times the column's weight. -/
theorem dot_at (lhs : FVec Ideal S5000x16 .bf16) (rhs : FVec Ideal S16x32 .bf16) (p : Fin 5000) (q : Fin 32) :
    matmul dot_S5000x16_S16x32_S5000x32_1_0_0_1_n_n none lhs rhs (constant (F := Ideal) S5000x32 .f32 0x00000000#32) (ix2 p q)
      = ∑ k : Fin 16, lhs (ix2 p k) * rhs (ix2 k q) := by
  show FloatOps.matmul dot_S5000x16_S16x32_S5000x32_1_0_0_1_n_n none lhs rhs (constant (F := Ideal) S5000x32 .f32 0x00000000#32) (ix2 p q) = _
  rw [Ideal.matmul_constant_zero_apply, ← Equiv.sum_comp (contrEquiv1 dot_S5000x16_S16x32_S5000x32_1_0_0_1_n_n 16 rfl rfl).symm]
  refine Finset.sum_congr rfl fun k _ => ?_
  have hk := contrEquiv1_symm_val dot_S5000x16_S16x32_S5000x32_1_0_0_1_n_n 16 rfl rfl k
  have el : dot_S5000x16_S16x32_S5000x32_1_0_0_1_n_n.lhsIdx (ix2 p q) ((contrEquiv1 dot_S5000x16_S16x32_S5000x32_1_0_0_1_n_n 16 rfl rfl).symm k) = ix2 p k :=
    funext fun a => Fin.ext (by
      match a with
      | ⟨0, _⟩ => exact lhs_row _ _
      | ⟨1, _⟩ => exact (lhs_feat _ _).trans hk)
  have er : dot_S5000x16_S16x32_S5000x32_1_0_0_1_n_n.rhsIdx (ix2 p q) ((contrEquiv1 dot_S5000x16_S16x32_S5000x32_1_0_0_1_n_n 16 rfl rfl).symm k) = ix2 k q :=
    funext fun a => Fin.ext (by
      match a with
      | ⟨0, _⟩ => exact (rhs_feat _ _).trans hk
      | ⟨1, _⟩ => exact rhs_col _ _)
  rw [el, er]

/-- A count column [5000,1] spread over the sixteen feature columns reads, at row `p`, the row's one count. -/
theorem spread_col {α : Type} (v : S5000x1.Idx → α) (p : Fin 5000) (k : Fin 16) :
    broadcastTo S5000x16 v broadcasts_S5000x1_S5000x16 (ix2 p k) = v (ix2 p 0) :=
  broadcastTo_apply v broadcasts_S5000x1_S5000x16 (ix2 p k) (ix2 p 0) fun a => by
    match a with
    | ⟨0, _⟩ => rfl
    | ⟨1, _⟩ => rfl

/-- A bias row [1,32] spread over the 5000 rows reads, at column `q`, the column's one bias. -/
theorem spread_row {α : Type} (v : S1x32.Idx → α) (p : Fin 5000) (q : Fin 32) :
    broadcastTo S5000x32 v broadcasts_S1x32_S5000x32 (ix2 p q) = v (ix2 0 q) :=
  broadcastTo_apply v broadcasts_S1x32_S5000x32 (ix2 p q) (ix2 0 q) fun a => by
    match a with
    | ⟨0, _⟩ => rfl
    | ⟨1, _⟩ => rfl

/-! ## The body's payloads read at an entry

Every format change is the identity on extended reals and every same-shape cast is the identity on values, so each
payload, read at one entry, is an expression in the loaded blocks' entries. -/

/-- A neighbour sum block divided by its count column (clamped below at one), read at row `p`, feature `k`: the
    neighbour mean of that feature. -/
theorem mean_at (cnt : Vec Ideal S5000x1 .f32) (agg : Vec Ideal S5000x16 .f32) (p : Fin 5000) (k : Fin 16) :
    (k3_pay2 cnt agg (ix2 p k) : EReal) = meanE (agg (ix2 p k)) (cnt (ix2 p 0)) := by
  unfold k3_pay2
  simp only [shapeCast_self]
  show Ideal.div (agg (ix2 p k)) (broadcastTo S5000x16 (maximumf cnt (broadcast S5000x1 (Scalar.ofBits (F := Ideal) .f32 0x3F800000#32))) broadcasts_S5000x1_S5000x16 (ix2 p k)) = _
  rw [spread_col]
  rfl

/-- The row's own features, after the format change, are the features. -/
theorem self_at (x : Vec Ideal S5000x16 .f32) (i : S5000x16.Idx) : (k3_pay3 x i : EReal) = x i := by
  unfold k3_pay3
  simp only [shapeCast_self]
  rfl

/-- A weight array after the format change is the weight array. -/
theorem wl1_at (w : Vec Ideal S16x32 .f32) (i : S16x32.Idx) : (k3_pay4 w i : EReal) = w i := rfl
theorem wr1_at (w : Vec Ideal S16x32 .f32) (i : S16x32.Idx) : (k3_pay5 w i : EReal) = w i := rfl

/-- The first relation's neighbour term plus its bias, at row `p`, column `q`. -/
theorem first_at (cnt : Vec Ideal S5000x1 .f32) (agg : Vec Ideal S5000x16 .f32) (w : Vec Ideal S16x32 .f32) (b : Vec Ideal S1x32 .f32)
    (p : Fin 5000) (q : Fin 32) :
    (k3_pay6 cnt agg w b (ix2 p q) : EReal) = (∑ k : Fin 16, meanE (agg (ix2 p k)) (cnt (ix2 p 0)) * w (ix2 k q)) + b (ix2 0 q) := by
  unfold k3_pay6
  simp only [shapeCast_self]
  show matmul dot_S5000x16_S16x32_S5000x32_1_0_0_1_n_n none _ _ (constant (F := Ideal) S5000x32 .f32 0x00000000#32) (ix2 p q) + broadcastTo S5000x32 b broadcasts_S1x32_S5000x32 (ix2 p q) = _
  rw [dot_at, spread_row]
  refine congrArg (· + b (ix2 0 q)) (Finset.sum_congr rfl fun k _ => ?_)
  show Ideal.div (agg (ix2 p k)) (broadcastTo S5000x16 (maximumf cnt (broadcast S5000x1 (Scalar.ofBits (F := Ideal) .f32 0x3F800000#32))) broadcasts_S5000x1_S5000x16 (ix2 p k)) * w (ix2 k q) = _
  rw [spread_col]
  rfl

/-- The first relation's root term, at row `p`, column `q`. -/
theorem root0_at (x : Vec Ideal S5000x16 .f32) (w : Vec Ideal S16x32 .f32) (p : Fin 5000) (q : Fin 32) :
    (k3_pay7 x w (ix2 p q) : EReal) = ∑ k : Fin 16, x (ix2 p k) * w (ix2 k q) := by
  unfold k3_pay7
  show matmul dot_S5000x16_S16x32_S5000x32_1_0_0_1_n_n none (k3_pay3 x) _ (constant (F := Ideal) S5000x32 .f32 0x00000000#32) (ix2 p q) = _
  rw [dot_at]
  refine Finset.sum_congr rfl fun k _ => ?_
  rw [self_at]
  rfl

/-- The stored value at row `p`, column `q`, from the six pieces the earlier statements left: the running sum. -/
theorem stored_at (m1 : FVec Ideal S5000x16 .bf16) (xs : FVec Ideal S5000x16 .bf16) (wl1 wr1 : FVec Ideal S16x32 .bf16)
    (s0 r0 : FVec Ideal S5000x32 .f32) (b1 : Vec Ideal S1x32 .f32) (p : Fin 5000) (q : Fin 32) :
    (k3_pay1 m1 xs wl1 wr1 s0 r0 b1 (ix2 p q) : EReal)
      = (((s0 (ix2 p q) + r0 (ix2 p q)) + ∑ k : Fin 16, m1 (ix2 p k) * wl1 (ix2 k q)) + b1 (ix2 0 q))
          + ∑ k : Fin 16, xs (ix2 p k) * wr1 (ix2 k q) := by
  unfold k3_pay1
  simp only [shapeCast_self]
  show (((s0 (ix2 p q) + r0 (ix2 p q)) + matmul dot_S5000x16_S16x32_S5000x32_1_0_0_1_n_n none m1 wl1 (constant (F := Ideal) S5000x32 .f32 0x00000000#32) (ix2 p q))
      + broadcastTo S5000x32 b1 broadcasts_S1x32_S5000x32 (ix2 p q))
      + matmul dot_S5000x16_S16x32_S5000x32_1_0_0_1_n_n none xs wr1 (constant (F := Ideal) S5000x32 .f32 0x00000000#32) (ix2 p q) = _
  rw [dot_at, dot_at, spread_row]

/-! ## The staging buffer after the body, at an entry -/

/-- What the body leaves in the output block at row `p`, column `q`, from the eleven input blocks: the combined
    message of the row, accumulated left to right. -/
theorem stored_block_at (x0 : Vec Ideal S5000x16 .f32) (x1 : Vec Ideal S5000x1 .f32) (x2 : Vec Ideal S5000x16 .f32) (x3 : Vec Ideal S5000x1 .f32)
    (x4 : Vec Ideal S5000x16 .f32) (x5 : Vec Ideal S16x32 .f32) (x6 : Vec Ideal S1x32 .f32) (x7 : Vec Ideal S16x32 .f32)
    (x8 : Vec Ideal S16x32 .f32) (x9 : Vec Ideal S1x32 .f32) (x10 : Vec Ideal S16x32 .f32) (p : Fin 5000) (q : Fin 32) :
    (out3_11 x0 x1 x2 x3 x4 x5 x6 x7 x8 x9 x10 (ix2 p q) : EReal)
      = combK (K := Fin 16) (fun k => x0 (ix2 p k)) (fun k => x2 (ix2 p k)) (fun k => x4 (ix2 p k))
          (x1 (ix2 p 0)) (x3 (ix2 p 0))
          (fun k => x5 (ix2 k q)) (fun k => x7 (ix2 k q)) (fun k => x8 (ix2 k q)) (fun k => x10 (ix2 k q))
          (x6 (ix2 0 q)) (x9 (ix2 0 q)) := by
  unfold out3_11
  rw [View.canon_unit_zero zero_offsets]
  simp only [View.ld_unit_zero (S := S5000x16) zero_offsets, View.ld_unit_zero (S := S5000x1) zero_offsets, View.ld_unit_zero (S := S16x32) zero_offsets,
    View.ld_unit_zero (S := S1x32) zero_offsets]
  rw [stored_at, first_at, root0_at]
  unfold combK
  refine congrArg₂ (· + ·) (congrArg (· + x9 (ix2 0 q)) (congrArg₂ (· + ·) rfl (Finset.sum_congr rfl fun k _ => ?_))) (Finset.sum_congr rfl fun k _ => ?_)
  · rw [mean_at, wl1_at]
  · rw [self_at, wr1_at]

/-! ## From blocks to the array

A row-blocked window's block at grid point `t` holds rows `5000 t … 5000 t + 4999` of its array; a whole-array
window's block is its array. So the output block at point `t` is rows `5000 t …` of ONE function of the arrays,
and the twenty blocks tile the 100000 rows. -/

variable (V : (c : Dev nD) → (b : Ref sig .tc) → Buf (Elt Ideal) ((c : Thread nD τ).loc b))

/-- The printed index maps, decided over the twenty grid points: a row-blocked window sits at block `(t, 0)`, a
    whole-array window at block `(0, 0)`. -/
theorem block_positions : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0) :=
  (by decide +kernel : ∀ t : Fin grid3.N, _)

/-- Window 0 (the first relation's neighbour sums): row `p` of block `t` is row `5000 t + p` of the array. -/
theorem rows0 (c : Dev nD) (t : Fin cfg3.N) (p : Fin 5000) (k : Fin 16) (r : Fin 100000) (hr : r.val = t.val * 5000 + p.val) :
    ((iblk3 V c 0 t : Vec Ideal S5000x16 .f32) (ix2 p k) : EReal) = V c main_v95 (ix2 r k) := by
  have hi := (block_positions t).1
  unfold iblk3
  rw [View.read_apply]
  show V c main_v95 _ = V c main_v95 _
  refine congrArg (V c main_v95) (funext fun a => Fin.ext ?_)
  match a with
  | ⟨0, _⟩ => show win3_0.index t (0 : Fin 2) * 5000 + 1 * p.val = r.val; rw [hi.1, hr]; omega
  | ⟨1, _⟩ => show win3_0.index t (1 : Fin 2) * 16 + 1 * k.val = k.val; rw [hi.2]; omega

/-- Window 1 (the first relation's neighbour counts). -/
theorem rows1 (c : Dev nD) (t : Fin cfg3.N) (p : Fin 5000) (r : Fin 100000) (hr : r.val = t.val * 5000 + p.val) :
    ((iblk3 V c 1 t : Vec Ideal S5000x1 .f32) (ix2 p 0) : EReal) = V c main_v111 (ix2 r 0) := by
  have hi := (block_positions t).2.1
  unfold iblk3
  rw [View.read_apply]
  show V c main_v111 _ = V c main_v111 _
  refine congrArg (V c main_v111) (funext fun a => Fin.ext ?_)
  match a with
  | ⟨0, _⟩ => show win3_1.index t (0 : Fin 2) * 5000 + 1 * p.val = r.val; rw [hi.1, hr]; omega
  | ⟨1, _⟩ => show win3_1.index t (1 : Fin 2) * 1 + 1 * 0 = 0; rw [hi.2]

/-- Window 2 (the second relation's neighbour sums). -/
theorem rows2 (c : Dev nD) (t : Fin cfg3.N) (p : Fin 5000) (k : Fin 16) (r : Fin 100000) (hr : r.val = t.val * 5000 + p.val) :
    ((iblk3 V c 2 t : Vec Ideal S5000x16 .f32) (ix2 p k) : EReal) = V c main_v105 (ix2 r k) := by
  have hi := (block_positions t).2.2.1
  unfold iblk3
  rw [View.read_apply]
  show V c main_v105 _ = V c main_v105 _
  refine congrArg (V c main_v105) (funext fun a => Fin.ext ?_)
  match a with
  | ⟨0, _⟩ => show win3_2.index t (0 : Fin 2) * 5000 + 1 * p.val = r.val; rw [hi.1, hr]; omega
  | ⟨1, _⟩ => show win3_2.index t (1 : Fin 2) * 16 + 1 * k.val = k.val; rw [hi.2]; omega

/-- Window 3 (the second relation's neighbour counts). -/
theorem rows3 (c : Dev nD) (t : Fin cfg3.N) (p : Fin 5000) (r : Fin 100000) (hr : r.val = t.val * 5000 + p.val) :
    ((iblk3 V c 3 t : Vec Ideal S5000x1 .f32) (ix2 p 0) : EReal) = V c main_v112 (ix2 r 0) := by
  have hi := (block_positions t).2.2.2.1
  unfold iblk3
  rw [View.read_apply]
  show V c main_v112 _ = V c main_v112 _
  refine congrArg (V c main_v112) (funext fun a => Fin.ext ?_)
  match a with
  | ⟨0, _⟩ => show win3_3.index t (0 : Fin 2) * 5000 + 1 * p.val = r.val; rw [hi.1, hr]; omega
  | ⟨1, _⟩ => show win3_3.index t (1 : Fin 2) * 1 + 1 * 0 = 0; rw [hi.2]

/-- Window 4 (the rows' own features). -/
theorem rows4 (c : Dev nD) (t : Fin cfg3.N) (p : Fin 5000) (k : Fin 16) (r : Fin 100000) (hr : r.val = t.val * 5000 + p.val) :
    ((iblk3 V c 4 t : Vec Ideal S5000x16 .f32) (ix2 p k) : EReal) = V c main_v65 (ix2 r k) := by
  have hi := (block_positions t).2.2.2.2.1
  unfold iblk3
  rw [View.read_apply]
  show V c main_v65 _ = V c main_v65 _
  refine congrArg (V c main_v65) (funext fun a => Fin.ext ?_)
  match a with
  | ⟨0, _⟩ => show win3_4.index t (0 : Fin 2) * 5000 + 1 * p.val = r.val; rw [hi.1, hr]; omega
  | ⟨1, _⟩ => show win3_4.index t (1 : Fin 2) * 16 + 1 * k.val = k.val; rw [hi.2]; omega

/-- Window 5 (the first relation's neighbour weights): the block is the array. -/
theorem whole5 (c : Dev nD) (t : Fin cfg3.N) (k : Fin 16) (q : Fin 32) :
    ((iblk3 V c 5 t : Vec Ideal S16x32 .f32) (ix2 k q) : EReal) = V c main_arg28 (ix2 k q) := by
  have hi := (block_positions t).2.2.2.2.2.1
  unfold iblk3
  rw [View.read_apply]
  show V c main_arg28 _ = V c main_arg28 _
  refine congrArg (V c main_arg28) (funext fun a => Fin.ext ?_)
  match a with
  | ⟨0, _⟩ => show win3_5.index t (0 : Fin 2) * 16 + 1 * k.val = k.val; rw [hi.1]; omega
  | ⟨1, _⟩ => show win3_5.index t (1 : Fin 2) * 32 + 1 * q.val = q.val; rw [hi.2]; omega

/-- Window 6 (the first relation's bias row). -/
theorem whole6 (c : Dev nD) (t : Fin cfg3.N) (q : Fin 32) :
    ((iblk3 V c 6 t : Vec Ideal S1x32 .f32) (ix2 0 q) : EReal) = V c main_v113 (ix2 0 q) := by
  have hi := (block_positions t).2.2.2.2.2.2.1
  unfold iblk3
  rw [View.read_apply]
  show V c main_v113 _ = V c main_v113 _
  refine congrArg (V c main_v113) (funext fun a => Fin.ext ?_)
  match a with
  | ⟨0, _⟩ => show win3_6.index t (0 : Fin 2) * 1 + 1 * 0 = 0; rw [hi.1]
  | ⟨1, _⟩ => show win3_6.index t (1 : Fin 2) * 32 + 1 * q.val = q.val; rw [hi.2]; omega

/-- Window 7 (the first relation's root weights). -/
theorem whole7 (c : Dev nD) (t : Fin cfg3.N) (k : Fin 16) (q : Fin 32) :
    ((iblk3 V c 7 t : Vec Ideal S16x32 .f32) (ix2 k q) : EReal) = V c main_arg30 (ix2 k q) := by
  have hi := (block_positions t).2.2.2.2.2.2.2.1
  unfold iblk3
  rw [View.read_apply]
  show V c main_arg30 _ = V c main_arg30 _
  refine congrArg (V c main_arg30) (funext fun a => Fin.ext ?_)
  match a with
  | ⟨0, _⟩ => show win3_7.index t (0 : Fin 2) * 16 + 1 * k.val = k.val; rw [hi.1]; omega
  | ⟨1, _⟩ => show win3_7.index t (1 : Fin 2) * 32 + 1 * q.val = q.val; rw [hi.2]; omega

/-- Window 8 (the second relation's neighbour weights). -/
theorem whole8 (c : Dev nD) (t : Fin cfg3.N) (k : Fin 16) (q : Fin 32) :
    ((iblk3 V c 8 t : Vec Ideal S16x32 .f32) (ix2 k q) : EReal) = V c main_arg31 (ix2 k q) := by
  have hi := (block_positions t).2.2.2.2.2.2.2.2.1
  unfold iblk3
  rw [View.read_apply]
  show V c main_arg31 _ = V c main_arg31 _
  refine congrArg (V c main_arg31) (funext fun a => Fin.ext ?_)
  match a with
  | ⟨0, _⟩ => show win3_8.index t (0 : Fin 2) * 16 + 1 * k.val = k.val; rw [hi.1]; omega
  | ⟨1, _⟩ => show win3_8.index t (1 : Fin 2) * 32 + 1 * q.val = q.val; rw [hi.2]; omega

/-- Window 9 (the second relation's bias row). -/
theorem whole9 (c : Dev nD) (t : Fin cfg3.N) (q : Fin 32) :
    ((iblk3 V c 9 t : Vec Ideal S1x32 .f32) (ix2 0 q) : EReal) = V c main_v114 (ix2 0 q) := by
  have hi := (block_positions t).2.2.2.2.2.2.2.2.2.1
  unfold iblk3
  rw [View.read_apply]
  show V c main_v114 _ = V c main_v114 _
  refine congrArg (V c main_v114) (funext fun a => Fin.ext ?_)
  match a with
  | ⟨0, _⟩ => show win3_9.index t (0 : Fin 2) * 1 + 1 * 0 = 0; rw [hi.1]
  | ⟨1, _⟩ => show win3_9.index t (1 : Fin 2) * 32 + 1 * q.val = q.val; rw [hi.2]; omega

/-- Window 10 (the second relation's root weights). -/
theorem whole10 (c : Dev nD) (t : Fin cfg3.N) (k : Fin 16) (q : Fin 32) :
    ((iblk3 V c 10 t : Vec Ideal S16x32 .f32) (ix2 k q) : EReal) = V c main_arg33 (ix2 k q) := by
  have hi := (block_positions t).2.2.2.2.2.2.2.2.2.2.1
  unfold iblk3
  rw [View.read_apply]
  show V c main_arg33 _ = V c main_arg33 _
  refine congrArg (V c main_arg33) (funext fun a => Fin.ext ?_)
  match a with
  | ⟨0, _⟩ => show win3_10.index t (0 : Fin 2) * 16 + 1 * k.val = k.val; rw [hi.1]; omega
  | ⟨1, _⟩ => show win3_10.index t (1 : Fin 2) * 32 + 1 * q.val = q.val; rw [hi.2]; omega

/-- The combined message of row `r`, column `j`, from the arrays as the launch finds them. -/
def rowMsg (c : Dev nD) (r : Fin 100000) (j : Fin 32) : EReal :=
  combK (K := Fin 16)
    (fun k => V c main_v95 (ix2 r k)) (fun k => V c main_v105 (ix2 r k)) (fun k => V c main_v65 (ix2 r k))
    (V c main_v111 (ix2 r 0)) (V c main_v112 (ix2 r 0))
    (fun k => V c main_arg28 (ix2 k j)) (fun k => V c main_arg30 (ix2 k j))
    (fun k => V c main_arg31 (ix2 k j)) (fun k => V c main_arg33 (ix2 k j))
    (V c main_v113 (ix2 0 j)) (V c main_v114 (ix2 0 j))

/-- The whole result array: every row's combined message. -/
def msgs (c : Dev nD) : S100000x32.Idx → EReal := fun i => rowMsg V c (i 0) (i 1)

/-- What grid point `t` writes back is rows `5000 t … 5000 t + 4999` of `msgs`. -/
theorem written_rows (c : Dev nD) (t : Fin cfg3.N) :
    (dat3 V c).flushed 11 t = ((cfg3.win 11).blk t).view.read (Elt Ideal) (msgs V c) := by
  show (cfg3.win 11).cut (grid3.coords t) ((dat3 V c).after 11 t) = _
  rw [after3_11]
  funext y
  obtain ⟨p, q, rfl⟩ : ∃ (p : Fin 5000) (q : Fin 32), y = ix2 p q := ⟨y 0, y 1, eq_ix2 y⟩
  have ht : t.val < 20 := Nat.lt_of_lt_of_eq t.isLt N_3
  obtain ⟨r, hr⟩ : ∃ r : Fin 100000, r.val = t.val * 5000 + p.val := ⟨⟨t.val * 5000 + p.val, by omega⟩, rfl⟩
  have hi := (block_positions t).2.2.2.2.2.2.2.2.2.2.2
  have hemb : ((cfg3.win 11).blk t).view.emb (ix2 p q) = (ix2 r q : S100000x32.Idx) := by
    funext a; apply Fin.ext
    match a with
    | ⟨0, _⟩ => show win3_11.index t (0 : Fin 2) * 5000 + 1 * p.val = r.val; rw [hi.1, hr]; omega
    | ⟨1, _⟩ => show win3_11.index t (1 : Fin 2) * 32 + 1 * q.val = q.val; rw [hi.2]; omega
  show (out3_11 (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t) (iblk3 V c 10 t) (ix2 p q) : EReal)
    = msgs V c (((cfg3.win 11).blk t).view.emb (ix2 p q))
  rw [hemb]
  refine (stored_block_at (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t) (iblk3 V c 10 t) p q).trans ?_
  show _ = rowMsg V c r q
  unfold rowMsg
  have e0 : (fun k : Fin 16 => ((iblk3 V c 0 t : Vec Ideal S5000x16 .f32) (ix2 p k) : EReal)) = fun k => V c main_v95 (ix2 r k) :=
    funext fun k => rows0 V c t p k r hr
  have e2 : (fun k : Fin 16 => ((iblk3 V c 2 t : Vec Ideal S5000x16 .f32) (ix2 p k) : EReal)) = fun k => V c main_v105 (ix2 r k) :=
    funext fun k => rows2 V c t p k r hr
  have e4 : (fun k : Fin 16 => ((iblk3 V c 4 t : Vec Ideal S5000x16 .f32) (ix2 p k) : EReal)) = fun k => V c main_v65 (ix2 r k) :=
    funext fun k => rows4 V c t p k r hr
  have e5 : (fun k : Fin 16 => ((iblk3 V c 5 t : Vec Ideal S16x32 .f32) (ix2 k q) : EReal)) = fun k => V c main_arg28 (ix2 k q) :=
    funext fun k => whole5 V c t k q
  have e7 : (fun k : Fin 16 => ((iblk3 V c 7 t : Vec Ideal S16x32 .f32) (ix2 k q) : EReal)) = fun k => V c main_arg30 (ix2 k q) :=
    funext fun k => whole7 V c t k q
  have e8 : (fun k : Fin 16 => ((iblk3 V c 8 t : Vec Ideal S16x32 .f32) (ix2 k q) : EReal)) = fun k => V c main_arg31 (ix2 k q) :=
    funext fun k => whole8 V c t k q
  have e10 : (fun k : Fin 16 => ((iblk3 V c 10 t : Vec Ideal S16x32 .f32) (ix2 k q) : EReal)) = fun k => V c main_arg33 (ix2 k q) :=
    funext fun k => whole10 V c t k q
  rw [e0, e2, e4, e5, e7, e8, e10, rows1 V c t p r hr, rows3 V c t p r hr, whole6 V c t q, whole9 V c t q]

/-- An index of the result array is in point `t`'s block iff each coordinate is in the block's range on its axis. -/
theorem in_block_iff (t : Fin cfg3.N) (i : S100000x32.Idx) :
    i ∈ ((cfg3.win 11).blk t).view.set ↔ ∀ a : Fin 2, win3_11.index t a * S5000x32.size a ≤ (i a).val ∧ (i a).val < win3_11.index t a * S5000x32.size a + S5000x32.size a := by
  show i ∈ ((View.whole main_v115).slice (win3_11.rect t)).set ↔ _
  rw [View.set_slice_whole, Rect.mem_set_unit]
  exact Iff.rfl

/-- Row `i 0` lies in the block of grid point `(i 0) / 5000`: the twenty blocks tile the array. -/
theorem rows_tiled (i : S100000x32.Idx) : ∃ t : Fin cfg3.N, (cfg3.win 11).flush t = true ∧ i ∈ ((cfg3.win 11).blk t).view.set := by
  have hi0 : (i 0).val < 100000 := idx2_lt0 i
  have hi1 : (i 1).val < 32 := idx2_lt1 i
  obtain ⟨t, htv⟩ : ∃ t : Fin cfg3.N, t.val = (i 0).val / 5000 :=
    ⟨⟨(i 0).val / 5000, Nat.lt_of_lt_of_eq (by omega : (i 0).val / 5000 < 20) N_3.symm⟩, rfl⟩
  have hi := (block_positions t).2.2.2.2.2.2.2.2.2.2.2
  refine ⟨t, flush3_11 t, ?_⟩
  rw [in_block_iff]
  intro a
  match a with
  | ⟨0, _⟩ =>
    show win3_11.index t (0 : Fin 2) * 5000 ≤ (i 0).val ∧ (i 0).val < win3_11.index t (0 : Fin 2) * 5000 + 5000
    rw [hi.1, htv]; omega
  | ⟨1, _⟩ =>
    show win3_11.index t (1 : Fin 2) * 32 ≤ (i 1).val ∧ (i 1).val < win3_11.index t (1 : Fin 2) * 32 + 32
    rw [hi.2]; omega

/-- The result array after the launch holds every row's combined message. -/
theorem array_eq (c : Dev nD) : (dat3 V c).arrAt 11 cfg3.N = msgs V c :=
  (dat3 V c).arrAt_eq_of_cover 11 (msgs V c) (fun t _ => written_rows V c t) rows_tiled

/-- Entry `(r, j)` of the result array after the launch: row `r`'s combined message at column `j`. -/
theorem out_eq (c : Dev nD) (r : Fin 100000) (j : Fin 32) :
    (Gen.dat3 (F := Ideal) V c).arrAt 11 cfg3.N (ValueIdx.ix2 r j) =
      Cert.Sage.combK (K := Fin 16)
        (fun k => V c main_v95 (ValueIdx.ix2 r k)) (fun k => V c main_v105 (ValueIdx.ix2 r k)) (fun k => V c main_v65 (ValueIdx.ix2 r k))
        (V c main_v111 (ValueIdx.ix2 r 0)) (V c main_v112 (ValueIdx.ix2 r 0))
        (fun k => V c main_arg28 (ValueIdx.ix2 k j)) (fun k => V c main_arg30 (ValueIdx.ix2 k j))
        (fun k => V c main_arg31 (ValueIdx.ix2 k j)) (fun k => V c main_arg33 (ValueIdx.ix2 k j))
        (V c main_v113 (ValueIdx.ix2 0 j)) (V c main_v114 (ValueIdx.ix2 0 j)) := by
  rw [array_eq]
  rfl

end Cert.KernelIdeal.SageK3

end
-- ==== Proof.SageValue.lean ====
/-
  What the four launches of the idealized kernel program leave in their result buffers, entry by entry.

  Each launch's result at row `r`, column `j` is the combined message of the shared specification (the kernel's own
  left-to-right association) of the launch's eleven operands as the launch finds them; and each operand, followed back
  through the program's boundaries, is a named host chain of the program's arguments — a neighbour sum, a neighbour
  count read through its one-column reshape, a bias read through its one-row reshape, or an argument itself. The two
  layer-2 launches read the layer-1 results: their neighbour sums are taken over launch 1's (launch 0's) result buffer,
  and their rows' own features are launch 0's (launch 1's).
-/
import proofs.«180402_j10711648436497_1_alg».proof.Proof.SageSpec
import proofs.«180402_j10711648436497_1_alg».proof.Proof.SageHost
import proofs.«180402_j10711648436497_1_alg».proof.Proof.SageK0
import proofs.«180402_j10711648436497_1_alg».proof.Proof.SageK1
import proofs.«180402_j10711648436497_1_alg».proof.Proof.SageK2
import proofs.«180402_j10711648436497_1_alg».proof.Proof.SageK3

set_option maxRecDepth 16384

noncomputable section

namespace Cert.KernelIdeal.SageValue

open Cert.KernelIdeal Cert.KernelIdeal.Gen
open Idealize.ShloMosaic Idealize.ShloMosaic.TcCoe Idealize.SL.Sem

/-- The combined entry depends on its eleven operands only. -/
theorem combK_congr {K : Type} [Fintype K] {a0 a0' a1 a1' x x' : K → EReal} {c0 c0' c1 c1' : EReal}
    {wl0 wl0' wr0 wr0' wl1 wl1' wr1 wr1' : K → EReal} {b0 b0' b1 b1' : EReal}
    (ha0 : a0 = a0') (ha1 : a1 = a1') (hx : x = x') (hc0 : c0 = c0') (hc1 : c1 = c1')
    (hwl0 : wl0 = wl0') (hwr0 : wr0 = wr0') (hwl1 : wl1 = wl1') (hwr1 : wr1 = wr1') (hb0 : b0 = b0') (hb1 : b1 = b1') :
    Cert.Sage.combK a0 a1 x c0 c1 wl0 wr0 wl1 wr1 b0 b1 = Cert.Sage.combK a0' a1' x' c0' c1' wl0' wr0' wl1' wr1' b0' b1' := by
  subst ha0 ha1 hx hc0 hc1 hwl0 hwr0 hwl1 hwr1 hb0 hb1
  rfl

variable (m : (ℓ : Loc nD τ sig) → Buf (Elt Ideal) ℓ) (ρ : Dev nD → PrngReg)

/-- The layer-1 task features (launch 0's result), entry by entry: the rectified combined message of the two device → task relations over the task rows. -/
theorem t1_entry (c : Dev nD) (r : Fin 500000) (j : Fin 16) :
    (W2 m ρ c (Proc.devRef .tc main_v60) : (⟨S500000x16, .f32⟩ : BufTy).Contents (Elt Ideal)) (ValueIdx.ix2 r j) =
      Cert.Sage.reluE (Cert.Sage.combK (K := Fin 64)
        (fun k => (SageHost.aggT64 (F := Ideal) (m ((c : Thread nD τ).loc main_arg0)) (m ((c : Thread nD τ).loc main_arg2)) (m ((c : Thread nD τ).loc main_arg3))) (ValueIdx.ix2 r k)) (fun k => (SageHost.aggT64 (F := Ideal) (m ((c : Thread nD τ).loc main_arg0)) (m ((c : Thread nD τ).loc main_arg4)) (m ((c : Thread nD τ).loc main_arg5))) (ValueIdx.ix2 r k)) (fun k => (m ((c : Thread nD τ).loc main_arg1) : (⟨S500000x64, .f32⟩ : BufTy).Contents (Elt Ideal)) (ValueIdx.ix2 r k))
        (SageHost.cntT (F := Ideal) (m ((c : Thread nD τ).loc main_arg3)) (ValueIdx.ix1 r)) (SageHost.cntT (F := Ideal) (m ((c : Thread nD τ).loc main_arg5)) (ValueIdx.ix1 r))
        (fun k => (m ((c : Thread nD τ).loc main_arg10) : (⟨S64x16, .f32⟩ : BufTy).Contents (Elt Ideal)) (ValueIdx.ix2 k j)) (fun k => (m ((c : Thread nD τ).loc main_arg12) : (⟨S64x16, .f32⟩ : BufTy).Contents (Elt Ideal)) (ValueIdx.ix2 k j))
        (fun k => (m ((c : Thread nD τ).loc main_arg13) : (⟨S64x16, .f32⟩ : BufTy).Contents (Elt Ideal)) (ValueIdx.ix2 k j)) (fun k => (m ((c : Thread nD τ).loc main_arg15) : (⟨S64x16, .f32⟩ : BufTy).Contents (Elt Ideal)) (ValueIdx.ix2 k j))
        ((m ((c : Thread nD τ).loc main_arg11) : (⟨S16, .f32⟩ : BufTy).Contents (Elt Ideal)) (ValueIdx.ix1 j)) ((m ((c : Thread nD τ).loc main_arg14) : (⟨S16, .f32⟩ : BufTy).Contents (Elt Ideal)) (ValueIdx.ix1 j))) := by
  rw [SageHost.t1_at2 m ρ c]
  refine (SageK0.out_eq (V1 m ρ) c r j).trans ?_
  refine congrArg Cert.Sage.reluE (combK_congr
    (funext fun k => congrFun (SageHost.v25_at1 m ρ c) (ValueIdx.ix2 r k))
    (funext fun k => congrFun (SageHost.v35_at1 m ρ c) (ValueIdx.ix2 r k))
    (funext fun k => congrFun (SageHost.arg_at1 m ρ c main_arg1 (by decide)) (ValueIdx.ix2 r k))
    (SageHost.v56_at1 m ρ c r 0) (SageHost.v57_at1 m ρ c r 0)
    (funext fun k => congrFun (SageHost.arg_at1 m ρ c main_arg10 (by decide)) (ValueIdx.ix2 k j))
    (funext fun k => congrFun (SageHost.arg_at1 m ρ c main_arg12 (by decide)) (ValueIdx.ix2 k j))
    (funext fun k => congrFun (SageHost.arg_at1 m ρ c main_arg13 (by decide)) (ValueIdx.ix2 k j))
    (funext fun k => congrFun (SageHost.arg_at1 m ρ c main_arg15 (by decide)) (ValueIdx.ix2 k j))
    (SageHost.v58_at1 m ρ c 0 j) (SageHost.v59_at1 m ρ c 0 j))

/-- The layer-1 device features (launch 1's result): the rectified combined message of the two task → device relations over the device rows. -/
theorem d1_entry (c : Dev nD) (r : Fin 100000) (j : Fin 16) :
    (W4 m ρ c (Proc.devRef .tc main_v65) : (⟨S100000x16, .f32⟩ : BufTy).Contents (Elt Ideal)) (ValueIdx.ix2 r j) =
      Cert.Sage.reluE (Cert.Sage.combK (K := Fin 64)
        (fun k => (SageHost.aggD64 (F := Ideal) (m ((c : Thread nD τ).loc main_arg1)) (m ((c : Thread nD τ).loc main_arg6)) (m ((c : Thread nD τ).loc main_arg7))) (ValueIdx.ix2 r k)) (fun k => (SageHost.aggD64 (F := Ideal) (m ((c : Thread nD τ).loc main_arg1)) (m ((c : Thread nD τ).loc main_arg8)) (m ((c : Thread nD τ).loc main_arg9))) (ValueIdx.ix2 r k)) (fun k => (m ((c : Thread nD τ).loc main_arg0) : (⟨S100000x64, .f32⟩ : BufTy).Contents (Elt Ideal)) (ValueIdx.ix2 r k))
        (SageHost.cntD (F := Ideal) (m ((c : Thread nD τ).loc main_arg7)) (ValueIdx.ix1 r)) (SageHost.cntD (F := Ideal) (m ((c : Thread nD τ).loc main_arg9)) (ValueIdx.ix1 r))
        (fun k => (m ((c : Thread nD τ).loc main_arg16) : (⟨S64x16, .f32⟩ : BufTy).Contents (Elt Ideal)) (ValueIdx.ix2 k j)) (fun k => (m ((c : Thread nD τ).loc main_arg18) : (⟨S64x16, .f32⟩ : BufTy).Contents (Elt Ideal)) (ValueIdx.ix2 k j))
        (fun k => (m ((c : Thread nD τ).loc main_arg19) : (⟨S64x16, .f32⟩ : BufTy).Contents (Elt Ideal)) (ValueIdx.ix2 k j)) (fun k => (m ((c : Thread nD τ).loc main_arg21) : (⟨S64x16, .f32⟩ : BufTy).Contents (Elt Ideal)) (ValueIdx.ix2 k j))
        ((m ((c : Thread nD τ).loc main_arg17) : (⟨S16, .f32⟩ : BufTy).Contents (Elt Ideal)) (ValueIdx.ix1 j)) ((m ((c : Thread nD τ).loc main_arg20) : (⟨S16, .f32⟩ : BufTy).Contents (Elt Ideal)) (ValueIdx.ix1 j))) := by
  rw [SageHost.d1_at4 m ρ c]
  refine (SageK1.out_eq (V3 m ρ) c r j).trans ?_
  refine congrArg Cert.Sage.reluE (combK_congr
    (funext fun k => congrFun (SageHost.v45_at3 m ρ c) (ValueIdx.ix2 r k))
    (funext fun k => congrFun (SageHost.v55_at3 m ρ c) (ValueIdx.ix2 r k))
    (funext fun k => congrFun (SageHost.arg_at3 m ρ c main_arg0 (by decide) (by decide) (by decide)) (ValueIdx.ix2 r k))
    (SageHost.v61_at3 m ρ c r 0) (SageHost.v62_at3 m ρ c r 0)
    (funext fun k => congrFun (SageHost.arg_at3 m ρ c main_arg16 (by decide) (by decide) (by decide)) (ValueIdx.ix2 k j))
    (funext fun k => congrFun (SageHost.arg_at3 m ρ c main_arg18 (by decide) (by decide) (by decide)) (ValueIdx.ix2 k j))
    (funext fun k => congrFun (SageHost.arg_at3 m ρ c main_arg19 (by decide) (by decide) (by decide)) (ValueIdx.ix2 k j))
    (funext fun k => congrFun (SageHost.arg_at3 m ρ c main_arg21 (by decide) (by decide) (by decide)) (ValueIdx.ix2 k j))
    (SageHost.v63_at3 m ρ c 0 j) (SageHost.v64_at3 m ρ c 0 j))

/-- The task output (launch 2's result): the combined message of the two device → task relations over the layer-1 features, no rectifier. -/
theorem t2_entry (c : Dev nD) (r : Fin 500000) (j : Fin 32) :
    (W8 m ρ c (Proc.devRef .tc main_v110) : (⟨S500000x32, .f32⟩ : BufTy).Contents (Elt Ideal)) (ValueIdx.ix2 r j) =
      Cert.Sage.combK (K := Fin 16)
        (fun k => (SageHost.aggT16 (F := Ideal) (W4 m ρ c (Proc.devRef .tc main_v65)) (m ((c : Thread nD τ).loc main_arg2)) (m ((c : Thread nD τ).loc main_arg3))) (ValueIdx.ix2 r k)) (fun k => (SageHost.aggT16 (F := Ideal) (W4 m ρ c (Proc.devRef .tc main_v65)) (m ((c : Thread nD τ).loc main_arg4)) (m ((c : Thread nD τ).loc main_arg5))) (ValueIdx.ix2 r k)) (fun k => ((W2 m ρ c (Proc.devRef .tc main_v60)) : (⟨S500000x16, .f32⟩ : BufTy).Contents (Elt Ideal)) (ValueIdx.ix2 r k))
        (SageHost.cntT (F := Ideal) (m ((c : Thread nD τ).loc main_arg3)) (ValueIdx.ix1 r)) (SageHost.cntT (F := Ideal) (m ((c : Thread nD τ).loc main_arg5)) (ValueIdx.ix1 r))
        (fun k => (m ((c : Thread nD τ).loc main_arg22) : (⟨S16x32, .f32⟩ : BufTy).Contents (Elt Ideal)) (ValueIdx.ix2 k j)) (fun k => (m ((c : Thread nD τ).loc main_arg24) : (⟨S16x32, .f32⟩ : BufTy).Contents (Elt Ideal)) (ValueIdx.ix2 k j))
        (fun k => (m ((c : Thread nD τ).loc main_arg25) : (⟨S16x32, .f32⟩ : BufTy).Contents (Elt Ideal)) (ValueIdx.ix2 k j)) (fun k => (m ((c : Thread nD τ).loc main_arg27) : (⟨S16x32, .f32⟩ : BufTy).Contents (Elt Ideal)) (ValueIdx.ix2 k j))
        ((m ((c : Thread nD τ).loc main_arg23) : (⟨S32, .f32⟩ : BufTy).Contents (Elt Ideal)) (ValueIdx.ix1 j)) ((m ((c : Thread nD τ).loc main_arg26) : (⟨S32, .f32⟩ : BufTy).Contents (Elt Ideal)) (ValueIdx.ix1 j)) := by
  rw [SageHost.t2_at8 m ρ c]
  refine (SageK2.out_eq (V5 m ρ) c r j).trans ?_
  refine (combK_congr
    (funext fun k => congrFun (SageHost.v75_at5 m ρ c) (ValueIdx.ix2 r k))
    (funext fun k => congrFun (SageHost.v85_at5 m ρ c) (ValueIdx.ix2 r k))
    (funext fun k => congrFun (SageHost.v60_at5 m ρ c) (ValueIdx.ix2 r k))
    (SageHost.v106_at5 m ρ c r 0) (SageHost.v107_at5 m ρ c r 0)
    (funext fun k => congrFun (SageHost.arg_at5 m ρ c main_arg22 (by decide) (by decide) (by decide) (by decide) (by decide)) (ValueIdx.ix2 k j))
    (funext fun k => congrFun (SageHost.arg_at5 m ρ c main_arg24 (by decide) (by decide) (by decide) (by decide) (by decide)) (ValueIdx.ix2 k j))
    (funext fun k => congrFun (SageHost.arg_at5 m ρ c main_arg25 (by decide) (by decide) (by decide) (by decide) (by decide)) (ValueIdx.ix2 k j))
    (funext fun k => congrFun (SageHost.arg_at5 m ρ c main_arg27 (by decide) (by decide) (by decide) (by decide) (by decide)) (ValueIdx.ix2 k j))
    (SageHost.v108_at5 m ρ c 0 j) (SageHost.v109_at5 m ρ c 0 j))

/-- The device output (launch 3's result): the combined message of the two task → device relations over the layer-1 features, no rectifier. -/
theorem d2_entry (c : Dev nD) (r : Fin 100000) (j : Fin 32) :
    (W8 m ρ c (Proc.devRef .tc main_v115) : (⟨S100000x32, .f32⟩ : BufTy).Contents (Elt Ideal)) (ValueIdx.ix2 r j) =
      Cert.Sage.combK (K := Fin 16)
        (fun k => (SageHost.aggD16 (F := Ideal) (W2 m ρ c (Proc.devRef .tc main_v60)) (m ((c : Thread nD τ).loc main_arg6)) (m ((c : Thread nD τ).loc main_arg7))) (ValueIdx.ix2 r k)) (fun k => (SageHost.aggD16 (F := Ideal) (W2 m ρ c (Proc.devRef .tc main_v60)) (m ((c : Thread nD τ).loc main_arg8)) (m ((c : Thread nD τ).loc main_arg9))) (ValueIdx.ix2 r k)) (fun k => ((W4 m ρ c (Proc.devRef .tc main_v65)) : (⟨S100000x16, .f32⟩ : BufTy).Contents (Elt Ideal)) (ValueIdx.ix2 r k))
        (SageHost.cntD (F := Ideal) (m ((c : Thread nD τ).loc main_arg7)) (ValueIdx.ix1 r)) (SageHost.cntD (F := Ideal) (m ((c : Thread nD τ).loc main_arg9)) (ValueIdx.ix1 r))
        (fun k => (m ((c : Thread nD τ).loc main_arg28) : (⟨S16x32, .f32⟩ : BufTy).Contents (Elt Ideal)) (ValueIdx.ix2 k j)) (fun k => (m ((c : Thread nD τ).loc main_arg30) : (⟨S16x32, .f32⟩ : BufTy).Contents (Elt Ideal)) (ValueIdx.ix2 k j))
        (fun k => (m ((c : Thread nD τ).loc main_arg31) : (⟨S16x32, .f32⟩ : BufTy).Contents (Elt Ideal)) (ValueIdx.ix2 k j)) (fun k => (m ((c : Thread nD τ).loc main_arg33) : (⟨S16x32, .f32⟩ : BufTy).Contents (Elt Ideal)) (ValueIdx.ix2 k j))
        ((m ((c : Thread nD τ).loc main_arg29) : (⟨S32, .f32⟩ : BufTy).Contents (Elt Ideal)) (ValueIdx.ix1 j)) ((m ((c : Thread nD τ).loc main_arg32) : (⟨S32, .f32⟩ : BufTy).Contents (Elt Ideal)) (ValueIdx.ix1 j)) := by
  rw [SageHost.d2_at8 m ρ c]
  refine (SageK3.out_eq (V7 m ρ) c r j).trans ?_
  refine (combK_congr
    (funext fun k => congrFun ((SageHost.v95_at7 m ρ c).trans ((SageHost.v95_at5 m ρ c).trans (congrArg (fun t => SageHost.aggD16 (F := Ideal) t (m ((c : Thread nD τ).loc main_arg6)) (m ((c : Thread nD τ).loc main_arg7))) (SageHost.v60_at4 m ρ c)))) (ValueIdx.ix2 r k))
    (funext fun k => congrFun ((SageHost.v105_at7 m ρ c).trans ((SageHost.v105_at5 m ρ c).trans (congrArg (fun t => SageHost.aggD16 (F := Ideal) t (m ((c : Thread nD τ).loc main_arg8)) (m ((c : Thread nD τ).loc main_arg9))) (SageHost.v60_at4 m ρ c)))) (ValueIdx.ix2 r k))
    (funext fun k => congrFun (SageHost.v65_at7 m ρ c) (ValueIdx.ix2 r k))
    (SageHost.v111_at7 m ρ c r 0) (SageHost.v112_at7 m ρ c r 0)
    (funext fun k => congrFun (SageHost.arg_at7 m ρ c main_arg28 (by decide) (by decide) (by decide) (by decide) (by decide) (by decide) (by decide)) (ValueIdx.ix2 k j))
    (funext fun k => congrFun (SageHost.arg_at7 m ρ c main_arg30 (by decide) (by decide) (by decide) (by decide) (by decide) (by decide) (by decide)) (ValueIdx.ix2 k j))
    (funext fun k => congrFun (SageHost.arg_at7 m ρ c main_arg31 (by decide) (by decide) (by decide) (by decide) (by decide) (by decide) (by decide)) (ValueIdx.ix2 k j))
    (funext fun k => congrFun (SageHost.arg_at7 m ρ c main_arg33 (by decide) (by decide) (by decide) (by decide) (by decide) (by decide) (by decide)) (ValueIdx.ix2 k j))
    (SageHost.v113_at7 m ρ c 0 j) (SageHost.v114_at7 m ρ c 0 j))

end Cert.KernelIdeal.SageValue

end
-- ==== Proof.SageRef.lean ====
/-
  The reference program, one layer result at a time, read at one row and one output column.

  Each of the four layer results is the sum of two relations' contributions. One relation contributes, for a
  destination row `r` and an output column `j`,

      (Σₖ (a r k / max (c r) 1) · wl k j) + b j + Σₖ x r k · wr k j,

  where `a` is the scatter-added neighbour features, `c` the scatter-added neighbour count (before its clamp at
  one), `x` the destination's own features, `wl`, `wr` the relation's two weight matrices and `b` its bias. The
  program reaches the quotient through two broadcasts of the clamped count (a column, then the full width), the bias
  through two broadcasts (a row, then the full height), and the two products as contractions over the feature axis.
  Read at the index `(r, j)` every broadcast collapses to its source entry and every contraction to a finite sum,
  which is the reference association of the shared specification (`Sage.combR`), under the rectifier in the first
  layer and bare in the second.
-/
import proofs.«180402_j10711648436497_1_alg».proof.Proof.RefReadP
import proofs.«180402_j10711648436497_1_alg».proof.Proof.SageSpec

noncomputable section

namespace Cert.ReferenceIdeal.SageRef

open Cert.ReferenceIdeal Cert.ReferenceIdeal.Gen Cert.ReferenceIdeal.ReadP Idealize.ShloMosaic Cert

variable (x0 : (⟨S100000x64, .f32⟩ : BufTy).Contents (Elt Ideal))
  (x1 : (⟨S500000x64, .f32⟩ : BufTy).Contents (Elt Ideal))
  (x2 : (⟨S1000000, .i32⟩ : BufTy).Contents (Elt Ideal))
  (x3 : (⟨S1000000, .i32⟩ : BufTy).Contents (Elt Ideal))
  (x4 : (⟨S1000000, .i32⟩ : BufTy).Contents (Elt Ideal))
  (x5 : (⟨S1000000, .i32⟩ : BufTy).Contents (Elt Ideal))
  (x6 : (⟨S1000000, .i32⟩ : BufTy).Contents (Elt Ideal))
  (x7 : (⟨S1000000, .i32⟩ : BufTy).Contents (Elt Ideal))
  (x8 : (⟨S1000000, .i32⟩ : BufTy).Contents (Elt Ideal))
  (x9 : (⟨S1000000, .i32⟩ : BufTy).Contents (Elt Ideal))
  (x10 : (⟨S64x16, .f32⟩ : BufTy).Contents (Elt Ideal))
  (x11 : (⟨S16, .f32⟩ : BufTy).Contents (Elt Ideal))
  (x12 : (⟨S64x16, .f32⟩ : BufTy).Contents (Elt Ideal))
  (x13 : (⟨S64x16, .f32⟩ : BufTy).Contents (Elt Ideal))
  (x14 : (⟨S16, .f32⟩ : BufTy).Contents (Elt Ideal))
  (x15 : (⟨S64x16, .f32⟩ : BufTy).Contents (Elt Ideal))
  (x16 : (⟨S64x16, .f32⟩ : BufTy).Contents (Elt Ideal))
  (x17 : (⟨S16, .f32⟩ : BufTy).Contents (Elt Ideal))
  (x18 : (⟨S64x16, .f32⟩ : BufTy).Contents (Elt Ideal))
  (x19 : (⟨S64x16, .f32⟩ : BufTy).Contents (Elt Ideal))
  (x20 : (⟨S16, .f32⟩ : BufTy).Contents (Elt Ideal))
  (x21 : (⟨S64x16, .f32⟩ : BufTy).Contents (Elt Ideal))
  (x22 : (⟨S16x32, .f32⟩ : BufTy).Contents (Elt Ideal))
  (x23 : (⟨S32, .f32⟩ : BufTy).Contents (Elt Ideal))
  (x24 : (⟨S16x32, .f32⟩ : BufTy).Contents (Elt Ideal))
  (x25 : (⟨S16x32, .f32⟩ : BufTy).Contents (Elt Ideal))
  (x26 : (⟨S32, .f32⟩ : BufTy).Contents (Elt Ideal))
  (x27 : (⟨S16x32, .f32⟩ : BufTy).Contents (Elt Ideal))
  (x28 : (⟨S16x32, .f32⟩ : BufTy).Contents (Elt Ideal))
  (x29 : (⟨S32, .f32⟩ : BufTy).Contents (Elt Ideal))
  (x30 : (⟨S16x32, .f32⟩ : BufTy).Contents (Elt Ideal))
  (x31 : (⟨S16x32, .f32⟩ : BufTy).Contents (Elt Ideal))
  (x32 : (⟨S32, .f32⟩ : BufTy).Contents (Elt Ideal))
  (x33 : (⟨S16x32, .f32⟩ : BufTy).Contents (Elt Ideal))

/-! ## One relation's contribution at an index -/

/-- First layer, task rows, relation `wr` (developer → task): the neighbour mean through `p1wr_wl`, the bias `p1wr_bl`, the row's own features through `p1wr_wr`. -/
theorem rel_t1_wr (r : Fin 500000) (j : Fin 16) :
    val_main_v24 (F := Ideal) x0 x1 x2 x3 x10 x11 x12 (ValueIdx.ix2 r j) =
      ((∑ k : Fin 64, Sage.meanE (val_main_v9 (F := Ideal) x0 x2 x3 (ValueIdx.ix2 r k)) (val_main_v13 (F := Ideal) x3 (ValueIdx.ix1 r)) * (x10 (ValueIdx.ix2 k j) : EReal))
        + (x11 (ValueIdx.ix1 j) : EReal)) + ∑ k : Fin 64, (x1 (ValueIdx.ix2 r k) : EReal) * (x12 (ValueIdx.ix2 k j) : EReal) := by
  have el1 : ∀ k : Fin 64, lidx_main_v19 (ValueIdx.ix2 r j) k = ValueIdx.ix2 r k :=
    fun k => funext fun a => Fin.ext (by match a with | ⟨0, _⟩ => rfl | ⟨1, _⟩ => rfl)
  have er1 : ∀ k : Fin 64, ridx_main_v19 (ValueIdx.ix2 r j) k = ValueIdx.ix2 k j :=
    fun k => funext fun a => Fin.ext (by match a with | ⟨0, _⟩ => rfl | ⟨1, _⟩ => rfl)
  have el2 : ∀ k : Fin 64, lidx_main_v23 (ValueIdx.ix2 r j) k = ValueIdx.ix2 r k :=
    fun k => funext fun a => Fin.ext (by match a with | ⟨0, _⟩ => rfl | ⟨1, _⟩ => rfl)
  have er2 : ∀ k : Fin 64, ridx_main_v23 (ValueIdx.ix2 r j) k = ValueIdx.ix2 k j :=
    fun k => funext fun a => Fin.ext (by match a with | ⟨0, _⟩ => rfl | ⟨1, _⟩ => rfl)
  have ecnt : ∀ k : Fin 64, idx_main_v16 (idx_main_v17 (ValueIdx.ix2 r k)) = ValueIdx.ix1 r :=
    fun k => funext fun a => Fin.ext (by match a with | ⟨0, _⟩ => rfl)
  have ebias : idx_main_v20 (idx_main_v21 (ValueIdx.ix2 r j)) = ValueIdx.ix1 j :=
    funext fun a => Fin.ext (by match a with | ⟨0, _⟩ => rfl)
  rw [val_main_v24_apply, val_main_v22_apply, val_main_v19_apply, val_main_v21_apply, val_main_v20_apply,
    val_main_v23_apply, ebias, Ideal.addf_def, Ideal.addf_def]
  refine congrArg₂ (· + ·) (congrArg (· + (x11 (ValueIdx.ix1 j) : EReal)) (Finset.sum_congr rfl fun k _ => ?_))
    (Finset.sum_congr rfl fun k _ => ?_)
  · rw [el1 k, er1 k, val_main_v18_apply, val_main_v17_apply, val_main_v16_apply, ecnt k, val_main_v15_apply,
      val_main_v14_apply, val_main_cst_3_apply, Ideal.hostDivf_def, Ideal.maximumf_def, Ideal.ofBits_def]
    rfl
  · rw [el2 k, er2 k]

/-- First layer, task rows, relation `rv`. -/
theorem rel_t1_rv (r : Fin 500000) (j : Fin 16) :
    val_main_v49 (F := Ideal) x0 x1 x4 x5 x13 x14 x15 (ValueIdx.ix2 r j) =
      ((∑ k : Fin 64, Sage.meanE (val_main_v34 (F := Ideal) x0 x4 x5 (ValueIdx.ix2 r k)) (val_main_v38 (F := Ideal) x5 (ValueIdx.ix1 r)) * (x13 (ValueIdx.ix2 k j) : EReal))
        + (x14 (ValueIdx.ix1 j) : EReal)) + ∑ k : Fin 64, (x1 (ValueIdx.ix2 r k) : EReal) * (x15 (ValueIdx.ix2 k j) : EReal) := by
  have el1 : ∀ k : Fin 64, lidx_main_v44 (ValueIdx.ix2 r j) k = ValueIdx.ix2 r k :=
    fun k => funext fun a => Fin.ext (by match a with | ⟨0, _⟩ => rfl | ⟨1, _⟩ => rfl)
  have er1 : ∀ k : Fin 64, ridx_main_v44 (ValueIdx.ix2 r j) k = ValueIdx.ix2 k j :=
    fun k => funext fun a => Fin.ext (by match a with | ⟨0, _⟩ => rfl | ⟨1, _⟩ => rfl)
  have el2 : ∀ k : Fin 64, lidx_main_v48 (ValueIdx.ix2 r j) k = ValueIdx.ix2 r k :=
    fun k => funext fun a => Fin.ext (by match a with | ⟨0, _⟩ => rfl | ⟨1, _⟩ => rfl)
  have er2 : ∀ k : Fin 64, ridx_main_v48 (ValueIdx.ix2 r j) k = ValueIdx.ix2 k j :=
    fun k => funext fun a => Fin.ext (by match a with | ⟨0, _⟩ => rfl | ⟨1, _⟩ => rfl)
  have ecnt : ∀ k : Fin 64, idx_main_v41 (idx_main_v42 (ValueIdx.ix2 r k)) = ValueIdx.ix1 r :=
    fun k => funext fun a => Fin.ext (by match a with | ⟨0, _⟩ => rfl)
  have ebias : idx_main_v45 (idx_main_v46 (ValueIdx.ix2 r j)) = ValueIdx.ix1 j :=
    funext fun a => Fin.ext (by match a with | ⟨0, _⟩ => rfl)
  rw [val_main_v49_apply, val_main_v47_apply, val_main_v44_apply, val_main_v46_apply, val_main_v45_apply,
    val_main_v48_apply, ebias, Ideal.addf_def, Ideal.addf_def]
  refine congrArg₂ (· + ·) (congrArg (· + (x14 (ValueIdx.ix1 j) : EReal)) (Finset.sum_congr rfl fun k _ => ?_))
    (Finset.sum_congr rfl fun k _ => ?_)
  · rw [el1 k, er1 k, val_main_v43_apply, val_main_v42_apply, val_main_v41_apply, ecnt k, val_main_v40_apply,
      val_main_v39_apply, val_main_cst_9_apply, Ideal.hostDivf_def, Ideal.maximumf_def, Ideal.ofBits_def]
    rfl
  · rw [el2 k, er2 k]

/-- First layer, developer rows, relation `wb` (task → developer). -/
theorem rel_d1_wb (r : Fin 100000) (j : Fin 16) :
    val_main_v75 (F := Ideal) x0 x1 x6 x7 x16 x17 x18 (ValueIdx.ix2 r j) =
      ((∑ k : Fin 64, Sage.meanE (val_main_v60 (F := Ideal) x1 x6 x7 (ValueIdx.ix2 r k)) (val_main_v64 (F := Ideal) x7 (ValueIdx.ix1 r)) * (x16 (ValueIdx.ix2 k j) : EReal))
        + (x17 (ValueIdx.ix1 j) : EReal)) + ∑ k : Fin 64, (x0 (ValueIdx.ix2 r k) : EReal) * (x18 (ValueIdx.ix2 k j) : EReal) := by
  have el1 : ∀ k : Fin 64, lidx_main_v70 (ValueIdx.ix2 r j) k = ValueIdx.ix2 r k :=
    fun k => funext fun a => Fin.ext (by match a with | ⟨0, _⟩ => rfl | ⟨1, _⟩ => rfl)
  have er1 : ∀ k : Fin 64, ridx_main_v70 (ValueIdx.ix2 r j) k = ValueIdx.ix2 k j :=
    fun k => funext fun a => Fin.ext (by match a with | ⟨0, _⟩ => rfl | ⟨1, _⟩ => rfl)
  have el2 : ∀ k : Fin 64, lidx_main_v74 (ValueIdx.ix2 r j) k = ValueIdx.ix2 r k :=
    fun k => funext fun a => Fin.ext (by match a with | ⟨0, _⟩ => rfl | ⟨1, _⟩ => rfl)
  have er2 : ∀ k : Fin 64, ridx_main_v74 (ValueIdx.ix2 r j) k = ValueIdx.ix2 k j :=
    fun k => funext fun a => Fin.ext (by match a with | ⟨0, _⟩ => rfl | ⟨1, _⟩ => rfl)
  have ecnt : ∀ k : Fin 64, idx_main_v67 (idx_main_v68 (ValueIdx.ix2 r k)) = ValueIdx.ix1 r :=
    fun k => funext fun a => Fin.ext (by match a with | ⟨0, _⟩ => rfl)
  have ebias : idx_main_v71 (idx_main_v72 (ValueIdx.ix2 r j)) = ValueIdx.ix1 j :=
    funext fun a => Fin.ext (by match a with | ⟨0, _⟩ => rfl)
  rw [val_main_v75_apply, val_main_v73_apply, val_main_v70_apply, val_main_v72_apply, val_main_v71_apply,
    val_main_v74_apply, ebias, Ideal.addf_def, Ideal.addf_def]
  refine congrArg₂ (· + ·) (congrArg (· + (x17 (ValueIdx.ix1 j) : EReal)) (Finset.sum_congr rfl fun k _ => ?_))
    (Finset.sum_congr rfl fun k _ => ?_)
  · rw [el1 k, er1 k, val_main_v69_apply, val_main_v68_apply, val_main_v67_apply, ecnt k, val_main_v66_apply,
      val_main_v65_apply, val_main_cst_15_apply, Ideal.hostDivf_def, Ideal.maximumf_def, Ideal.ofBits_def]
    rfl
  · rw [el2 k, er2 k]

/-- First layer, developer rows, relation `rb`. -/
theorem rel_d1_rb (r : Fin 100000) (j : Fin 16) :
    val_main_v100 (F := Ideal) x0 x1 x8 x9 x19 x20 x21 (ValueIdx.ix2 r j) =
      ((∑ k : Fin 64, Sage.meanE (val_main_v85 (F := Ideal) x1 x8 x9 (ValueIdx.ix2 r k)) (val_main_v89 (F := Ideal) x9 (ValueIdx.ix1 r)) * (x19 (ValueIdx.ix2 k j) : EReal))
        + (x20 (ValueIdx.ix1 j) : EReal)) + ∑ k : Fin 64, (x0 (ValueIdx.ix2 r k) : EReal) * (x21 (ValueIdx.ix2 k j) : EReal) := by
  have el1 : ∀ k : Fin 64, lidx_main_v95 (ValueIdx.ix2 r j) k = ValueIdx.ix2 r k :=
    fun k => funext fun a => Fin.ext (by match a with | ⟨0, _⟩ => rfl | ⟨1, _⟩ => rfl)
  have er1 : ∀ k : Fin 64, ridx_main_v95 (ValueIdx.ix2 r j) k = ValueIdx.ix2 k j :=
    fun k => funext fun a => Fin.ext (by match a with | ⟨0, _⟩ => rfl | ⟨1, _⟩ => rfl)
  have el2 : ∀ k : Fin 64, lidx_main_v99 (ValueIdx.ix2 r j) k = ValueIdx.ix2 r k :=
    fun k => funext fun a => Fin.ext (by match a with | ⟨0, _⟩ => rfl | ⟨1, _⟩ => rfl)
  have er2 : ∀ k : Fin 64, ridx_main_v99 (ValueIdx.ix2 r j) k = ValueIdx.ix2 k j :=
    fun k => funext fun a => Fin.ext (by match a with | ⟨0, _⟩ => rfl | ⟨1, _⟩ => rfl)
  have ecnt : ∀ k : Fin 64, idx_main_v92 (idx_main_v93 (ValueIdx.ix2 r k)) = ValueIdx.ix1 r :=
    fun k => funext fun a => Fin.ext (by match a with | ⟨0, _⟩ => rfl)
  have ebias : idx_main_v96 (idx_main_v97 (ValueIdx.ix2 r j)) = ValueIdx.ix1 j :=
    funext fun a => Fin.ext (by match a with | ⟨0, _⟩ => rfl)
  rw [val_main_v100_apply, val_main_v98_apply, val_main_v95_apply, val_main_v97_apply, val_main_v96_apply,
    val_main_v99_apply, ebias, Ideal.addf_def, Ideal.addf_def]
  refine congrArg₂ (· + ·) (congrArg (· + (x20 (ValueIdx.ix1 j) : EReal)) (Finset.sum_congr rfl fun k _ => ?_))
    (Finset.sum_congr rfl fun k _ => ?_)
  · rw [el1 k, er1 k, val_main_v94_apply, val_main_v93_apply, val_main_v92_apply, ecnt k, val_main_v91_apply,
      val_main_v90_apply, val_main_cst_21_apply, Ideal.hostDivf_def, Ideal.maximumf_def, Ideal.ofBits_def]
    rfl
  · rw [el2 k, er2 k]

/-- Second layer, task rows, relation `wr`: the row's own features are the first layer's task result. -/
theorem rel_t2_wr (r : Fin 500000) (j : Fin 32) :
    val_main_v128 (F := Ideal) x0 x1 x2 x3 x4 x5 x6 x7 x8 x9 x10 x11 x12 x13 x14 x15 x16 x17 x18 x19 x20 x21 x22 x23 x24 (ValueIdx.ix2 r j) =
      ((∑ k : Fin 16, Sage.meanE (val_main_v113 (F := Ideal) x0 x1 x2 x3 x6 x7 x8 x9 x16 x17 x18 x19 x20 x21 (ValueIdx.ix2 r k)) (val_main_v117 (F := Ideal) x3 (ValueIdx.ix1 r)) * (x22 (ValueIdx.ix2 k j) : EReal))
        + (x23 (ValueIdx.ix1 j) : EReal)) + ∑ k : Fin 16, (val_main_v103 (F := Ideal) x0 x1 x2 x3 x4 x5 x10 x11 x12 x13 x14 x15 (ValueIdx.ix2 r k) : EReal) * (x24 (ValueIdx.ix2 k j) : EReal) := by
  have el1 : ∀ k : Fin 16, lidx_main_v123 (ValueIdx.ix2 r j) k = ValueIdx.ix2 r k :=
    fun k => funext fun a => Fin.ext (by match a with | ⟨0, _⟩ => rfl | ⟨1, _⟩ => rfl)
  have er1 : ∀ k : Fin 16, ridx_main_v123 (ValueIdx.ix2 r j) k = ValueIdx.ix2 k j :=
    fun k => funext fun a => Fin.ext (by match a with | ⟨0, _⟩ => rfl | ⟨1, _⟩ => rfl)
  have el2 : ∀ k : Fin 16, lidx_main_v127 (ValueIdx.ix2 r j) k = ValueIdx.ix2 r k :=
    fun k => funext fun a => Fin.ext (by match a with | ⟨0, _⟩ => rfl | ⟨1, _⟩ => rfl)
  have er2 : ∀ k : Fin 16, ridx_main_v127 (ValueIdx.ix2 r j) k = ValueIdx.ix2 k j :=
    fun k => funext fun a => Fin.ext (by match a with | ⟨0, _⟩ => rfl | ⟨1, _⟩ => rfl)
  have ecnt : ∀ k : Fin 16, idx_main_v120 (idx_main_v121 (ValueIdx.ix2 r k)) = ValueIdx.ix1 r :=
    fun k => funext fun a => Fin.ext (by match a with | ⟨0, _⟩ => rfl)
  have ebias : idx_main_v124 (idx_main_v125 (ValueIdx.ix2 r j)) = ValueIdx.ix1 j :=
    funext fun a => Fin.ext (by match a with | ⟨0, _⟩ => rfl)
  rw [val_main_v128_apply, val_main_v126_apply, val_main_v123_apply, val_main_v125_apply, val_main_v124_apply,
    val_main_v127_apply, ebias, Ideal.addf_def, Ideal.addf_def]
  refine congrArg₂ (· + ·) (congrArg (· + (x23 (ValueIdx.ix1 j) : EReal)) (Finset.sum_congr rfl fun k _ => ?_))
    (Finset.sum_congr rfl fun k _ => ?_)
  · rw [el1 k, er1 k, val_main_v122_apply, val_main_v121_apply, val_main_v120_apply, ecnt k, val_main_v119_apply,
      val_main_v118_apply, val_main_cst_27_apply, Ideal.hostDivf_def, Ideal.maximumf_def, Ideal.ofBits_def]
    rfl
  · rw [el2 k, er2 k]

/-- Second layer, task rows, relation `rv`. -/
theorem rel_t2_rv (r : Fin 500000) (j : Fin 32) :
    val_main_v153 (F := Ideal) x0 x1 x2 x3 x4 x5 x6 x7 x8 x9 x10 x11 x12 x13 x14 x15 x16 x17 x18 x19 x20 x21 x25 x26 x27 (ValueIdx.ix2 r j) =
      ((∑ k : Fin 16, Sage.meanE (val_main_v138 (F := Ideal) x0 x1 x4 x5 x6 x7 x8 x9 x16 x17 x18 x19 x20 x21 (ValueIdx.ix2 r k)) (val_main_v142 (F := Ideal) x5 (ValueIdx.ix1 r)) * (x25 (ValueIdx.ix2 k j) : EReal))
        + (x26 (ValueIdx.ix1 j) : EReal)) + ∑ k : Fin 16, (val_main_v103 (F := Ideal) x0 x1 x2 x3 x4 x5 x10 x11 x12 x13 x14 x15 (ValueIdx.ix2 r k) : EReal) * (x27 (ValueIdx.ix2 k j) : EReal) := by
  have el1 : ∀ k : Fin 16, lidx_main_v148 (ValueIdx.ix2 r j) k = ValueIdx.ix2 r k :=
    fun k => funext fun a => Fin.ext (by match a with | ⟨0, _⟩ => rfl | ⟨1, _⟩ => rfl)
  have er1 : ∀ k : Fin 16, ridx_main_v148 (ValueIdx.ix2 r j) k = ValueIdx.ix2 k j :=
    fun k => funext fun a => Fin.ext (by match a with | ⟨0, _⟩ => rfl | ⟨1, _⟩ => rfl)
  have el2 : ∀ k : Fin 16, lidx_main_v152 (ValueIdx.ix2 r j) k = ValueIdx.ix2 r k :=
    fun k => funext fun a => Fin.ext (by match a with | ⟨0, _⟩ => rfl | ⟨1, _⟩ => rfl)
  have er2 : ∀ k : Fin 16, ridx_main_v152 (ValueIdx.ix2 r j) k = ValueIdx.ix2 k j :=
    fun k => funext fun a => Fin.ext (by match a with | ⟨0, _⟩ => rfl | ⟨1, _⟩ => rfl)
  have ecnt : ∀ k : Fin 16, idx_main_v145 (idx_main_v146 (ValueIdx.ix2 r k)) = ValueIdx.ix1 r :=
    fun k => funext fun a => Fin.ext (by match a with | ⟨0, _⟩ => rfl)
  have ebias : idx_main_v149 (idx_main_v150 (ValueIdx.ix2 r j)) = ValueIdx.ix1 j :=
    funext fun a => Fin.ext (by match a with | ⟨0, _⟩ => rfl)
  rw [val_main_v153_apply, val_main_v151_apply, val_main_v148_apply, val_main_v150_apply, val_main_v149_apply,
    val_main_v152_apply, ebias, Ideal.addf_def, Ideal.addf_def]
  refine congrArg₂ (· + ·) (congrArg (· + (x26 (ValueIdx.ix1 j) : EReal)) (Finset.sum_congr rfl fun k _ => ?_))
    (Finset.sum_congr rfl fun k _ => ?_)
  · rw [el1 k, er1 k, val_main_v147_apply, val_main_v146_apply, val_main_v145_apply, ecnt k, val_main_v144_apply,
      val_main_v143_apply, val_main_cst_33_apply, Ideal.hostDivf_def, Ideal.maximumf_def, Ideal.ofBits_def]
    rfl
  · rw [el2 k, er2 k]

/-- Second layer, developer rows, relation `wb`: the row's own features are the first layer's developer result. -/
theorem rel_d2_wb (r : Fin 100000) (j : Fin 32) :
    val_main_v179 (F := Ideal) x0 x1 x2 x3 x4 x5 x6 x7 x8 x9 x10 x11 x12 x13 x14 x15 x16 x17 x18 x19 x20 x21 x28 x29 x30 (ValueIdx.ix2 r j) =
      ((∑ k : Fin 16, Sage.meanE (val_main_v164 (F := Ideal) x0 x1 x2 x3 x4 x5 x6 x7 x10 x11 x12 x13 x14 x15 (ValueIdx.ix2 r k)) (val_main_v168 (F := Ideal) x7 (ValueIdx.ix1 r)) * (x28 (ValueIdx.ix2 k j) : EReal))
        + (x29 (ValueIdx.ix1 j) : EReal)) + ∑ k : Fin 16, (val_main_v102 (F := Ideal) x0 x1 x6 x7 x8 x9 x16 x17 x18 x19 x20 x21 (ValueIdx.ix2 r k) : EReal) * (x30 (ValueIdx.ix2 k j) : EReal) := by
  have el1 : ∀ k : Fin 16, lidx_main_v174 (ValueIdx.ix2 r j) k = ValueIdx.ix2 r k :=
    fun k => funext fun a => Fin.ext (by match a with | ⟨0, _⟩ => rfl | ⟨1, _⟩ => rfl)
  have er1 : ∀ k : Fin 16, ridx_main_v174 (ValueIdx.ix2 r j) k = ValueIdx.ix2 k j :=
    fun k => funext fun a => Fin.ext (by match a with | ⟨0, _⟩ => rfl | ⟨1, _⟩ => rfl)
  have el2 : ∀ k : Fin 16, lidx_main_v178 (ValueIdx.ix2 r j) k = ValueIdx.ix2 r k :=
    fun k => funext fun a => Fin.ext (by match a with | ⟨0, _⟩ => rfl | ⟨1, _⟩ => rfl)
  have er2 : ∀ k : Fin 16, ridx_main_v178 (ValueIdx.ix2 r j) k = ValueIdx.ix2 k j :=
    fun k => funext fun a => Fin.ext (by match a with | ⟨0, _⟩ => rfl | ⟨1, _⟩ => rfl)
  have ecnt : ∀ k : Fin 16, idx_main_v171 (idx_main_v172 (ValueIdx.ix2 r k)) = ValueIdx.ix1 r :=
    fun k => funext fun a => Fin.ext (by match a with | ⟨0, _⟩ => rfl)
  have ebias : idx_main_v175 (idx_main_v176 (ValueIdx.ix2 r j)) = ValueIdx.ix1 j :=
    funext fun a => Fin.ext (by match a with | ⟨0, _⟩ => rfl)
  rw [val_main_v179_apply, val_main_v177_apply, val_main_v174_apply, val_main_v176_apply, val_main_v175_apply,
    val_main_v178_apply, ebias, Ideal.addf_def, Ideal.addf_def]
  refine congrArg₂ (· + ·) (congrArg (· + (x29 (ValueIdx.ix1 j) : EReal)) (Finset.sum_congr rfl fun k _ => ?_))
    (Finset.sum_congr rfl fun k _ => ?_)
  · rw [el1 k, er1 k, val_main_v173_apply, val_main_v172_apply, val_main_v171_apply, ecnt k, val_main_v170_apply,
      val_main_v169_apply, val_main_cst_39_apply, Ideal.hostDivf_def, Ideal.maximumf_def, Ideal.ofBits_def]
    rfl
  · rw [el2 k, er2 k]

/-- Second layer, developer rows, relation `rb`. -/
theorem rel_d2_rb (r : Fin 100000) (j : Fin 32) :
    val_main_v204 (F := Ideal) x0 x1 x2 x3 x4 x5 x6 x7 x8 x9 x10 x11 x12 x13 x14 x15 x16 x17 x18 x19 x20 x21 x31 x32 x33 (ValueIdx.ix2 r j) =
      ((∑ k : Fin 16, Sage.meanE (val_main_v189 (F := Ideal) x0 x1 x2 x3 x4 x5 x8 x9 x10 x11 x12 x13 x14 x15 (ValueIdx.ix2 r k)) (val_main_v193 (F := Ideal) x9 (ValueIdx.ix1 r)) * (x31 (ValueIdx.ix2 k j) : EReal))
        + (x32 (ValueIdx.ix1 j) : EReal)) + ∑ k : Fin 16, (val_main_v102 (F := Ideal) x0 x1 x6 x7 x8 x9 x16 x17 x18 x19 x20 x21 (ValueIdx.ix2 r k) : EReal) * (x33 (ValueIdx.ix2 k j) : EReal) := by
  have el1 : ∀ k : Fin 16, lidx_main_v199 (ValueIdx.ix2 r j) k = ValueIdx.ix2 r k :=
    fun k => funext fun a => Fin.ext (by match a with | ⟨0, _⟩ => rfl | ⟨1, _⟩ => rfl)
  have er1 : ∀ k : Fin 16, ridx_main_v199 (ValueIdx.ix2 r j) k = ValueIdx.ix2 k j :=
    fun k => funext fun a => Fin.ext (by match a with | ⟨0, _⟩ => rfl | ⟨1, _⟩ => rfl)
  have el2 : ∀ k : Fin 16, lidx_main_v203 (ValueIdx.ix2 r j) k = ValueIdx.ix2 r k :=
    fun k => funext fun a => Fin.ext (by match a with | ⟨0, _⟩ => rfl | ⟨1, _⟩ => rfl)
  have er2 : ∀ k : Fin 16, ridx_main_v203 (ValueIdx.ix2 r j) k = ValueIdx.ix2 k j :=
    fun k => funext fun a => Fin.ext (by match a with | ⟨0, _⟩ => rfl | ⟨1, _⟩ => rfl)
  have ecnt : ∀ k : Fin 16, idx_main_v196 (idx_main_v197 (ValueIdx.ix2 r k)) = ValueIdx.ix1 r :=
    fun k => funext fun a => Fin.ext (by match a with | ⟨0, _⟩ => rfl)
  have ebias : idx_main_v200 (idx_main_v201 (ValueIdx.ix2 r j)) = ValueIdx.ix1 j :=
    funext fun a => Fin.ext (by match a with | ⟨0, _⟩ => rfl)
  rw [val_main_v204_apply, val_main_v202_apply, val_main_v199_apply, val_main_v201_apply, val_main_v200_apply,
    val_main_v203_apply, ebias, Ideal.addf_def, Ideal.addf_def]
  refine congrArg₂ (· + ·) (congrArg (· + (x32 (ValueIdx.ix1 j) : EReal)) (Finset.sum_congr rfl fun k _ => ?_))
    (Finset.sum_congr rfl fun k _ => ?_)
  · rw [el1 k, er1 k, val_main_v198_apply, val_main_v197_apply, val_main_v196_apply, ecnt k, val_main_v195_apply,
      val_main_v194_apply, val_main_cst_45_apply, Ideal.hostDivf_def, Ideal.maximumf_def, Ideal.ofBits_def]
    rfl
  · rw [el2 k, er2 k]

/-! ## The four layer results at an index -/

/-- First layer, task rows: the rectified sum of the contributions of `wr` and `rv`. -/
theorem t1_apply (r : Fin 500000) (j : Fin 16) :
    val_main_v103 (F := Ideal) x0 x1 x2 x3 x4 x5 x10 x11 x12 x13 x14 x15 (ValueIdx.ix2 r j) =
      Sage.reluE (Sage.combR (K := Fin 64)
        (fun k => val_main_v9 (F := Ideal) x0 x2 x3 (ValueIdx.ix2 r k)) (fun k => val_main_v34 (F := Ideal) x0 x4 x5 (ValueIdx.ix2 r k)) (fun k => x1 (ValueIdx.ix2 r k))
        (val_main_v13 (F := Ideal) x3 (ValueIdx.ix1 r)) (val_main_v38 (F := Ideal) x5 (ValueIdx.ix1 r))
        (fun k => x10 (ValueIdx.ix2 k j)) (fun k => x12 (ValueIdx.ix2 k j)) (fun k => x13 (ValueIdx.ix2 k j)) (fun k => x15 (ValueIdx.ix2 k j))
        (x11 (ValueIdx.ix1 j)) (x14 (ValueIdx.ix1 j))) := by
  rw [val_main_v103_apply, val_main_v50_apply, rel_t1_wr, rel_t1_rv, val_main_call1_v0_apply, val_main_call1_cst_apply,
    Ideal.maximumf_def, Ideal.addf_def, Ideal.ofBits_def]
  rfl

/-- First layer, developer rows: the rectified sum of the contributions of `wb` and `rb`. -/
theorem d1_apply (r : Fin 100000) (j : Fin 16) :
    val_main_v102 (F := Ideal) x0 x1 x6 x7 x8 x9 x16 x17 x18 x19 x20 x21 (ValueIdx.ix2 r j) =
      Sage.reluE (Sage.combR (K := Fin 64)
        (fun k => val_main_v60 (F := Ideal) x1 x6 x7 (ValueIdx.ix2 r k)) (fun k => val_main_v85 (F := Ideal) x1 x8 x9 (ValueIdx.ix2 r k)) (fun k => x0 (ValueIdx.ix2 r k))
        (val_main_v64 (F := Ideal) x7 (ValueIdx.ix1 r)) (val_main_v89 (F := Ideal) x9 (ValueIdx.ix1 r))
        (fun k => x16 (ValueIdx.ix2 k j)) (fun k => x18 (ValueIdx.ix2 k j)) (fun k => x19 (ValueIdx.ix2 k j)) (fun k => x21 (ValueIdx.ix2 k j))
        (x17 (ValueIdx.ix1 j)) (x20 (ValueIdx.ix1 j))) := by
  rw [val_main_v102_apply, val_main_v101_apply, rel_d1_wb, rel_d1_rb, val_main_call0_v0_apply, val_main_call0_cst_apply,
    Ideal.maximumf_def, Ideal.addf_def, Ideal.ofBits_def]
  rfl

/-- Second layer, task rows: the sum of the contributions of `wr` and `rv` over the first layer's results. -/
theorem t2_apply (r : Fin 500000) (j : Fin 32) :
    val_main_v154 (F := Ideal) x0 x1 x2 x3 x4 x5 x6 x7 x8 x9 x10 x11 x12 x13 x14 x15 x16 x17 x18 x19 x20 x21 x22 x23 x24 x25 x26 x27 (ValueIdx.ix2 r j) =
      Sage.combR (K := Fin 16)
        (fun k => val_main_v113 (F := Ideal) x0 x1 x2 x3 x6 x7 x8 x9 x16 x17 x18 x19 x20 x21 (ValueIdx.ix2 r k)) (fun k => val_main_v138 (F := Ideal) x0 x1 x4 x5 x6 x7 x8 x9 x16 x17 x18 x19 x20 x21 (ValueIdx.ix2 r k)) (fun k => val_main_v103 (F := Ideal) x0 x1 x2 x3 x4 x5 x10 x11 x12 x13 x14 x15 (ValueIdx.ix2 r k))
        (val_main_v117 (F := Ideal) x3 (ValueIdx.ix1 r)) (val_main_v142 (F := Ideal) x5 (ValueIdx.ix1 r))
        (fun k => x22 (ValueIdx.ix2 k j)) (fun k => x24 (ValueIdx.ix2 k j)) (fun k => x25 (ValueIdx.ix2 k j)) (fun k => x27 (ValueIdx.ix2 k j))
        (x23 (ValueIdx.ix1 j)) (x26 (ValueIdx.ix1 j)) := by
  rw [val_main_v154_apply, rel_t2_wr, rel_t2_rv, Ideal.addf_def]
  rfl

/-- Second layer, developer rows: the sum of the contributions of `wb` and `rb` over the first layer's results. -/
theorem d2_apply (r : Fin 100000) (j : Fin 32) :
    val_main_v205 (F := Ideal) x0 x1 x2 x3 x4 x5 x6 x7 x8 x9 x10 x11 x12 x13 x14 x15 x16 x17 x18 x19 x20 x21 x28 x29 x30 x31 x32 x33 (ValueIdx.ix2 r j) =
      Sage.combR (K := Fin 16)
        (fun k => val_main_v164 (F := Ideal) x0 x1 x2 x3 x4 x5 x6 x7 x10 x11 x12 x13 x14 x15 (ValueIdx.ix2 r k)) (fun k => val_main_v189 (F := Ideal) x0 x1 x2 x3 x4 x5 x8 x9 x10 x11 x12 x13 x14 x15 (ValueIdx.ix2 r k)) (fun k => val_main_v102 (F := Ideal) x0 x1 x6 x7 x8 x9 x16 x17 x18 x19 x20 x21 (ValueIdx.ix2 r k))
        (val_main_v168 (F := Ideal) x7 (ValueIdx.ix1 r)) (val_main_v193 (F := Ideal) x9 (ValueIdx.ix1 r))
        (fun k => x28 (ValueIdx.ix2 k j)) (fun k => x30 (ValueIdx.ix2 k j)) (fun k => x31 (ValueIdx.ix2 k j)) (fun k => x33 (ValueIdx.ix2 k j))
        (x29 (ValueIdx.ix1 j)) (x32 (ValueIdx.ix1 j)) := by
  rw [val_main_v205_apply, rel_d2_wb, rel_d2_rb, Ideal.addf_def]
  rfl

end Cert.ReferenceIdeal.SageRef

end
-- ==== Proof.SageBridge.lean ====
/-
  The two idealized programs compute one function of the arguments.

  Both programs build the neighbour counts and neighbour sums by the same host operations, so the reference's
  stages for them ARE the kernel program's named host chains. Layer by layer, each launch's result buffer is then the
  reference's stage of the same layer: entry by entry the launch leaves the kernel's association of the combined
  message and the reference's stage reads as the reference's association, over the same operands; the two associations
  agree on the extended reals. The layer-2 launches read the layer-1 result buffers, which by the layer-1 equalities
  hold the reference's layer-1 stages. The five claims follow: the kernel programs' frames are generated, the
  reference's frame is its run with the results dropped, the idealization rewrote nothing, and the two runs end at the
  reference's last stages of agreeing arguments.
-/
import proofs.«180402_j10711648436497_1_alg».proof.Defs
import proofs.«180402_j10711648436497_1_alg».proof.Proof.Gen.Kernel.Frame
import proofs.«180402_j10711648436497_1_alg».proof.Proof.Gen.Pre_finite_inputs
import proofs.«180402_j10711648436497_1_alg».proof.Proof.SageRun
import proofs.«180402_j10711648436497_1_alg».proof.Proof.SageValue
import proofs.«180402_j10711648436497_1_alg».proof.Proof.SageRef
import proofs.«180402_j10711648436497_1_alg».proof.Proof.RefResults

set_option maxRecDepth 16384

noncomputable section

namespace Cert.Proof.Sage

open Idealize.ShloMosaic Idealize.ShloMosaic.TcCoe Idealize.SL.Sem

/-! ## The shared host chains -/

/-- Layer 1, relation `writes`: the reference's neighbour sum is the device → task chain. -/
theorem agg_wr1 (x0 : (⟨Cert.ReferenceIdeal.S100000x64, .f32⟩ : BufTy).Contents (Elt Ideal)) (x2 : (⟨Cert.ReferenceIdeal.S1000000, .i32⟩ : BufTy).Contents (Elt Ideal)) (x3 : (⟨Cert.ReferenceIdeal.S1000000, .i32⟩ : BufTy).Contents (Elt Ideal)) :
    Cert.ReferenceIdeal.ReadP.val_main_v9 (F := Ideal) x0 x2 x3 = Cert.KernelIdeal.SageHost.aggT64 (F := Ideal) x0 x2 x3 := rfl
/-- Layer 1, relation `reviews`. -/
theorem agg_rv1 (x0 : (⟨Cert.ReferenceIdeal.S100000x64, .f32⟩ : BufTy).Contents (Elt Ideal)) (x4 : (⟨Cert.ReferenceIdeal.S1000000, .i32⟩ : BufTy).Contents (Elt Ideal)) (x5 : (⟨Cert.ReferenceIdeal.S1000000, .i32⟩ : BufTy).Contents (Elt Ideal)) :
    Cert.ReferenceIdeal.ReadP.val_main_v34 (F := Ideal) x0 x4 x5 = Cert.KernelIdeal.SageHost.aggT64 (F := Ideal) x0 x4 x5 := rfl
/-- Its neighbour count. -/
theorem cnt_wr1 (x3 : (⟨Cert.ReferenceIdeal.S1000000, .i32⟩ : BufTy).Contents (Elt Ideal)) :
    Cert.ReferenceIdeal.ReadP.val_main_v13 (F := Ideal) x3 = Cert.KernelIdeal.SageHost.cntT (F := Ideal) x3 := rfl
/-- Its neighbour count. -/
theorem cnt_rv1 (x5 : (⟨Cert.ReferenceIdeal.S1000000, .i32⟩ : BufTy).Contents (Elt Ideal)) :
    Cert.ReferenceIdeal.ReadP.val_main_v38 (F := Ideal) x5 = Cert.KernelIdeal.SageHost.cntT (F := Ideal) x5 := rfl
/-- Layer 1, relation `written_by`: the task → device chain. -/
theorem agg_wb1 (x1 : (⟨Cert.ReferenceIdeal.S500000x64, .f32⟩ : BufTy).Contents (Elt Ideal)) (x6 : (⟨Cert.ReferenceIdeal.S1000000, .i32⟩ : BufTy).Contents (Elt Ideal)) (x7 : (⟨Cert.ReferenceIdeal.S1000000, .i32⟩ : BufTy).Contents (Elt Ideal)) :
    Cert.ReferenceIdeal.ReadP.val_main_v60 (F := Ideal) x1 x6 x7 = Cert.KernelIdeal.SageHost.aggD64 (F := Ideal) x1 x6 x7 := rfl
/-- Layer 1, relation `reviewed_by`. -/
theorem agg_rb1 (x1 : (⟨Cert.ReferenceIdeal.S500000x64, .f32⟩ : BufTy).Contents (Elt Ideal)) (x8 : (⟨Cert.ReferenceIdeal.S1000000, .i32⟩ : BufTy).Contents (Elt Ideal)) (x9 : (⟨Cert.ReferenceIdeal.S1000000, .i32⟩ : BufTy).Contents (Elt Ideal)) :
    Cert.ReferenceIdeal.ReadP.val_main_v85 (F := Ideal) x1 x8 x9 = Cert.KernelIdeal.SageHost.aggD64 (F := Ideal) x1 x8 x9 := rfl
/-- Its neighbour count. -/
theorem cnt_wb1 (x7 : (⟨Cert.ReferenceIdeal.S1000000, .i32⟩ : BufTy).Contents (Elt Ideal)) :
    Cert.ReferenceIdeal.ReadP.val_main_v64 (F := Ideal) x7 = Cert.KernelIdeal.SageHost.cntD (F := Ideal) x7 := rfl
/-- Its neighbour count. -/
theorem cnt_rb1 (x9 : (⟨Cert.ReferenceIdeal.S1000000, .i32⟩ : BufTy).Contents (Elt Ideal)) :
    Cert.ReferenceIdeal.ReadP.val_main_v89 (F := Ideal) x9 = Cert.KernelIdeal.SageHost.cntD (F := Ideal) x9 := rfl
/-- Layer 2, relation `writes`: the same chain over the layer-1 device features. -/
theorem agg_wr2 (x0 : (⟨Cert.ReferenceIdeal.S100000x64, .f32⟩ : BufTy).Contents (Elt Ideal)) (x1 : (⟨Cert.ReferenceIdeal.S500000x64, .f32⟩ : BufTy).Contents (Elt Ideal)) (x2 : (⟨Cert.ReferenceIdeal.S1000000, .i32⟩ : BufTy).Contents (Elt Ideal)) (x3 : (⟨Cert.ReferenceIdeal.S1000000, .i32⟩ : BufTy).Contents (Elt Ideal)) (x6 : (⟨Cert.ReferenceIdeal.S1000000, .i32⟩ : BufTy).Contents (Elt Ideal)) (x7 : (⟨Cert.ReferenceIdeal.S1000000, .i32⟩ : BufTy).Contents (Elt Ideal)) (x8 : (⟨Cert.ReferenceIdeal.S1000000, .i32⟩ : BufTy).Contents (Elt Ideal)) (x9 : (⟨Cert.ReferenceIdeal.S1000000, .i32⟩ : BufTy).Contents (Elt Ideal)) (x16 : (⟨Cert.ReferenceIdeal.S64x16, .f32⟩ : BufTy).Contents (Elt Ideal)) (x17 : (⟨Cert.ReferenceIdeal.S16, .f32⟩ : BufTy).Contents (Elt Ideal)) (x18 : (⟨Cert.ReferenceIdeal.S64x16, .f32⟩ : BufTy).Contents (Elt Ideal)) (x19 : (⟨Cert.ReferenceIdeal.S64x16, .f32⟩ : BufTy).Contents (Elt Ideal)) (x20 : (⟨Cert.ReferenceIdeal.S16, .f32⟩ : BufTy).Contents (Elt Ideal)) (x21 : (⟨Cert.ReferenceIdeal.S64x16, .f32⟩ : BufTy).Contents (Elt Ideal)) :
    Cert.ReferenceIdeal.ReadP.val_main_v113 (F := Ideal) x0 x1 x2 x3 x6 x7 x8 x9 x16 x17 x18 x19 x20 x21 = Cert.KernelIdeal.SageHost.aggT16 (F := Ideal) (Cert.ReferenceIdeal.ReadP.val_main_v102 (F := Ideal) x0 x1 x6 x7 x8 x9 x16 x17 x18 x19 x20 x21) x2 x3 := rfl
/-- Layer 2, relation `reviews`. -/
theorem agg_rv2 (x0 : (⟨Cert.ReferenceIdeal.S100000x64, .f32⟩ : BufTy).Contents (Elt Ideal)) (x1 : (⟨Cert.ReferenceIdeal.S500000x64, .f32⟩ : BufTy).Contents (Elt Ideal)) (x4 : (⟨Cert.ReferenceIdeal.S1000000, .i32⟩ : BufTy).Contents (Elt Ideal)) (x5 : (⟨Cert.ReferenceIdeal.S1000000, .i32⟩ : BufTy).Contents (Elt Ideal)) (x6 : (⟨Cert.ReferenceIdeal.S1000000, .i32⟩ : BufTy).Contents (Elt Ideal)) (x7 : (⟨Cert.ReferenceIdeal.S1000000, .i32⟩ : BufTy).Contents (Elt Ideal)) (x8 : (⟨Cert.ReferenceIdeal.S1000000, .i32⟩ : BufTy).Contents (Elt Ideal)) (x9 : (⟨Cert.ReferenceIdeal.S1000000, .i32⟩ : BufTy).Contents (Elt Ideal)) (x16 : (⟨Cert.ReferenceIdeal.S64x16, .f32⟩ : BufTy).Contents (Elt Ideal)) (x17 : (⟨Cert.ReferenceIdeal.S16, .f32⟩ : BufTy).Contents (Elt Ideal)) (x18 : (⟨Cert.ReferenceIdeal.S64x16, .f32⟩ : BufTy).Contents (Elt Ideal)) (x19 : (⟨Cert.ReferenceIdeal.S64x16, .f32⟩ : BufTy).Contents (Elt Ideal)) (x20 : (⟨Cert.ReferenceIdeal.S16, .f32⟩ : BufTy).Contents (Elt Ideal)) (x21 : (⟨Cert.ReferenceIdeal.S64x16, .f32⟩ : BufTy).Contents (Elt Ideal)) :
    Cert.ReferenceIdeal.ReadP.val_main_v138 (F := Ideal) x0 x1 x4 x5 x6 x7 x8 x9 x16 x17 x18 x19 x20 x21 = Cert.KernelIdeal.SageHost.aggT16 (F := Ideal) (Cert.ReferenceIdeal.ReadP.val_main_v102 (F := Ideal) x0 x1 x6 x7 x8 x9 x16 x17 x18 x19 x20 x21) x4 x5 := rfl
/-- Its neighbour count. -/
theorem cnt_wr2 (x3 : (⟨Cert.ReferenceIdeal.S1000000, .i32⟩ : BufTy).Contents (Elt Ideal)) :
    Cert.ReferenceIdeal.ReadP.val_main_v117 (F := Ideal) x3 = Cert.KernelIdeal.SageHost.cntT (F := Ideal) x3 := rfl
/-- Its neighbour count. -/
theorem cnt_rv2 (x5 : (⟨Cert.ReferenceIdeal.S1000000, .i32⟩ : BufTy).Contents (Elt Ideal)) :
    Cert.ReferenceIdeal.ReadP.val_main_v142 (F := Ideal) x5 = Cert.KernelIdeal.SageHost.cntT (F := Ideal) x5 := rfl
/-- Layer 2, relation `written_by`: the same chain over the layer-1 task features. -/
theorem agg_wb2 (x0 : (⟨Cert.ReferenceIdeal.S100000x64, .f32⟩ : BufTy).Contents (Elt Ideal)) (x1 : (⟨Cert.ReferenceIdeal.S500000x64, .f32⟩ : BufTy).Contents (Elt Ideal)) (x2 : (⟨Cert.ReferenceIdeal.S1000000, .i32⟩ : BufTy).Contents (Elt Ideal)) (x3 : (⟨Cert.ReferenceIdeal.S1000000, .i32⟩ : BufTy).Contents (Elt Ideal)) (x4 : (⟨Cert.ReferenceIdeal.S1000000, .i32⟩ : BufTy).Contents (Elt Ideal)) (x5 : (⟨Cert.ReferenceIdeal.S1000000, .i32⟩ : BufTy).Contents (Elt Ideal)) (x6 : (⟨Cert.ReferenceIdeal.S1000000, .i32⟩ : BufTy).Contents (Elt Ideal)) (x7 : (⟨Cert.ReferenceIdeal.S1000000, .i32⟩ : BufTy).Contents (Elt Ideal)) (x10 : (⟨Cert.ReferenceIdeal.S64x16, .f32⟩ : BufTy).Contents (Elt Ideal)) (x11 : (⟨Cert.ReferenceIdeal.S16, .f32⟩ : BufTy).Contents (Elt Ideal)) (x12 : (⟨Cert.ReferenceIdeal.S64x16, .f32⟩ : BufTy).Contents (Elt Ideal)) (x13 : (⟨Cert.ReferenceIdeal.S64x16, .f32⟩ : BufTy).Contents (Elt Ideal)) (x14 : (⟨Cert.ReferenceIdeal.S16, .f32⟩ : BufTy).Contents (Elt Ideal)) (x15 : (⟨Cert.ReferenceIdeal.S64x16, .f32⟩ : BufTy).Contents (Elt Ideal)) :
    Cert.ReferenceIdeal.ReadP.val_main_v164 (F := Ideal) x0 x1 x2 x3 x4 x5 x6 x7 x10 x11 x12 x13 x14 x15 = Cert.KernelIdeal.SageHost.aggD16 (F := Ideal) (Cert.ReferenceIdeal.ReadP.val_main_v103 (F := Ideal) x0 x1 x2 x3 x4 x5 x10 x11 x12 x13 x14 x15) x6 x7 := rfl
/-- Layer 2, relation `reviewed_by`. -/
theorem agg_rb2 (x0 : (⟨Cert.ReferenceIdeal.S100000x64, .f32⟩ : BufTy).Contents (Elt Ideal)) (x1 : (⟨Cert.ReferenceIdeal.S500000x64, .f32⟩ : BufTy).Contents (Elt Ideal)) (x2 : (⟨Cert.ReferenceIdeal.S1000000, .i32⟩ : BufTy).Contents (Elt Ideal)) (x3 : (⟨Cert.ReferenceIdeal.S1000000, .i32⟩ : BufTy).Contents (Elt Ideal)) (x4 : (⟨Cert.ReferenceIdeal.S1000000, .i32⟩ : BufTy).Contents (Elt Ideal)) (x5 : (⟨Cert.ReferenceIdeal.S1000000, .i32⟩ : BufTy).Contents (Elt Ideal)) (x8 : (⟨Cert.ReferenceIdeal.S1000000, .i32⟩ : BufTy).Contents (Elt Ideal)) (x9 : (⟨Cert.ReferenceIdeal.S1000000, .i32⟩ : BufTy).Contents (Elt Ideal)) (x10 : (⟨Cert.ReferenceIdeal.S64x16, .f32⟩ : BufTy).Contents (Elt Ideal)) (x11 : (⟨Cert.ReferenceIdeal.S16, .f32⟩ : BufTy).Contents (Elt Ideal)) (x12 : (⟨Cert.ReferenceIdeal.S64x16, .f32⟩ : BufTy).Contents (Elt Ideal)) (x13 : (⟨Cert.ReferenceIdeal.S64x16, .f32⟩ : BufTy).Contents (Elt Ideal)) (x14 : (⟨Cert.ReferenceIdeal.S16, .f32⟩ : BufTy).Contents (Elt Ideal)) (x15 : (⟨Cert.ReferenceIdeal.S64x16, .f32⟩ : BufTy).Contents (Elt Ideal)) :
    Cert.ReferenceIdeal.ReadP.val_main_v189 (F := Ideal) x0 x1 x2 x3 x4 x5 x8 x9 x10 x11 x12 x13 x14 x15 = Cert.KernelIdeal.SageHost.aggD16 (F := Ideal) (Cert.ReferenceIdeal.ReadP.val_main_v103 (F := Ideal) x0 x1 x2 x3 x4 x5 x10 x11 x12 x13 x14 x15) x8 x9 := rfl
/-- Its neighbour count. -/
theorem cnt_wb2 (x7 : (⟨Cert.ReferenceIdeal.S1000000, .i32⟩ : BufTy).Contents (Elt Ideal)) :
    Cert.ReferenceIdeal.ReadP.val_main_v168 (F := Ideal) x7 = Cert.KernelIdeal.SageHost.cntD (F := Ideal) x7 := rfl
/-- Its neighbour count. -/
theorem cnt_rb2 (x9 : (⟨Cert.ReferenceIdeal.S1000000, .i32⟩ : BufTy).Contents (Elt Ideal)) :
    Cert.ReferenceIdeal.ReadP.val_main_v193 (F := Ideal) x9 = Cert.KernelIdeal.SageHost.cntD (F := Ideal) x9 := rfl

/-! ## Layer by layer, the launches' results are the reference's stages -/

/-- Layer 1, task side: launch 0's result buffer holds the reference's rectified task features. -/
theorem t1_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W2 m ρ c (Proc.devRef .tc Cert.KernelIdeal.main_v60) : (⟨Cert.KernelIdeal.S500000x16, .f32⟩ : BufTy).Contents (Elt Ideal))
      = Cert.ReferenceIdeal.ReadP.val_main_v103 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  funext i
  obtain ⟨r, j, rfl⟩ : ∃ (r : Fin 500000) (j : Fin 16), i = ValueIdx.ix2 r j := ⟨i 0, i 1, ValueIdx.eq_ix2 i⟩
  rw [Cert.KernelIdeal.SageValue.t1_entry m ρ c r j]
  rw [Cert.ReferenceIdeal.SageRef.t1_apply, Cert.Sage.combK_eq_combR]
  rfl

/-- Layer 1, device side: launch 1's result buffer holds the reference's rectified device features. -/
theorem d1_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W4 m ρ c (Proc.devRef .tc Cert.KernelIdeal.main_v65) : (⟨Cert.KernelIdeal.S100000x16, .f32⟩ : BufTy).Contents (Elt Ideal))
      = Cert.ReferenceIdeal.ReadP.val_main_v102 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) := by
  funext i
  obtain ⟨r, j, rfl⟩ : ∃ (r : Fin 100000) (j : Fin 16), i = ValueIdx.ix2 r j := ⟨i 0, i 1, ValueIdx.eq_ix2 i⟩
  rw [Cert.KernelIdeal.SageValue.d1_entry m ρ c r j]
  rw [Cert.ReferenceIdeal.SageRef.d1_apply, Cert.Sage.combK_eq_combR]
  rfl

/-- Layer 2, task side: launch 2's result buffer ends at the reference's task output. -/
theorem t2_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W8 m ρ c (Proc.devRef .tc Cert.KernelIdeal.main_v110) : (⟨Cert.KernelIdeal.S500000x32, .f32⟩ : BufTy).Contents (Elt Ideal))
      = Cert.ReferenceIdeal.ReadP.val_main_v154 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)) (m ((c : Thread Cert.KernelIdeal.nD Cert.KernelIdeal.τ).loc Cert.KernelIdeal.main_arg25)) (m ((c : Thread Cert.KernelIdeal.nD Cert.KernelIdeal.τ).loc Cert.KernelIdeal.main_arg26)) (m ((c : Thread Cert.KernelIdeal.nD Cert.KernelIdeal.τ).loc Cert.KernelIdeal.main_arg27)) := by
  funext i
  obtain ⟨r, j, rfl⟩ : ∃ (r : Fin 500000) (j : Fin 32), i = ValueIdx.ix2 r j := ⟨i 0, i 1, ValueIdx.eq_ix2 i⟩
  rw [Cert.KernelIdeal.SageValue.t2_entry m ρ c r j, d1_eq m ρ c, t1_eq m ρ c]
  rw [Cert.ReferenceIdeal.SageRef.t2_apply, Cert.Sage.combK_eq_combR]
  rfl

/-- Layer 2, device side: launch 3's result buffer ends at the reference's device output. -/
theorem d2_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W8 m ρ c (Proc.devRef .tc Cert.KernelIdeal.main_v115) : (⟨Cert.KernelIdeal.S100000x32, .f32⟩ : BufTy).Contents (Elt Ideal))
      = Cert.ReferenceIdeal.ReadP.val_main_v205 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg28)) (m ((c : Thread Cert.KernelIdeal.nD Cert.KernelIdeal.τ).loc Cert.KernelIdeal.main_arg29)) (m ((c : Thread Cert.KernelIdeal.nD Cert.KernelIdeal.τ).loc Cert.KernelIdeal.main_arg30)) (m ((c : Thread Cert.KernelIdeal.nD Cert.KernelIdeal.τ).loc Cert.KernelIdeal.main_arg31)) (m ((c : Thread Cert.KernelIdeal.nD Cert.KernelIdeal.τ).loc Cert.KernelIdeal.main_arg32)) (m ((c : Thread Cert.KernelIdeal.nD Cert.KernelIdeal.τ).loc Cert.KernelIdeal.main_arg33)) := by
  funext i
  obtain ⟨r, j, rfl⟩ : ∃ (r : Fin 100000) (j : Fin 32), i = ValueIdx.ix2 r j := ⟨i 0, i 1, ValueIdx.eq_ix2 i⟩
  rw [Cert.KernelIdeal.SageValue.d2_entry m ρ c r j, d1_eq m ρ c, t1_eq m ρ c]
  rw [Cert.ReferenceIdeal.SageRef.d2_apply, Cert.Sage.combK_eq_combR]
  rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

set_option maxHeartbeats 2000000 in
/-- At `Ideal`, from memories agreeing on the arguments, the kernel program's two result buffers end at launch 3's and
    launch 2's results, which are the reference's device and task outputs of the arguments (`d2_eq`, `t2_eq`), and the
    reference's run ends at those same stages. -/
theorem algebraic : Cert.algebraic_KernelIdeal_ReferenceIdeal := by
  intro m ρ m' ρ' _ hagree
  refine ⟨fun c => Cert.ReferenceIdeal.ReadP.val_main_v205 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg28)) (m ((c : Thread Cert.KernelIdeal.nD Cert.KernelIdeal.τ).loc Cert.KernelIdeal.main_arg29)) (m ((c : Thread Cert.KernelIdeal.nD Cert.KernelIdeal.τ).loc Cert.KernelIdeal.main_arg30)) (m ((c : Thread Cert.KernelIdeal.nD Cert.KernelIdeal.τ).loc Cert.KernelIdeal.main_arg31)) (m ((c : Thread Cert.KernelIdeal.nD Cert.KernelIdeal.τ).loc Cert.KernelIdeal.main_arg32)) (m ((c : Thread Cert.KernelIdeal.nD Cert.KernelIdeal.τ).loc Cert.KernelIdeal.main_arg33)),
    fun c => Cert.ReferenceIdeal.ReadP.val_main_v154 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)) (m ((c : Thread Cert.KernelIdeal.nD Cert.KernelIdeal.τ).loc Cert.KernelIdeal.main_arg25)) (m ((c : Thread Cert.KernelIdeal.nD Cert.KernelIdeal.τ).loc Cert.KernelIdeal.main_arg26)) (m ((c : Thread Cert.KernelIdeal.nD Cert.KernelIdeal.τ).loc Cert.KernelIdeal.main_arg27)), ?_, ?_⟩
  · exact (θ_run Cert.KernelIdeal.defs _ _).mono
      (fun r h c => ⟨(h c).1.trans (d2_eq m ρ c), (h c).2.1.trans (t2_eq m ρ c), (h c).2.2⟩)
      (Cert.KernelIdeal.SageRun.run_results (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10, e11, e12, e13, e14, e15, e16, e17, e18, e19, e20, e21, e22, e23, e24, e25, e26, e27, e28, e29, e30, e31, e32, e33⟩ := hagree c
      rw [Cert.ReferenceIdeal.ReadP.val_main_v205_eq m' c, e0, e1, e2, e3, e4, e5, e6, e7, e8, e9, e10, e11, e12, e13, e14, e15, e16, e17, e18, e19, e20, e21, e28, e29, e30, e31, e32, e33]
    · obtain ⟨e0, e1, e2, e3, e4, e5, e6, e7, e8, e9, e10, e11, e12, e13, e14, e15, e16, e17, e18, e19, e20, e21, e22, e23, e24, e25, e26, e27, e28, e29, e30, e31, e32, e33⟩ := hagree c
      rw [Cert.ReferenceIdeal.ReadP.val_main_v154_eq m' c, e0, e1, e2, e3, e4, e5, e6, e7, e8, e9, e10, e11, e12, e13, e14, e15, e16, e17, e18, e19, e20, e21, e22, e23, e24, e25, e26, e27]

end Cert.Proof.Sage

end
-- ==== Proof.lean ====
/-
  The certificate of the two-layer heterogeneous GraphSAGE combine: the Pallas kernel program (four launches of one
  combine kernel among host gathers and scatter-adds) against the plain jnp reference.

  Per destination type and layer both programs form, for every destination row, the combined message of the two
  relations ending at that type: each relation's neighbour mean (the neighbour sum over the neighbour count clamped at
  one) through its neighbour weights, plus its bias, plus the row's own features through its root weights; layer 1 is
  rectified. The kernel adds the six terms into one running sum, with bf16 casts around its four matrix products; the
  reference adds each relation's three terms and then the two relations. At the ideal instance a cast is the identity
  and a matrix product into a zero accumulator is the plain sum over the contracted index, so the two differ only by
  the association of a sum of extended reals, which is associative without any finiteness (Proof/SageSpec.lean).

  The modules: Proof/SageSpec.lean (one entry's two associations and their equality); Proof/SageK0.lean … SageK3.lean
  (each launch's result array, entry by entry, as the kernel's association of its operands as it finds them);
  Proof/SageRun.lean (the kernel program's run with its two results read off the last boundary's contents);
  Proof/SageHost.lean (every operand followed back through the program's boundaries to a named host chain of the
  arguments); Proof/SageValue.lean (the four results over those chains); Proof/SageRef.lean (the reference's four layer
  stages read entry by entry as the reference's association); Proof/SageBridge.lean (layer by layer the launches'
  results are the reference's stages; the five claims). The frames of the two kernel programs are generated; the
  idealization rewrote no operation, so `preserves` is `True`.
-/
import proofs.«180402_j10711648436497_1_alg».proof.Defs
import proofs.«180402_j10711648436497_1_alg».proof.Proof.Gen.Kernel
import proofs.«180402_j10711648436497_1_alg».proof.Proof.Gen.KernelIdeal
import proofs.«180402_j10711648436497_1_alg».proof.Proof.Gen.ReferenceIdeal
import proofs.«180402_j10711648436497_1_alg».proof.Proof.Gen.Pre_finite_inputs
import proofs.«180402_j10711648436497_1_alg».proof.Proof.SageBridge

noncomputable section

namespace Cert.Proof

theorem claim : Cert.Claim :=
  ⟨Cert.Kernel.Gen.facts, Cert.KernelIdeal.Gen.facts, Cert.ReferenceIdeal.Gen.facts, Cert.Pre_finite_inputs.Gen.facts,
    Sage.frame_k, Sage.frame_ki, Sage.frame_ri, trivial, Sage.algebraic⟩

end Cert.Proof

end
